-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x768 : Shape := ⟨3, ![64, 64, 768]⟩
abbrev S12x192x768 : Shape := ⟨3, ![12, 192, 768]⟩
abbrev S4096x49152 : Shape := ⟨2, ![4096, 49152]⟩
abbrev S4096 : Shape := ⟨1, ![4096]⟩
abbrev S_ : Shape := ⟨0, ![]⟩

class Facts : Prop where
  bcast_S_S64x64x768 : S_.BroadcastsInDim S64x64x768 (![] : Fin 0 → Fin S64x64x768.rank)
  reducesTo_S64x64x768_S_d0_1_2 : S64x64x768.ReducesTo [0, 1, 2] S_
  h_S_ : 0 < S_.numel
  bcast_S_S12x192x768 : S_.BroadcastsInDim S12x192x768 (![] : Fin 0 → Fin S12x192x768.rank)
  reducesTo_S12x192x768_S_d0_1_2 : S12x192x768.ReducesTo [0, 1, 2] S_
  bcast_S_S4096x49152 : S_.BroadcastsInDim S4096x49152 (![] : Fin 0 → Fin S4096x49152.rank)
  reducesTo_S4096x49152_S_d0_1 : S4096x49152.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S64x64x768 .f32) (main_arg1 : FVec F S12x192x768 .f32) (main_arg2 : FVec F S4096x49152 .f32) (main_arg3 : FVec F S4096 .f32) : IVec S_ 1 :=
  let main_v0 : FVec F S64x64x768 .f32 := Host.absf main_arg0
  let main_cst : FVec F S_ .f32 := constant S_ .f32 0x7F800000#32
  let main_v1 : FVec F S64x64x768 .f32 := broadcastInDim S64x64x768 ![] bcast_S_S64x64x768 main_cst
  let main_v2 : IVec S64x64x768 1 := cmpf .olt main_v0 main_v1
  let main_c : IVec S_ 1 := constantI S_ 1 1#1
  let main_v3 : IVec S_ 1 := (fun x v => Host.reduce IntOp.andi x v reducesTo_S64x64x768_S_d0_1_2 h_S_) main_v2 main_c
  let main_v4 : FVec F S12x192x768 .f32 := Host.absf main_arg1
  let main_cst_0 : FVec F S_ .f32 := constant S_ .f32 0x7F800000#32
  let main_v5 : FVec F S12x192x768 .f32 := broadcastInDim S12x192x768 ![] bcast_S_S12x192x768 main_cst_0
  let main_v6 : IVec S12x192x768 1 := cmpf .olt main_v4 main_v5
  let main_c_1 : IVec S_ 1 := constantI S_ 1 1#1
  let main_v7 : IVec S_ 1 := (fun x v => Host.reduce IntOp.andi x v reducesTo_S12x192x768_S_d0_1_2 h_S_) main_v6 main_c_1
  let main_v8 : IVec S_ 1 := andi main_v3 main_v7
  let main_v9 : FVec F S4096x49152 .f32 := Host.absf main_arg2
  let main_cst_2 : FVec F S_ .f32 := constant S_ .f32 0x7F800000#32
  let main_v10 : FVec F S4096x49152 .f32 := broadcastInDim S4096x49152 ![] bcast_S_S4096x49152 main_cst_2
  let main_v11 : IVec S4096x49152 1 := cmpf .olt main_v9 main_v10
  let main_c_3 : IVec S_ 1 := constantI S_ 1 1#1
  let main_v12 : IVec S_ 1 := (fun x v => Host.reduce IntOp.andi x v reducesTo_S4096x49152_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S64x64x768 : Shape := ⟨3, ![64, 64, 768]⟩
abbrev S12x192x768 : Shape := ⟨3, ![12, 192, 768]⟩
abbrev S4096x49152 : Shape := ⟨2, ![4096, 49152]⟩
abbrev S4096 : Shape := ⟨1, ![4096]⟩
abbrev S2304x768 : Shape := ⟨2, ![2304, 768]⟩
abbrev S64x12x64x64 : Shape := ⟨4, ![64, 12, 64, 64]⟩
abbrev S8x64x768 : Shape := ⟨3, ![8, 64, 768]⟩
abbrev S8x12x64x64 : Shape := ⟨4, ![8, 12, 64, 64]⟩
abbrev S64x64 : Shape := ⟨2, ![64, 64]⟩
abbrev S1x64x768 : Shape := ⟨3, ![1, 64, 768]⟩
abbrev S64x768 : Shape := ⟨2, ![64, 768]⟩
abbrev S64x2304 : Shape := ⟨2, ![64, 2304]⟩
abbrev S64x192 : Shape := ⟨2, ![64, 192]⟩
abbrev S64 : Shape := ⟨1, ![64]⟩
abbrev S64x1 : Shape := ⟨2, ![64, 1]⟩
abbrev S1x1x64x64 : Shape := ⟨4, ![1, 1, 64, 64]⟩
abbrev S64x49152 : Shape := ⟨2, ![64, 49152]⟩
abbrev S1x4096 : Shape := ⟨2, ![1, 4096]⟩
abbrev S64x4096 : Shape := ⟨2, ![64, 4096]⟩
abbrev S64x2048 : Shape := ⟨2, ![64, 2048]⟩
abbrev S1024x2048 : Shape := ⟨2, ![1024, 2048]⟩
abbrev S1x1024 : Shape := ⟨2, ![1, 1024]⟩
abbrev S64x1024 : Shape := ⟨2, ![64, 1024]⟩
abbrev S64x1x64x64 : Shape := ⟨4, ![64, 1, 64, 64]⟩

abbrev nBuf : Space → Nat
  | .hbm => 11
  | .vmem => 16
  | .smem => 0
  | _ => 0

abbrev bufTy : (tb : Table) → Fin (tcTables nBuf tb) → BufTy
  | .hbm, ⟨0, _⟩ => ⟨S64x64x768, .f32⟩
  | .hbm, ⟨1, _⟩ => ⟨S12x192x768, .f32⟩
  | .hbm, ⟨2, _⟩ => ⟨S4096x49152, .f32⟩
  | .hbm, ⟨3, _⟩ => ⟨S4096, .f32⟩
  | .hbm, ⟨4, _⟩ => ⟨S2304x768, .f32⟩
  | .hbm, ⟨5, _⟩ => ⟨S64x12x64x64, .f32⟩
  | .hbm, ⟨6, _⟩ => ⟨S64x12x64x64, .f32⟩
  | .hbm, ⟨7, _⟩ => ⟨S64x49152, .f32⟩
  | .hbm, ⟨8, _⟩ => ⟨S1x4096, .f32⟩
  | .hbm, ⟨9, _⟩ => ⟨S64x4096, .f32⟩
  | .hbm, ⟨10, _⟩ => ⟨S64x1x64x64, .f32⟩
  | .local _ .vmem, ⟨0, _⟩ => ⟨S8x64x768, .f32⟩
  | .local _ .vmem, ⟨1, _⟩ => ⟨S8x64x768, .f32⟩
  | .local _ .vmem, ⟨2, _⟩ => ⟨S2304x768, .f32⟩
  | .local _ .vmem, ⟨3, _⟩ => ⟨S8x12x64x64, .f32⟩
  | .local _ .vmem, ⟨4, _⟩ => ⟨S8x12x64x64, .f32⟩
  | .local _ .vmem, ⟨5, _⟩ => ⟨S8x12x64x64, .f32⟩
  | .local _ .vmem, ⟨6, _⟩ => ⟨S8x12x64x64, .f32⟩
  | .local _ .vmem, ⟨7, _⟩ => ⟨S64x2048, .f32⟩
  | .local _ .vmem, ⟨8, _⟩ => ⟨S64x2048, .f32⟩
  | .local _ .vmem, ⟨9, _⟩ => ⟨S1024x2048, .f32⟩
  | .local _ .vmem, ⟨10, _⟩ => ⟨S1024x2048, .f32⟩
  | .local _ .vmem, ⟨11, _⟩ => ⟨S1x1024, .f32⟩
  | .local _ .vmem, ⟨12, _⟩ => ⟨S1x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S64x64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_off1 (k0_t1 : Fin k0_t1_loop.trips) : Fin 3 → Nat :=
  let c0_i32 : BitVec 32 := 0#32
  let c1_i32 : BitVec 32 := 1#32
  let arg5 : BitVec 32 := Scf.iv c0_i32 c1_i32 k0_t1
  let v7 : Index := Scalar.indexCast arg5
  let c0_2 : Index := 0#32
  let c0_3 : Index := 0#32
  ![v7.toNat, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v35 : Index := Scalar.indexCast arg5
  let c0_10 : Index := 0#32
  let c0_11 : Index := 0#32
  let c0_12 : Index := 0#32
  ![v35.toNat, 0, 0, 0]
def k0_off3 (k0_t1 : Fin k0_t1_loop.trips) : Fin 4 → Nat :=
  let c0_i32 : BitVec 32 := 0#32
  let c1_i32 : BitVec 32 := 1#32
  let arg5 : BitVec 32 := Scf.iv c0_i32 c1_i32 k0_t1
  let v66 : Index := Scalar.indexCast arg5
  let c1 : Index := 1#32
  let c0_22 : Index := 0#32
  let c0_23 : Index := 0#32
  ![v66.toNat, 1, 0, 0]
def k0_off4 (k0_t1 : Fin k0_t1_loop.trips) : Fin 4 → Nat :=
  let c0_i32 : BitVec 32 := 0#32
  let c1_i32 : BitVec 32 := 1#32
  let arg5 : BitVec 32 := Scf.iv c0_i32 c1_i32 k0_t1
  let v97 : Index := Scalar.indexCast arg5
  let c2 : Index := 2#32
  let c0_33 : Index := 0#32
  let c0_34 : Index := 0#32
  ![v97.toNat, 2, 0, 0]
def k0_off5 (k0_t1 : Fin k0_t1_loop.trips) : Fin 4 → Nat :=
  let c0_i32 : BitVec 32 := 0#32
  let c1_i32 : BitVec 32 := 1#32
  let arg5 : BitVec 32 := Scf.iv c0_i32 c1_i32 k0_t1
  let v128 : Index := Scalar.indexCast arg5
  let c3 : Index := 3#32
  let c0_44 : Index := 0#32
  let c0_45 : Index := 0#32
  ![v128.toNat, 3, 0, 0]
def k0_off6 (k0_t1 : Fin k0_t1_loop.trips) : Fin 4 → Nat :=
  let c0_i32 : BitVec 32 := 0#32
  let c1_i32 : BitVec 32 := 1#32
  let arg5 : BitVec 32 := Scf.iv c0_i32 c1_i32 k0_t1
  let v159 : Index := Scalar.indexCast arg5
  let c4 : Index := 4#32
  let c0_55 : Index := 0#32
  let c0_56 : Index := 0#32
  ![v159.toNat, 4, 0, 0]
def k0_off7 (k0_t1 : Fin k0_t1_loop.trips) : Fin 4 → Nat :=
  let c0_i32 : BitVec 32 := 0#32
  let c1_i32 : BitVec 32 := 1#32
  let arg5 : BitVec 32 := Scf.iv c0_i32 c1_i32 k0_t1
  let v190 : Index := Scalar.indexCast arg5
  let c5 : Index := 5#32
  let c0_66 : Index := 0#32
  let c0_67 : Index := 0#32
  ![v190.toNat, 5, 0, 0]
def k0_off8 (k0_t1 : Fin k0_t1_loop.trips) : Fin 4 → Nat :=
  let c0_i32 : BitVec 32 := 0#32
  let c1_i32 : BitVec 32 := 1#32
  let arg5 : BitVec 32 := Scf.iv c0_i32 c1_i32 k0_t1
  let v221 : Index := Scalar.indexCast arg5
  let c6 : Index := 6#32
  let c0_77 : Index := 0#32
  let c0_78 : Index := 0#32
  ![v221.toNat, 6, 0, 0]
def k0_off9 (k0_t1 : Fin k0_t1_loop.trips) : Fin 4 → Nat :=
  let c0_i32 : BitVec 32 := 0#32
  let c1_i32 : BitVec 32 := 1#32
  let arg5 : BitVec 32 := Scf.iv c0_i32 c1_i32 k0_t1
  let v252 : Index := Scalar.indexCast arg5
  let c7 : Index := 7#32
  let c0_88 : Index := 0#32
  let c0_89 : Index := 0#32
  ![v252.toNat, 7, 0, 0]
def k0_off10 (k0_t1 : Fin k0_t1_loop.trips) : Fin 4 → Nat :=
  let c0_i32 : BitVec 32 := 0#32
  let c1_i32 : BitVec 32 := 1#32
  let arg5 : BitVec 32 := Scf.iv c0_i32 c1_i32 k0_t1
  let v283 : Index := Scalar.indexCast arg5
  let c8 : Index := 8#32
  let c0_99 : Index := 0#32
  let c0_100 : Index := 0#32
  ![v283.toNat, 8, 0, 0]
def k0_off11 (k0_t1 : Fin k0_t1_loop.trips) : Fin 4 → Nat :=
  let c0_i32 : BitVec 32 := 0#32
  let c1_i32 : BitVec 32 := 1#32
  let arg5 : BitVec 32 := Scf.iv c0_i32 c1_i32 k0_t1
  let v314 : Index := Scalar.indexCast arg5
  let c9 : Index := 9#32
  let c0_110 : Index := 0#32
  let c0_111 : Index := 0#32
  ![v314.toNat, 9, 0, 0]
def k0_off12 (k0_t1 : Fin k0_t1_loop.trips) : Fin 4 → Nat :=
  let c0_i32 : BitVec 32 := 0#32
  let c1_i32 : BitVec 32 := 1#32
  let arg5 : BitVec 32 := Scf.iv c0_i32 c1_i32 k0_t1
  let v345 : Index := Scalar.indexCast arg5
  let c10 : Index := 10#32
  let c0_121 : Index := 0#32
  let c0_122 : Index := 0#32
  ![v345.toNat, 10, 0, 0]
def k0_off13 (k0_t1 : Fin k0_t1_loop.trips) : Fin 4 → Nat :=
  let c0_i32 : BitVec 32 := 0#32
  let c1_i32 : BitVec 32 := 1#32
  let arg5 : BitVec 32 := Scf.iv c0_i32 c1_i32 k0_t1
  let v376 : Index := Scalar.indexCast arg5
  let c11 : Index := 11#32
  let c0_132 : Index := 0#32
  let c0_133 : Index := 0#32
  ![v376.toNat, 11, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x12x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x12x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 24], ![false, false]⟩

def k1_cond2 (i : grid1.Coords) : BitVec 1 :=
  let arg1 : BitVec 32 := BitVec.ofNat 32 (i 1).val
  let c23_i32 : BitVec 32 := 23#32
  let v14 : BitVec 1 := Scalar.cmpi .eq arg1 c23_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S12x192x768_S2304x768 : S12x192x768.ShapeCasts S2304x768
  iota_S64x64_d0_w32 : S64x64.Iotas .tc 32 [0]
  iota_S64x64_d1_w32 : S64x64.Iotas .tc 32 [1]
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  bitsLt_bf16_f32 : FTy.bits .bf16 < FTy.bits .f32
  h_S1x64x768 : 0 < S1x64x768.numel
  shapeCasts_S1x64x768_S64x768 : S1x64x768.ShapeCasts S64x768
  slices_S64x2304_o0_0_S64x192 : S64x2304.Slices ![0, 0] S64x192
  slices_S64x192_o0_0_S64x64 : S64x192.Slices ![0, 0] S64x64
  slices_S64x192_o0_64_S64x64 : S64x192.Slices ![0, 64] S64x64
  slices_S64x192_o0_128_S64x64 : S64x192.Slices ![0, 128] S64x64
  reduces_S64x64_S64 : S64x64.Reduces [1] S64
  shapeCasts_S64_S64x1 : S64.ShapeCasts S64x1
  broadcasts_S64x1_S64x64 : S64x1.Broadcasts S64x64
  h_S1x1x64x64 : 0 < S1x1x64x64.numel
  shapeCasts_S1x1x64x64_S64x64 : S1x1x64x64.ShapeCasts S64x64
  shapeCasts_S64x64_S1x1x64x64 : S64x64.ShapeCasts S1x1x64x64
  slices_S64x2304_o0_192_S64x192 : S64x2304.Slices ![0, 192] S64x192
  slices_S64x2304_o0_384_S64x192 : S64x2304.Slices ![0, 384] S64x192
  slices_S64x2304_o0_576_S64x192 : S64x2304.Slices ![0, 576] S64x192
  slices_S64x2304_o0_768_S64x192 : S64x2304.Slices ![0, 768] S64x192
  slices_S64x2304_o0_960_S64x192 : S64x2304.Slices ![0, 960] S64x192
  slices_S64x2304_o0_1152_S64x192 : S64x2304.Slices ![0, 1152] S64x192
  slices_S64x2304_o0_1344_S64x192 : S64x2304.Slices ![0, 1344] S64x192
  slices_S64x2304_o0_1536_S64x192 : S64x2304.Slices ![0, 1536] S64x192
  slices_S64x2304_o0_1728_S64x192 : S64x2304.Slices ![0, 1728] S64x192
  slices_S64x2304_o0_1920_S64x192 : S64x2304.Slices ![0, 1920] S64x192
  slices_S64x2304_o0_2112_S64x192 : S64x2304.Slices ![0, 2112] S64x192
  shapeCasts_S64x12x64x64_S64x49152 : S64x12x64x64.ShapeCasts S64x49152
  shapeCasts_S4096_S1x4096 : S4096.ShapeCasts S1x4096
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S1024x2048_S1024x2048_0_0 : ∀ a, (![0, 0] : Fin 2 → Nat) a + S1024x2048.size a ≤ S1024x2048.size a
  h_S1024x2048 : 0 < S1024x2048.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  shapeCasts_S64x4096_S64x1x64x64 : S64x4096.ShapeCasts S64x1x64x64
  dot_S64x768_S2304x768_S64x2304_1_1_0_0_n_n_wf : DotDims.WF S64x768 S2304x768 S64x2304 [1] [1] [0] [0] [] []
  dot_S64x64_S64x64_S64x64_1_1_0_0_n_n_wf : DotDims.WF S64x64 S64x64 S64x64 [1] [1] [0] [0] [] []
  dot_S64x64_S64x64_S64x64_1_0_0_1_n_n_wf : DotDims.WF S64x64 S64x64 S64x64 [1] [0] [0] [1] [] []
  dot_S64x2048_S1024x2048_S64x1024_1_1_0_0_n_n_wf : DotDims.WF S64x2048 S1024x2048 S64x1024 [1] [1] [0] [0] [] []
  hrank0 : 0 < grid0.rank
  k0_t1_ok : k0_t1_loop.OK
  k0_off1_inb : ∀ k0_t1 : Fin k0_t1_loop.trips, ∀ a, (k0_off1 k0_t1) a + S1x64x768.size a ≤ S8x64x768.size a
  k0_off2_inb : ∀ k0_t1 : Fin k0_t1_loop.trips, ∀ a, (k0_off2 k0_t1) a + S1x1x64x64.size a ≤ S8x12x64x64.size a
  k0_off3_inb : ∀ k0_t1 : Fin k0_t1_loop.trips, ∀ a, (k0_off3 k0_t1) a + S1x1x64x64.size a ≤ S8x12x64x64.size a
  k0_off4_inb : ∀ k0_t1 : Fin k0_t1_loop.trips, ∀ a, (k0_off4 k0_t1) a + S1x1x64x64.size a ≤ S8x12x64x64.size a
  k0_off5_inb : ∀ k0_t1 : Fin k0_t1_loop.trips, ∀ a, (k0_off5 k0_t1) a + S1x1x64x64.size a ≤ S8x12x64x64.size a
  k0_off6_inb : ∀ k0_t1 : Fin k0_t1_loop.trips, ∀ a, (k0_off6 k0_t1) a + S1x1x64x64.size a ≤ S8x12x64x64.size a
  k0_off7_inb : ∀ k0_t1 : Fin k0_t1_loop.trips, ∀ a, (k0_off7 k0_t1) a + S1x1x64x64.size a ≤ S8x12x64x64.size a
  k0_off8_inb : ∀ k0_t1 : Fin k0_t1_loop.trips, ∀ a, (k0_off8 k0_t1) a + S1x1x64x64.size a ≤ S8x12x64x64.size a
  k0_off9_inb : ∀ k0_t1 : Fin k0_t1_loop.trips, ∀ a, (k0_off9 k0_t1) a + S1x1x64x64.size a ≤ S8x12x64x64.size a
  k0_off10_inb : ∀ k0_t1 : Fin k0_t1_loop.trips, ∀ a, (k0_off10 k0_t1) a + S1x1x64x64.size a ≤ S8x12x64x64.size a
  k0_off11_inb : ∀ k0_t1 : Fin k0_t1_loop.trips, ∀ a, (k0_off11 k0_t1) a + S1x1x64x64.size a ≤ S8x12x64x64.size a
  k0_off12_inb : ∀ k0_t1 : Fin k0_t1_loop.trips, ∀ a, (k0_off12 k0_t1) a + S1x1x64x64.size a ≤ S8x12x64x64.size a
  k0_off13_inb : ∀ k0_t1 : Fin k0_t1_loop.trips, ∀ a, (k0_off13 k0_t1) a + S1x1x64x64.size a ≤ S8x12x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x768.size a ≤ S64x64x768.size a
  hwx0_0 : ∀ i : grid0.Coords, EltTy.bits .f32 = 32 ∨ (Rect.block (s := S64x64x768) S8x64x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .f32 = 32 ∨ (Rect.block (s := S2304x768) S2304x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x12x64x64.size a ≤ S64x12x64x64.size a
  hwx0_2 : ∀ i : grid0.Coords, EltTy.bits .f32 = 32 ∨ (Rect.block (s := S64x12x64x64) S8x12x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x12x64x64.size a ≤ S64x12x64x64.size a
  hwx0_3 : ∀ i : grid0.Coords, EltTy.bits .f32 = 32 ∨ (Rect.block (s := S64x12x64x64) S8x12x64x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x49152.size a
  hwx1_0 : ∀ i : grid1.Coords, EltTy.bits .f32 = 32 ∨ (Rect.block (s := S64x49152) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x49152.size a
  hwx1_1 : ∀ i : grid1.Coords, EltTy.bits .f32 = 32 ∨ (Rect.block (s := S4096x49152) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S64x4096.size a
  hwx1_3 : ∀ i : grid1.Coords, EltTy.bits .f32 = 32 ∨ (Rect.block (s := S64x4096) S64x1024.size (cc1_transform_3 i) (hinb1_3 i)).WholeWords (EltTy.packing .f32)

variable [Facts₀]

def dot_S64x768_S2304x768_S64x2304_1_1_0_0_n_n : DotDims S64x768 S2304x768 S64x2304 where
  lhsContracting := [1]
  rhsContracting := [1]
  lhsNonContracting := [0]
  rhsNonContracting := [0]
  lhsBatch := []
  rhsBatch := []
  wf := dot_S64x768_S2304x768_S64x2304_1_1_0_0_n_n_wf
def dot_S64x64_S64x64_S64x64_1_1_0_0_n_n : DotDims S64x64 S64x64 S64x64 where
  lhsContracting := [1]
  rhsContracting := [1]
  lhsNonContracting := [0]
  rhsNonContracting := [0]
  lhsBatch := []
  rhsBatch := []
  wf := dot_S64x64_S64x64_S64x64_1_1_0_0_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S8x64x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S8x12x64x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S8x12x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S64x64x768 : Shape := ⟨3, ![64, 64, 768]⟩
abbrev S12x192x768 : Shape := ⟨3, ![12, 192, 768]⟩
abbrev S4096x49152 : Shape := ⟨2, ![4096, 49152]⟩
abbrev S4096 : Shape := ⟨1, ![4096]⟩
abbrev S12x192x64x64 : Shape := ⟨4, ![12, 192, 64, 64]⟩
abbrev S64x12x64x192 : Shape := ⟨4, ![64, 12, 64, 192]⟩
abbrev S64x12x64x64 : Shape := ⟨4, ![64, 12, 64, 64]⟩
abbrev S_ : Shape := ⟨0, ![]⟩
abbrev S64x64 : Shape := ⟨2, ![64, 64]⟩
abbrev S64x12x64 : Shape := ⟨3, ![64, 12, 64]⟩
abbrev S64x12x64x1 : Shape := ⟨4, ![64, 12, 64, 1]⟩
abbrev S64x49152 : Shape := ⟨2, ![64, 49152]⟩
abbrev S49152x4096 : Shape := ⟨2, ![49152, 4096]⟩
abbrev S64x4096 : Shape := ⟨2, ![64, 4096]⟩
abbrev S1x4096 : Shape := ⟨2, ![1, 4096]⟩
abbrev S64x1x64x64 : Shape := ⟨4, ![64, 1, 64, 64]⟩

abbrev nBuf : Space → Nat
  | .hbm => 52
  | .vmem => 0
  | .smem => 0
  | _ => 0

abbrev bufTy : (tb : Table) → Fin (tcTables nBuf tb) → BufTy
  | .hbm, ⟨0, _⟩ => ⟨S64x64x768, .f32⟩
  | .hbm, ⟨1, _⟩ => ⟨S12x192x768, .f32⟩
  | .hbm, ⟨2, _⟩ => ⟨S4096x49152, .f32⟩
  | .hbm, ⟨3, _⟩ => ⟨S4096, .f32⟩
  | .hbm, ⟨4, _⟩ => ⟨S12x192x64x64, .f32⟩
  | .hbm, ⟨5, _⟩ => ⟨S64x12x64x192, .f32⟩
  | .hbm, ⟨6, _⟩ => ⟨S64x12x64x64, .f32⟩
  | .hbm, ⟨7, _⟩ => ⟨S64x12x64x64, .f32⟩
  | .hbm, ⟨8, _⟩ => ⟨S64x12x64x64, .f32⟩
  | .hbm, ⟨9, _⟩ => ⟨S64x12x64x64, .f32⟩
  | .hbm, ⟨10, _⟩ => ⟨S_, .f32⟩
  | .hbm, ⟨11, _⟩ => ⟨S_, .f32⟩
  | .hbm, ⟨12, _⟩ => ⟨S64x12x64x64, .f32⟩
  | .hbm, ⟨13, _⟩ => ⟨S64x12x64x64, .f32⟩
  | .hbm, ⟨14, _⟩ => ⟨S_, .i1⟩
  | .hbm, ⟨15, _⟩ => ⟨S64x64, .i1⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i32⟩
  | .hbm, ⟨20, _⟩ => ⟨S64x64, .i32⟩
  | .hbm, ⟨21, _⟩ => ⟨S64x64, .i1⟩
  | .hbm, ⟨22, _⟩ => ⟨S_, .i1⟩
  | .hbm, ⟨23, _⟩ => ⟨S64x64, .i1⟩
  | .hbm, ⟨24, _⟩ => ⟨S64x64, .i1⟩
  | .hbm, ⟨25, _⟩ => ⟨S_, .f32⟩
  | .hbm, ⟨26, _⟩ => ⟨S_, .f32⟩
  | .hbm, ⟨27, _⟩ => ⟨S64x12x64x64, .i1⟩
  | .hbm, ⟨28, _⟩ => ⟨S64x12x64x64, .f32⟩
  | .hbm, ⟨29, _⟩ => ⟨S64x12x64x64, .f32⟩
  | .hbm, ⟨30, _⟩ => ⟨S_, .f32⟩
  | .hbm, ⟨31, _⟩ => ⟨S64x12x64, .f32⟩
  | .hbm, ⟨32, _⟩ => ⟨S_, .f32⟩
  | .hbm, ⟨33, _⟩ => ⟨S64x12x64, .f32⟩
  | .hbm, ⟨34, _⟩ => ⟨S64x12x64, .f32⟩
  | .hbm, ⟨35, _⟩ => ⟨S64x12x64x1, .f32⟩
  | .hbm, ⟨36, _⟩ => ⟨S64x12x64x64, .f32⟩
  | .hbm, ⟨37, _⟩ => ⟨S64x12x64x64, .f32⟩
  | .hbm, ⟨38, _⟩ => ⟨S64x12x64x64, .f32⟩
  | .hbm, ⟨39, _⟩ => ⟨S_, .f32⟩
  | .hbm, ⟨40, _⟩ => ⟨S64x12x64, .f32⟩
  | .hbm, ⟨41, _⟩ => ⟨S64x12x64x1, .f32⟩
  | .hbm, ⟨42, _⟩ => ⟨S64x12x64x64, .f32⟩
  | .hbm, ⟨43, _⟩ => ⟨S64x12x64x64, .f32⟩
  | .hbm, ⟨44, _⟩ => ⟨S64x12x64x64, .f32⟩
  | .hbm, ⟨45, _⟩ => ⟨S64x49152, .f32⟩
  | .hbm, ⟨46, _⟩ => ⟨S49152x4096, .f32⟩
  | .hbm, ⟨47, _⟩ => ⟨S64x4096, .f32⟩
  | .hbm, ⟨48, _⟩ => ⟨S1x4096, .f32⟩
  | .hbm, ⟨49, _⟩ => ⟨S64x4096, .f32⟩
  | .hbm, ⟨50, _⟩ => ⟨S64x4096, .f32⟩
  | .hbm, ⟨51, _⟩ => ⟨S64x1x64x64, .f32⟩
  | _, _ => ⟨S64x64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v10 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  transposes_S12x192x64x64_S64x12x64x192_2_0_3_1 : S12x192x64x64.Transposes [2, 0, 3, 1] S64x12x64x192
  slices_S64x12x64x192_S64x12x64x64_0_0_0_0 : S64x12x64x192.Slices ![0, 0, 0, 0] S64x12x64x64
  slices_S64x12x64x192_S64x12x64x64_0_0_0_64 : S64x12x64x192.Slices ![0, 0, 0, 64] S64x12x64x64
  slices_S64x12x64x192_S64x12x64x64_0_0_0_128 : S64x12x64x192.Slices ![0, 0, 0, 128] S64x12x64x64
  bcast_S_S64x12x64x64 : S_.BroadcastsInDim S64x12x64x64 (![] : Fin 0 → Fin S64x12x64x64.rank)
  bcast_S_S64x64 : S_.BroadcastsInDim S64x64 (![] : Fin 0 → Fin S64x64.rank)
  bcast_S64x64_S64x12x64x64_2_3 : S64x64.BroadcastsInDim S64x12x64x64 (![2, 3] : Fin 2 → Fin S64x12x64x64.rank)
  reducesTo_S64x12x64x64_S64x12x64_d3 : S64x12x64x64.ReducesTo [3] S64x12x64
  h_S_ : 0 < S_.numel
  bcast_S_S64x12x64 : S_.BroadcastsInDim S64x12x64 (![] : Fin 0 → Fin S64x12x64.rank)
  bcast_S64x12x64_S64x12x64x1_0_1_2 : S64x12x64.BroadcastsInDim S64x12x64x1 (![0, 1, 2] : Fin 3 → Fin S64x12x64x1.rank)
  bcast_S64x12x64x1_S64x12x64x64_0_1_2_3 : S64x12x64x1.BroadcastsInDim S64x12x64x64 (![0, 1, 2, 3] : Fin 4 → Fin S64x12x64x64.rank)
  shapeCasts_S64x12x64x64_S64x49152 : S64x12x64x64.ShapeCasts S64x49152
  transposes_S4096x49152_S49152x4096_1_0 : S4096x49152.Transposes [1, 0] S49152x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  shapeCasts_S64x4096_S64x1x64x64 : S64x4096.ShapeCasts S64x1x64x64
  dot_S12x192x768_S64x64x768_S12x192x64x64_2_2_01_01_n_n_wf : DotDims.WF S12x192x768 S64x64x768 S12x192x64x64 [2] [2] [0, 1] [0, 1] [] []
  dot_S64x12x64x64_S64x12x64x64_S64x12x64x64_3_3_2_2_01_01_wf : DotDims.WF S64x12x64x64 S64x12x64x64 S64x12x64x64 [3] [3] [2] [2] [0, 1] [0, 1]
  dot_S64x12x64x64_S64x12x64x64_S64x12x64x64_3_2_2_3_01_01_wf : DotDims.WF S64x12x64x64 S64x12x64x64 S64x12x64x64 [3] [2] [2] [3] [0, 1] [0, 1]
  dot_S64x49152_S49152x4096_S64x4096_1_0_0_1_n_n_wf : DotDims.WF S64x49152 S49152x4096 S64x4096 [1] [0] [0] [1] [] []

variable [Facts₀]

def dot_S12x192x768_S64x64x768_S12x192x64x64_2_2_01_01_n_n : DotDims S12x192x768 S64x64x768 S12x192x64x64 where
  lhsContracting := [2]
  rhsContracting := [2]
  lhsNonContracting := [0, 1]
  rhsNonContracting := [0, 1]
  lhsBatch := []
  rhsBatch := []
  wf := dot_S12x192x768_S64x64x768_S12x192x64x64_2_2_01_01_n_n_wf
def dot_S64x12x64x64_S64x12x64x64_S64x12x64x64_3_3_2_2_01_01 : DotDims S64x12x64x64 S64x12x64x64 S64x12x64x64 where
  lhsContracting := [3]
  rhsContracting := [3]
  lhsNonContracting := [2]
  rhsNonContracting := [2]
  lhsBatch := [0, 1]
  rhsBatch := [0, 1]
  wf := dot_S64x12x64x64_S64x12x64x64_S64x12x64x64_3_3_2_2_01_01_wf
def dot_S64x12x64x64_S64x12x64x64_S64x12x64x64_3_2_2_3_01_01 : DotDims S64x12x64x64 S64x12x64x64 S64x12x64x64 where
  lhsContracting := [3]
  rhsContracting := [2]
  lhsNonContracting := [2]
  rhsNonContracting := [3]
  lhsBatch := [0, 1]
  rhsBatch := [0, 1]
  wf := dot_S64x12x64x64_S64x12x64x64_S64x12x64x64_3_2_2_3_01_01_wf
def dot_S64x49152_S49152x4096_S64x4096_1_0_0_1_n_n : DotDims S64x49152 S49152x4096 S64x4096 where
  lhsContracting := [1]
  rhsContracting := [0]
  lhsNonContracting := [0]
  rhsNonContracting := [1]
  lhsBatch := []
  rhsBatch := []
  wf := dot_S64x49152_S49152x4096_S64x4096_1_0_0_1_n_n_wf

class Facts : Prop extends Facts₀ where

variable [Facts]
-- ==== Proof.K.AttnTiles.lean ====
/-
  The attention kernel's region, seen from the pipeline that launches it: what one call of the body leaves in its
  two output blocks, the body's triple, and the proof data of the region, at ANY float instance and for any contents
  `V` of the device's buffers when the region is entered.

  One call handles a block of 8 batch rows. Its body is a counted loop over the 8 rows; trip `k` reads row `k` of the
  input block and the whole projection matrix, and stores, for each of the 12 heads `n`, one 64×64 tile of the
  context block and one of the score block at the offsets `(k, n, 0, 0)`. So after the 8 trips the 96 tiles written
  into each output block tile it, and the block holds a function of the two input blocks alone: whatever the staging
  buffer held before does not matter (`read_writes_eq_canon`). The tiles of a trip are themselves functions of the
  trip's loads alone (`tripL_indep`), although the loop's invariant states them over the contents the trip finds.
-/
import proofs.«148574_j76940044140789_2_alg».proof.Proof.Gen.Kernel.Launch
import proofs.«148574_j76940044140789_2_alg».proof.Proof.Gen.Kernel.Skeleton
import proofs.«148574_j76940044140789_2_alg».proof.Proof.Gen.Kernel.Points
import proofs.«148574_j76940044140789_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles written by the loop do not depend on what the output buffers held -/

/-- The tiles one trip writes are the same whatever the two output buffers hold when the trip starts. -/
theorem tripL_indep (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec F S2304x768 .f32) (X_arg1 : BufTy.Contents (Elt F) arg1.view.ty) (k : Fin k0_t1_loop.trips)
    (f3 g3 : BufTy.Contents (Elt F) arg3.view.ty) (f4 g4 : BufTy.Contents (Elt F) arg4.view.ty) :
    tripL_k0_t1 (F := F) 𝒱 c bd i arg1 harg1 arg2 harg2 arg3 harg3 arg4 harg4 v3 X_arg1 k f3 f4
      = tripL_k0_t1 (F := F) 𝒱 c bd i arg1 harg1 arg2 harg2 arg3 harg3 arg4 harg4 v3 X_arg1 k g3 g4 := by
  unfold tripL_k0_t1 trip_k0_t1
  rfl

/-- Hence so are the tiles of the trips before `n`. -/
theorem pb_indep (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec F S2304x768 .f32) (X_arg1 : BufTy.Contents (Elt F) arg1.view.ty)
    (G3 G3' : BufTy.Contents (Elt F) arg3.view.ty) (G4 G4' : BufTy.Contents (Elt F) arg4.view.ty) :
    ∀ n : ℕ, pb_k0_t1 (F := F) 𝒱 c bd i arg1 harg1 arg2 harg2 arg3 harg3 arg4 harg4 v3 X_arg1 G3 G4 n
      = pb_k0_t1 (F := F) 𝒱 c bd i arg1 harg1 arg2 harg2 arg3 harg3 arg4 harg4 v3 X_arg1 G3' G4' n
  | 0 => rfl
  | n + 1 => by
      rw [pb_k0_t1.eq_2, pb_k0_t1.eq_2, pb_indep 𝒱 c bd i arg1 harg1 arg2 harg2 arg3 harg3 arg4 harg4 v3 X_arg1 G3 G3' G4 G4' n]
      unfold pb_k0_t1Step
      by_cases h : n < k0_t1_loop.trips
      · rw [dif_pos h, dif_pos h,
          tripL_indep 𝒱 c bd i arg1 harg1 arg2 harg2 arg3 harg3 arg4 harg4 v3 X_arg1 ⟨n, h⟩ _ (arg3.view.writes (Elt F) G3' _) _ (arg4.view.writes (Elt F) G4' _)]
      · rw [dif_neg h, dif_neg h]

/-! ## What one call leaves in the two output blocks -/

/-- The projection matrix as the body loads it: the whole second input block. -/
abbrev wAll (arg2 : Memref sig .tc .vmem S2304x768 .f32) (harg2 : arg2.IsWhole) (x1 : Vec F S2304x768 .f32) : Vec F S2304x768 .f32 :=
  View.readAt (Elt F) arg2.view (Rect.unit (s := S2304x768) ![0, 0] S2304x768.size inb_S2304x768_S2304x768_0_0).toLoadRect (harg2.unread x1)

/-- The 96 + 96 tiles the eight trips write (last first), from the two input blocks. -/
def tiles (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) :
    List (View.Piece (Elt F) S8x12x64x64 .f32) × List (View.Piece (Elt F) S8x12x64x64 .f32) :=
  pb_k0_t1 (F := F) Variants.none c none i arg1 harg1 arg2 harg2 arg3 harg3 arg4 harg4 (wAll arg2 harg2 x1) (harg1.unread x0) arg3.view.junk arg4.view.junk
    (Scf.trips k0_t1_loop.lb k0_t1_loop.ub k0_t1_loop.st)

/-- The context block after the call. -/
def out0_2 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) : Vec F S8x12x64x64 .f32 :=
  View.canon (tiles c i arg1 harg1 arg2 harg2 arg3 harg3 arg4 harg4 x0 x1).1
/-- The score block after the call. -/
def out0_3 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) : Vec F S8x12x64x64 .f32 :=
  View.canon (tiles c i arg1 harg1 arg2 harg2 arg3 harg3 arg4 harg4 x0 x1).2

/-- The context tiles tile their block. -/
theorem cover0_2 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) (y : S8x12x64x64.Idx) :
    ∃ pc ∈ (tiles c i arg1 harg1 arg2 harg2 arg3 harg3 arg4 harg4 x0 x1).1, y ∈ pc.1.set :=
  View.cover_of_tiledL (tiles c i arg1 harg1 arg2 harg2 arg3 harg3 arg4 harg4 x0 x1).1 S1x1x64x64.size (by sl_kernel_rfl) y
/-- The score tiles tile their block. -/
theorem cover0_3 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) (y : S8x12x64x64.Idx) :
    ∃ pc ∈ (tiles c i arg1 harg1 arg2 harg2 arg3 harg3 arg4 harg4 x0 x1).2, y ∈ pc.1.set :=
  View.cover_of_tiledL (tiles c i arg1 harg1 arg2 harg2 arg3 harg3 arg4 harg4 x0 x1).2 S1x1x64x64.size (by sl_kernel_rfl) y

end Cert.Kernel.Attn
end
-- ==== Proof.K.Attn.lean ====
/-
  The attention kernel's region: the body's triple and the region's proof data (continued from AttnTiles).
  The two inputs' staging buffers hold their blocks at every point (the row block is fetched at every point; the
  projection matrix, whose block index never moves, only at the first); each output's staging buffer is left at the
  function `out0_2` / `out0_3` of the two input blocks.
-/
import proofs.«148574_j76940044140789_2_alg».proof.Proof.Gen.Kernel.Launch
import proofs.«148574_j76940044140789_2_alg».proof.Proof.Gen.Kernel.Skeleton
import proofs.«148574_j76940044140789_2_alg».proof.Proof.Gen.Kernel.Points
import proofs.«148574_j76940044140789_2_alg».proof.Proof.Gen.Kernel.Loops
import proofs.«148574_j76940044140789_2_alg».proof.Proof.K.AttnTiles
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection-matrix window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 2000000 in
/-- The body on whole staging memrefs, the inputs' at contents `x0`, `x1` and the outputs' at anything, runs to the
    continuation holding the inputs' as they were and the outputs' at `out0_2`, `out0_3` of the inputs': the loop
    goes by its invariant, and the 96 tiles it leaves in each output cover it. -/
theorem sound_kernel0 (c : Dev nD) (E : Set ℕ) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole)
    (x0 : Vec F S8x64x768 .f32) (x1 : Vec F S2304x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 c i arg1 harg1 arg2 harg2 arg3 harg3 arg4 harg4 x0 x1)
            ∗ owns (c : Thread nD τ) arg4 fullShare (out0_3 c i arg1 harg1 arg2 harg2 arg3 harg3 arg4 harg4 x0 x1)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    exact (congrArg (fun L => arg3.view.read (Elt F) (arg3.view.writes (Elt F) f2 L.1))
        (pb_indep Variants.none c none i arg1 harg1 arg2 harg2 arg3 harg3 arg4 harg4 _ _ f2 arg3.view.junk f3 arg4.view.junk _)).trans
      (View.read_writes_eq_canon _ _ _ (cover0_2 c i arg1 harg1 arg2 harg2 arg3 harg3 arg4 harg4 x0 x1))
  · iexists _; isplitr
    swap; · iexact H3
    ipureintro
    exact (congrArg (fun L => arg4.view.read (Elt F) (arg4.view.writes (Elt F) f3 L.2))
        (pb_indep Variants.none c none i arg1 harg1 arg2 harg2 arg3 harg3 arg4 harg4 _ _ f2 arg3.view.junk f3 arg4.view.junk _)).trans
      (View.read_writes_eq_canon _ _ _ (cover0_3 c i arg1 harg1 arg2 harg2 arg3 harg3 arg4 harg4 x0 x1))

/-! ## The region's proof data -/

/-- The proof data of the attention pipeline on core `c`: the arrays as the region finds them; after the body at point
    `t` each input's buffer at its block and each output's at its function of the two input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t)
    | ⟨3, _⟩ => out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t) := by dsimp only [dat0]
theorem after0_3 (c : Dev nD) (t : Fin cfg0.N) : (dat0 V c).after 3 t = out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Attn
end
-- ==== Proof.K.LinRuns.lean ====
/- The linear kernel's pipeline (the second pallas_call of `Kernel`), what its three body runs
   share. The body has two conditionals on the second grid coordinate k: "k = 0" (zero the accumulator)
   and "k = 23" (add the bias and store the output block). Over the 4 x 24 grid, point t has k = t % 24,
   so a point is in exactly one of three cases:
     A  (t % 24 = 0)   the accumulator is zeroed, then accumulated into; the output is not stored;
     B  (0 < t % 24 < 23)  the accumulator is accumulated into; the output is not stored;
     C  (t % 24 = 23)  the accumulator is accumulated into, and the output block is stored.
   Here: the two conditions in closed form, decided over the 96 points; where the output window is idle
   and where it is written back; the staging and scratch memrefs the body is called with; and the region
   invariant with the scratch accumulator spelled as a memref. -/
import proofs.«148574_j76940044140789_2_alg».proof.Proof.Gen.Kernel.Launch
import proofs.«148574_j76940044140789_2_alg».proof.Proof.Gen.Kernel.Skeleton
import proofs.«148574_j76940044140789_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option Elab.async false

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The condition of the body's first conditional ("k = 0"), from the grid coordinates: the scalar chain
    the body computes it by, substituted. -/
abbrev cond1_0 (i : grid1.Coords) : Prop :=
  (Scalar.cmpi .ne (Scalar.extui (Scalar.cmpi .eq (BitVec.ofNat 32 (i 1).val) 0#32)) 0#32) = 1#1
/-- It holds exactly at the first point of each run of 24. -/
theorem hcond1_0 : ∀ t : Fin cfg1.N, cond1_0 (grid1.coords t) ↔ t.val % 24 = 0 :=
  (by decide +kernel : ∀ t : Fin grid1.N, cond1_0 (grid1.coords t) ↔ t.val % 24 = 0)

/-- The condition of the body's second conditional ("k = 23"). -/
abbrev cond1_1 (i : grid1.Coords) : Prop := k1_cond2 i = 1#1
/-- It holds exactly at the last point of each run of 24. -/
theorem hcond1_1 : ∀ t : Fin cfg1.N, cond1_1 (grid1.coords t) ↔ t.val % 24 = 23 :=
  (by decide +kernel : ∀ t : Fin grid1.N, cond1_1 (grid1.coords t) ↔ t.val % 24 = 23)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- In case A the output window is idle (nothing is stored into it), -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same in case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- In case C the output window is live: the body stores its block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (which one does not matter:
    what is read back through a whole view of pieces covering it is the same). -/
abbrev VO1_3 : View sig .tc .vmem S64x1024 .f32 := (Memref.whole cc1_stg3_0 : Memref sig .tc .vmem S64x1024 .f32).view
/-- Each window's current staging memref at point `t`, as the pipeline passes it to the body, and its wholeness. -/
abbrev ms1_0 (t : Fin cfg1.N) : Memref sig .tc .vmem S64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1024 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S64x1024 .f32 := Memref.whole cc1_scratch0
/-- The same as a view: what the accumulator holds is stated through it. -/
abbrev VS1_0 : View sig .tc .vmem S64x1024 .f32 := scM1_0.view

end Cert.Kernel.Lin

end
-- ==== Proof.K.LinRunA.lean ====
/- The linear kernel's body in CASE A (the first point of a run of 24: "k = 0" holds, "k = 23" does not), run
   as a whole: on whole staging memrefs holding the three input blocks, the output's memref at contents that are
   handed back untouched, and the scratch accumulator at anything, the body terminates with the inputs as they
   were and the accumulator written by its two stores (the zero fill, then the first partial product added to
   what was just read back). The pieces the accumulator ends with are the run's witness. -/
import proofs.«148574_j76940044140789_2_alg».proof.Proof.K.LinRuns

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), IN CASE A: no piece for the output (`L3 = []`), the
    accumulator's pieces `LS0`; with the proof that from the inputs' memrefs at their blocks `x0`, `x1`, `x2`, the
    output's at `xi3` and the accumulator's at anything, the body runs to a continuation that is given the inputs'
    and the output's back as they were and the accumulator's buffer with `LS0` written. The printed function is
    its skeleton, which is run statement by statement; each conditional is decided by `hc0`, `hc1`. -/
noncomputable def kernelRun1_A (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) :
    Σ' (L3 : List (View.Piece (Elt F) S64x1024 .f32)), { LS0 : List (View.Piece (Elt F) S64x1024 .f32) //
      ∀ (xi3 : Vec F S64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Lin

end
-- ==== Proof.K.LinRunB.lean ====
/- The linear kernel's body in CASE B (a middle point of a run of 24: neither "k = 0" nor "k = 23" holds), run as
   a whole: on whole staging memrefs holding the three input blocks, the output's memref at contents that are
   handed back untouched, and the scratch accumulator at what the point before left, the body terminates with
   the inputs as they were and the accumulator written by its one store (this point's partial product added to
   what it held). The pieces the accumulator ends with are the run's witness. -/
import proofs.«148574_j76940044140789_2_alg».proof.Proof.K.LinRunA

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), IN CASE B: no piece for the output (`L3 = []`), the
    accumulator's pieces `LS0`; with the proof that from the inputs' memrefs at their blocks `x0`, `x1`, `x2`, the
    output's at `xi3` and the accumulator's at `xs0`, the body runs to a continuation that is given the inputs'
    and the output's back as they were and the accumulator's buffer with `LS0` written. -/
noncomputable def kernelRun1_B (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) :
    Σ' (L3 : List (View.Piece (Elt F) S64x1024 .f32)), { LS0 : List (View.Piece (Elt F) S64x1024 .f32) //
      ∀ (xi3 : Vec F S64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Lin

end
-- ==== Proof.K.LinRunC.lean ====
/- The linear kernel's body in CASE C (the last point of a run of 24: "k = 23" holds, "k = 0" does not), run as
   a whole: on whole staging memrefs holding the three input blocks, the output's memref at anything, and the
   scratch accumulator at what the point before left, the body terminates with the inputs as they were, the
   accumulator written by its one store, and the output's buffer written by its one store (the accumulator read
   back, plus the bias row broadcast down the 64 rows). The pieces the two buffers end with are the run's witness. -/
import proofs.«148574_j76940044140789_2_alg».proof.Proof.K.LinRunB

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), IN CASE C: the output's pieces `L3` and the
    accumulator's pieces `LS0`; with the proof that from the inputs' memrefs at their blocks `x0`, `x1`, `x2`, the
    output's at anything and the accumulator's at `xs0`, the body runs to a continuation that is given the inputs'
    back as they were, the output's buffer with `L3` written and the accumulator's with `LS0` written. -/
noncomputable def kernelRun1_C (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) :
    Σ' (L3 : List (View.Piece (Elt F) S64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Lin

end
-- ==== Proof.K.Lin.lean ====
/- The linear kernel's pipeline (the second pallas_call of `Kernel`): the frame half of its region, at a
   PARAMETER `V` — the TensorCore's buffer contents when the region is entered — and at any float algebra `F`.

   The body keeps a running sum in a scratch accumulator: over each run of 24 points (one row-block n of the
   output, k = 0 … 23) it is zeroed at k = 0, the product of the point's two input blocks is added at every k, and at
   k = 23 the sum plus the bias row is stored into the output block, which the pipeline then writes back. So what the
   accumulator holds after a point depends on what the point before left in it: `outsAt1` states, by recursion on the
   point, what the output's staging buffer and the accumulator hold after each point — each case's stores, as the
   case's run found them, read back — and the region invariant `PhiS1` carries the accumulator at exactly that from
   one point to the next. The output window is idle (handed back untouched, not written back) at every point but the
   last of a run.

   From this: the proof data `dat1`, the inputs found at their blocks whether fetched at the point or not
   (`before1_W`), the body obligation at every point (`body_obligation1`: by cases on the point's position in its
   run, each case its run), and the two ends of the invariant (`hin1`, `hout1`). -/
import proofs.«148574_j76940044140789_2_alg».proof.Proof.K.LinRunC

set_option maxRecDepth 16384

noncomputable section

namespace Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A (the first point of a run of 24) stores nothing into the output block: no pieces. What is read back is a
    placeholder that nothing consults, since at these points the block is neither written back nor read at the next point. -/
def out1_A_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) : Vec F S64x1024 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the scratch accumulator are each of its full extent, so its pieces cover it. -/
theorem scover1_A_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) (y : S64x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S64x1024.size (by sl_kernel_rfl) y

/-- What case A leaves in the scratch accumulator: its pieces read back over junk. -/
def sout1_A_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) : Vec F S64x1024 .f32 :=
  VS1_0.read (Elt F) (VS1_0.writes (Elt F) VS1_0.junk (kernelRun1_A c i arg2 harg2 arg3 harg3 arg4 harg4 arg5 harg5 arg6 harg6 hc0 hc1 x0 x1 x2).2.1)

/-- Case B (a middle point of a run of 24) stores nothing into the output block: no pieces. What is read back is a
    placeholder that nothing consults, since at these points the block is neither written back nor read at the next point. -/
def out1_B_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) : Vec F S64x1024 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the scratch accumulator are each of its full extent, so its pieces cover it. -/
theorem scover1_B_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) (y : S64x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S64x1024.size (by sl_kernel_rfl) y

/-- What case B leaves in the scratch accumulator: its pieces read back over junk. -/
def sout1_B_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) : Vec F S64x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output block is of the block's full extent, so its piece covers the block. -/
theorem cover1_C_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) (y : S64x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S64x1024.size (by sl_kernel_rfl) y

/-- What case C leaves in the output's staging buffer: its pieces read back over junk. -/
def out1_C_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) : Vec F S64x1024 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the scratch accumulator are each of its full extent, so its pieces cover it. -/
theorem scover1_C_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) (y : S64x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S64x1024.size (by sl_kernel_rfl) y

/-- What case C leaves in the scratch accumulator: its pieces read back over junk. -/
def sout1_C_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) : Vec F S64x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved since the point before, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved since the point before, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved since the point before, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output's buffer and the accumulator hold after each point -/

/-- THE ACCUMULATION. What the output's staging buffer (first component) and the scratch accumulator (second) hold
    after the body at position `n`: the case `n % 24` selects, run at the point's memrefs and input blocks — in cases
    B and C over what this leaves in the accumulator at `n - 1`. Both conditions at once is no case: 0 ≠ 23. -/
def outsAt1 (c : Dev nD) : (n : ℕ) → n < cfg1.N → Vec F S64x1024 .f32 × Vec F S64x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 24 = 0 then
      if h1 : (n + 1) % 24 = 23 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 24 = 23 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point of a run of 24: case A's contents. -/
theorem outsAt1_A (c : Dev nD) (t : Fin cfg1.N) (h0 : t.val % 24 = 0) (h1 : ¬t.val % 24 = 23) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle point of a run: case B's contents, over what the point before left in the accumulator. -/
theorem outsAt1_B (c : Dev nD) (t : Fin cfg1.N) (h0 : ¬t.val % 24 = 0) (h1 : ¬t.val % 24 = 23) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a run: case C's contents, over what the point before left in the accumulator. -/
theorem outsAt1_C (c : Dev nD) (t : Fin cfg1.N) (h0 : ¬t.val % 24 = 0) (h1 : t.val % 24 = 23) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers that are the other pallas_call's (its seven staging buffers), each whole at some
    contents: the linear kernel never touches them, and the invariant carries them along. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f))

/-- What the launch hands the region — the scoped buffers that are no staging buffer of this pipeline and the
    generator register, each at anything — with the scratch accumulator set apart as a memref owned at some contents. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA; rw [scopedRest1_eq]; unfold others1
  simp only [scM1_0, owns_whole]
  refine BI.equiv_iff.mp ⟨?_, ?_⟩
  · show (_ : sProp 𝕄) ⊢ _
    iintro ⟨⟨R0, R1, R2, R3, R4, R5, R6, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        iexact R6
      · iexact HS
    · iexact Hg
  · show (_ : sProp 𝕄) ⊢ _
    iintro ⟨⟨⟨R0, R1, R2, R3, R4, R5, R6⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact HS
    · iexact Hg

/-- The region invariant before position `n`: before the first point what the launch hands over (the accumulator at
    anything); afterwards the same with the accumulator at what the point before left in it (`outsAt1`'s second
    component). -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at the grid's very first point (case A, the accumulator at anything): the inputs' memrefs hold their
    blocks; the output window is idle and handed back as found; the invariant hands over the accumulator at some
    contents and takes it back at case A's (its stores cover it). -/
theorem sound_body1_A0 (c : Dev nD) (t : Fin cfg1.N) (h0 : t.val % 24 = 0) (h1 : ¬t.val % 24 = 23) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_A V c t h0 h1]
  unfold sout1_A_0; (try dsimp only)
  rw [PhiS1_castSucc V c t, PhiS1_zero V c _ _ hz, PhiA1_eq]
  iintro ⟨⟨⟨HR, HS0⟩, Hg⟩, Ho, ⟨%d0, H0⟩, ⟨%d1, H1⟩, ⟨%d2, H2⟩, ⟨%d3, H3⟩⟩
  iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_A_0 c _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- The body at the first point of a later run (case A again): the accumulator arrives at what the run before left,
    which case A does not read before overwriting, so it is forgotten. -/
theorem sound_body1_A (c : Dev nD) (t : Fin cfg1.N) (h0 : t.val % 24 = 0) (h1 : ¬t.val % 24 = 23) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_A V c t h0 h1]
  unfold sout1_A_0; (try dsimp only)
  rw [PhiS1_castSucc V c t, PhiS1_pos V c _ _ hz]
  iintro ⟨⟨⟨HR, HS0⟩, Hg⟩, Ho, ⟨%d0, H0⟩, ⟨%d1, H1⟩, ⟨%d2, H2⟩, ⟨%d3, H3⟩⟩
  iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
  isplitl [H0]; · iexact H0
  isplitl [H1]; · iexact H1
  isplitl [H2]; · iexact H2
  isplitl [H3]; · iexact H3
  isplitl [HS0]; · iexists _; iexact HS0
  iintro ⟨H0, H1, H2, H3, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_A_0 c _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- The body at a middle point of a run (case B): the accumulator arrives at what the point before left and is taken
    back at case B's contents over it; the output window is idle and handed back as found. -/
theorem sound_body1_B (c : Dev nD) (t : Fin cfg1.N) (h0 : ¬t.val % 24 = 0) (h1 : ¬t.val % 24 = 23) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hz : t.val ≠ 0 := fun e => h0 (by omega)
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [outsAt1_B V c t h0 h1]
  unfold sout1_B_0; (try dsimp only)
  rw [PhiS1_castSucc V c t, PhiS1_pos V c _ _ hz]
  iintro ⟨⟨⟨HR, HS0⟩, Hg⟩, Ho, ⟨%d0, H0⟩, ⟨%d1, H1⟩, ⟨%d2, H2⟩, ⟨%d3, H3⟩⟩
  iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_B_0 c _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- The body at the last point of a run (case C): the accumulator arrives at what the point before left; the output
    window is live, its buffer handed over at anything and taken back at case C's contents (its store covers it). -/
theorem sound_body1_C (c : Dev nD) (t : Fin cfg1.N) (h0 : ¬t.val % 24 = 0) (h1 : t.val % 24 = 23) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hz : t.val ≠ 0 := fun e => h0 (by omega)
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [outsAt1_C V c t h0 h1]
  unfold out1_C_3 sout1_C_0; (try dsimp only)
  rw [PhiS1_castSucc V c t, PhiS1_pos V c _ _ hz]
  iintro ⟨⟨⟨HR, HS0⟩, Hg⟩, Ho, ⟨%d0, H0⟩, ⟨%d1, H1⟩, ⟨%d2, H2⟩, ⟨%d3, H3⟩⟩
  iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_C_0 c _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _)

/-- The body at any point: the point's position in its run of 24 says which case it is in, and that case's run applies. -/
theorem sound_body1 (c : Dev nD) (t : Fin cfg1.N)  :
    bodyPre1 V c t ⊢ wp frame (wpE (defs₀ (F := F)) Variants.none c none) Set.univ (bodyAt1 t) (fun _ => bodyPost1 V c t) := by
  by_cases h0 : t.val % 24 = 0
  · have h1 : ¬t.val % 24 = 23 := by omega
    by_cases hz : t.val = 0
    · exact sound_body1_A0 V c t h0 h1 hz
    · exact sound_body1_A V c t h0 h1 hz
  · by_cases h1 : t.val % 24 = 23
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: what the accumulator holds
    is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Region

end Cert.Kernel.Lin

end
-- ==== Proof.K.Run.lean ====
/-
  The whole program's run: @main is a stretch of host operations (a re-laying of the projection weights), the
  attention region, a stretch (the context re-laid as one row per batch element, the bias as one row), the linear
  region, a stretch (the result re-laid). The contents of every unscoped buffer at each boundary are a fold from the
  launch memory: a stretch applies its operations; a region leaves in each of its windows' arrays what its
  write-backs leave and every other buffer as entered. Every weakly fair execution ends with every unscoped buffer at
  the last boundary's contents; in particular no argument array is ever written.
-/
import proofs.«148574_j76940044140789_2_alg».proof.Proof.Gen.Kernel.Launch
import proofs.«148574_j76940044140789_2_alg».proof.Proof.Gen.Kernel.Skeleton
import proofs.«148574_j76940044140789_2_alg».proof.Proof.Gen.Kernel.Points
import proofs.«148574_j76940044140789_2_alg».proof.Proof.Gen.Kernel.Loops
import proofs.«148574_j76940044140789_2_alg».proof.Proof.K.Attn
import proofs.«148574_j76940044140789_2_alg».proof.Proof.K.Lin
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel.Attn Cert.Kernel.Lin

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first stretch (the attention region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the attention region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the linear region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the linear region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last stretch: the contents the program ends with. -/
abbrev W5 : Dev nD → Valuation τ sig (Elt F) := fun c => StableHlo.after hostOps2 (W4 m c)

/-! ## No argument array is written -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := hin1 (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := hout1 (V3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state has every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Run
end
-- ==== Proof.KI.AttnTiles.lean ====
/-
  The attention kernel's region, seen from the pipeline that launches it: what one call of the body leaves in its
  two output blocks, the body's triple, and the proof data of the region, at ANY float instance and for any contents
  `V` of the device's buffers when the region is entered.

  One call handles a block of 8 batch rows. Its body is a counted loop over the 8 rows; trip `k` reads row `k` of the
  input block and the whole projection matrix, and stores, for each of the 12 heads `n`, one 64×64 tile of the
  context block and one of the score block at the offsets `(k, n, 0, 0)`. So after the 8 trips the 96 tiles written
  into each output block tile it, and the block holds a function of the two input blocks alone: whatever the staging
  buffer held before does not matter (`read_writes_eq_canon`). The tiles of a trip are themselves functions of the
  trip's loads alone (`tripL_indep`), although the loop's invariant states them over the contents the trip finds.
-/
import proofs.«148574_j76940044140789_2_alg».proof.Proof.Gen.KernelIdeal.Launch
import proofs.«148574_j76940044140789_2_alg».proof.Proof.Gen.KernelIdeal.Skeleton
import proofs.«148574_j76940044140789_2_alg».proof.Proof.Gen.KernelIdeal.Points
import proofs.«148574_j76940044140789_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tiles written by the loop do not depend on what the output buffers held -/

/-- The tiles one trip writes are the same whatever the two output buffers hold when the trip starts. -/
theorem tripL_indep (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec F S2304x768 .f32) (X_arg1 : BufTy.Contents (Elt F) arg1.view.ty) (k : Fin k0_t1_loop.trips)
    (f3 g3 : BufTy.Contents (Elt F) arg3.view.ty) (f4 g4 : BufTy.Contents (Elt F) arg4.view.ty) :
    tripL_k0_t1 (F := F) 𝒱 c bd i arg1 harg1 arg2 harg2 arg3 harg3 arg4 harg4 v3 X_arg1 k f3 f4
      = tripL_k0_t1 (F := F) 𝒱 c bd i arg1 harg1 arg2 harg2 arg3 harg3 arg4 harg4 v3 X_arg1 k g3 g4 := by
  unfold tripL_k0_t1 trip_k0_t1
  rfl

/-- Hence so are the tiles of the trips before `n`. -/
theorem pb_indep (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec F S2304x768 .f32) (X_arg1 : BufTy.Contents (Elt F) arg1.view.ty)
    (G3 G3' : BufTy.Contents (Elt F) arg3.view.ty) (G4 G4' : BufTy.Contents (Elt F) arg4.view.ty) :
    ∀ n : ℕ, pb_k0_t1 (F := F) 𝒱 c bd i arg1 harg1 arg2 harg2 arg3 harg3 arg4 harg4 v3 X_arg1 G3 G4 n
      = pb_k0_t1 (F := F) 𝒱 c bd i arg1 harg1 arg2 harg2 arg3 harg3 arg4 harg4 v3 X_arg1 G3' G4' n
  | 0 => rfl
  | n + 1 => by
      rw [pb_k0_t1.eq_2, pb_k0_t1.eq_2, pb_indep 𝒱 c bd i arg1 harg1 arg2 harg2 arg3 harg3 arg4 harg4 v3 X_arg1 G3 G3' G4 G4' n]
      unfold pb_k0_t1Step
      by_cases h : n < k0_t1_loop.trips
      · rw [dif_pos h, dif_pos h,
          tripL_indep 𝒱 c bd i arg1 harg1 arg2 harg2 arg3 harg3 arg4 harg4 v3 X_arg1 ⟨n, h⟩ _ (arg3.view.writes (Elt F) G3' _) _ (arg4.view.writes (Elt F) G4' _)]
      · rw [dif_neg h, dif_neg h]

/-! ## What one call leaves in the two output blocks -/

/-- The projection matrix as the body loads it: the whole second input block. -/
abbrev wAll (arg2 : Memref sig .tc .vmem S2304x768 .f32) (harg2 : arg2.IsWhole) (x1 : Vec F S2304x768 .f32) : Vec F S2304x768 .f32 :=
  View.readAt (Elt F) arg2.view (Rect.unit (s := S2304x768) ![0, 0] S2304x768.size inb_S2304x768_S2304x768_0_0).toLoadRect (harg2.unread x1)

/-- The 96 + 96 tiles the eight trips write (last first), from the two input blocks. -/
def tiles (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) :
    List (View.Piece (Elt F) S8x12x64x64 .f32) × List (View.Piece (Elt F) S8x12x64x64 .f32) :=
  pb_k0_t1 (F := F) Variants.none c none i arg1 harg1 arg2 harg2 arg3 harg3 arg4 harg4 (wAll arg2 harg2 x1) (harg1.unread x0) arg3.view.junk arg4.view.junk
    (Scf.trips k0_t1_loop.lb k0_t1_loop.ub k0_t1_loop.st)

/-- The context block after the call. -/
def out0_2 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) : Vec F S8x12x64x64 .f32 :=
  View.canon (tiles c i arg1 harg1 arg2 harg2 arg3 harg3 arg4 harg4 x0 x1).1
/-- The score block after the call. -/
def out0_3 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) : Vec F S8x12x64x64 .f32 :=
  View.canon (tiles c i arg1 harg1 arg2 harg2 arg3 harg3 arg4 harg4 x0 x1).2

/-- The context tiles tile their block. -/
theorem cover0_2 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) (y : S8x12x64x64.Idx) :
    ∃ pc ∈ (tiles c i arg1 harg1 arg2 harg2 arg3 harg3 arg4 harg4 x0 x1).1, y ∈ pc.1.set :=
  View.cover_of_tiledL (tiles c i arg1 harg1 arg2 harg2 arg3 harg3 arg4 harg4 x0 x1).1 S1x1x64x64.size (by sl_kernel_rfl) y
/-- The score tiles tile their block. -/
theorem cover0_3 (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (x0 : Vec F S8x64x768 .f32) (x1 : Vec F S2304x768 .f32) (y : S8x12x64x64.Idx) :
    ∃ pc ∈ (tiles c i arg1 harg1 arg2 harg2 arg3 harg3 arg4 harg4 x0 x1).2, y ∈ pc.1.set :=
  View.cover_of_tiledL (tiles c i arg1 harg1 arg2 harg2 arg3 harg3 arg4 harg4 x0 x1).2 S1x1x64x64.size (by sl_kernel_rfl) y

end Cert.KernelIdeal.Attn
end
-- ==== Proof.KI.Attn.lean ====
/-
  The attention kernel's region: the body's triple and the region's proof data (continued from AttnTiles).
  The two inputs' staging buffers hold their blocks at every point (the row block is fetched at every point; the
  projection matrix, whose block index never moves, only at the first); each output's staging buffer is left at the
  function `out0_2` / `out0_3` of the two input blocks.
-/
import proofs.«148574_j76940044140789_2_alg».proof.Proof.Gen.KernelIdeal.Launch
import proofs.«148574_j76940044140789_2_alg».proof.Proof.Gen.KernelIdeal.Skeleton
import proofs.«148574_j76940044140789_2_alg».proof.Proof.Gen.KernelIdeal.Points
import proofs.«148574_j76940044140789_2_alg».proof.Proof.Gen.KernelIdeal.Loops
import proofs.«148574_j76940044140789_2_alg».proof.Proof.KI.AttnTiles
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection-matrix window's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

set_option maxHeartbeats 2000000 in
/-- The body on whole staging memrefs, the inputs' at contents `x0`, `x1` and the outputs' at anything, runs to the
    continuation holding the inputs' as they were and the outputs' at `out0_2`, `out0_3` of the inputs': the loop
    goes by its invariant, and the 96 tiles it leaves in each output cover it. -/
theorem sound_kernel0 (c : Dev nD) (E : Set ℕ) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole)
    (x0 : Vec F S8x64x768 .f32) (x1 : Vec F S2304x768 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out0_2 c i arg1 harg1 arg2 harg2 arg3 harg3 arg4 harg4 x0 x1)
            ∗ owns (c : Thread nD τ) arg4 fullShare (out0_3 c i arg1 harg1 arg2 harg2 arg3 harg3 arg4 harg4 x0 x1)) -∗ K ⟨⟩))
      ⊢ wp frame (wpE (defs₀ (F := F)) Variants.none c none) E (cc0__attn_kernel i arg1 harg1 arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, ⟨%d3, %f3, -, H3⟩, Hk⟩
  obtain rfl := harg1.eq_unread hf0
  obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    exact (congrArg (fun L => arg3.view.read (Elt F) (arg3.view.writes (Elt F) f2 L.1))
        (pb_indep Variants.none c none i arg1 harg1 arg2 harg2 arg3 harg3 arg4 harg4 _ _ f2 arg3.view.junk f3 arg4.view.junk _)).trans
      (View.read_writes_eq_canon _ _ _ (cover0_2 c i arg1 harg1 arg2 harg2 arg3 harg3 arg4 harg4 x0 x1))
  · iexists _; isplitr
    swap; · iexact H3
    ipureintro
    exact (congrArg (fun L => arg4.view.read (Elt F) (arg4.view.writes (Elt F) f3 L.2))
        (pb_indep Variants.none c none i arg1 harg1 arg2 harg2 arg3 harg3 arg4 harg4 _ _ f2 arg3.view.junk f3 arg4.view.junk _)).trans
      (View.read_writes_eq_canon _ _ _ (cover0_3 c i arg1 harg1 arg2 harg2 arg3 harg3 arg4 harg4 x0 x1))

/-! ## The region's proof data -/

/-- The proof data of the attention pipeline on core `c`: the arrays as the region finds them; after the body at point
    `t` each input's buffer at its block and each output's at its function of the two input blocks; the scoped rest
    and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t)
    | ⟨3, _⟩ => out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t) := by dsimp only [dat0]
theorem after0_3 (c : Dev nD) (t : Fin cfg0.N) : (dat0 V c).after 3 t = out0_3 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Attn
end
-- ==== Proof.KI.LinRuns.lean ====
/- The linear kernel's pipeline (the second pallas_call of `KernelIdeal`), what its three body runs
   share. The body has two conditionals on the second grid coordinate k: "k = 0" (zero the accumulator)
   and "k = 23" (add the bias and store the output block). Over the 4 x 24 grid, point t has k = t % 24,
   so a point is in exactly one of three cases:
     A  (t % 24 = 0)   the accumulator is zeroed, then accumulated into; the output is not stored;
     B  (0 < t % 24 < 23)  the accumulator is accumulated into; the output is not stored;
     C  (t % 24 = 23)  the accumulator is accumulated into, and the output block is stored.
   Here: the two conditions in closed form, decided over the 96 points; where the output window is idle
   and where it is written back; the staging and scratch memrefs the body is called with; and the region
   invariant with the scratch accumulator spelled as a memref. -/
import proofs.«148574_j76940044140789_2_alg».proof.Proof.Gen.KernelIdeal.Launch
import proofs.«148574_j76940044140789_2_alg».proof.Proof.Gen.KernelIdeal.Skeleton
import proofs.«148574_j76940044140789_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option Elab.async false

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- The condition of the body's first conditional ("k = 0"), from the grid coordinates: the scalar chain
    the body computes it by, substituted. -/
abbrev cond1_0 (i : grid1.Coords) : Prop :=
  (Scalar.cmpi .ne (Scalar.extui (Scalar.cmpi .eq (BitVec.ofNat 32 (i 1).val) 0#32)) 0#32) = 1#1
/-- It holds exactly at the first point of each run of 24. -/
theorem hcond1_0 : ∀ t : Fin cfg1.N, cond1_0 (grid1.coords t) ↔ t.val % 24 = 0 :=
  (by decide +kernel : ∀ t : Fin grid1.N, cond1_0 (grid1.coords t) ↔ t.val % 24 = 0)

/-- The condition of the body's second conditional ("k = 23"). -/
abbrev cond1_1 (i : grid1.Coords) : Prop := k1_cond2 i = 1#1
/-- It holds exactly at the last point of each run of 24. -/
theorem hcond1_1 : ∀ t : Fin cfg1.N, cond1_1 (grid1.coords t) ↔ t.val % 24 = 23 :=
  (by decide +kernel : ∀ t : Fin grid1.N, cond1_1 (grid1.coords t) ↔ t.val % 24 = 23)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- In case A the output window is idle (nothing is stored into it), -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same in case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- In case C the output window is live: the body stores its block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (which one does not matter:
    what is read back through a whole view of pieces covering it is the same). -/
abbrev VO1_3 : View sig .tc .vmem S64x1024 .f32 := (Memref.whole cc1_stg3_0 : Memref sig .tc .vmem S64x1024 .f32).view
/-- Each window's current staging memref at point `t`, as the pipeline passes it to the body, and its wholeness. -/
abbrev ms1_0 (t : Fin cfg1.N) : Memref sig .tc .vmem S64x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x1024 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S64x1024 .f32 := Memref.whole cc1_scratch0
/-- The same as a view: what the accumulator holds is stated through it. -/
abbrev VS1_0 : View sig .tc .vmem S64x1024 .f32 := scM1_0.view

end Cert.KernelIdeal.Lin

end
-- ==== Proof.KI.LinRunA.lean ====
/- The linear kernel's body in CASE A (the first point of a run of 24: "k = 0" holds, "k = 23" does not), run
   as a whole: on whole staging memrefs holding the three input blocks, the output's memref at contents that are
   handed back untouched, and the scratch accumulator at anything, the body terminates with the inputs as they
   were and the accumulator written by its two stores (the zero fill, then the first partial product added to
   what was just read back). The pieces the accumulator ends with are the run's witness. -/
import proofs.«148574_j76940044140789_2_alg».proof.Proof.KI.LinRuns

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), IN CASE A: no piece for the output (`L3 = []`), the
    accumulator's pieces `LS0`; with the proof that from the inputs' memrefs at their blocks `x0`, `x1`, `x2`, the
    output's at `xi3` and the accumulator's at anything, the body runs to a continuation that is given the inputs'
    and the output's back as they were and the accumulator's buffer with `LS0` written. The printed function is
    its skeleton, which is run statement by statement; each conditional is decided by `hc0`, `hc1`. -/
noncomputable def kernelRun1_A (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) :
    Σ' (L3 : List (View.Piece (Elt F) S64x1024 .f32)), { LS0 : List (View.Piece (Elt F) S64x1024 .f32) //
      ∀ (xi3 : Vec F S64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Lin

end
-- ==== Proof.KI.LinRunB.lean ====
/- The linear kernel's body in CASE B (a middle point of a run of 24: neither "k = 0" nor "k = 23" holds), run as
   a whole: on whole staging memrefs holding the three input blocks, the output's memref at contents that are
   handed back untouched, and the scratch accumulator at what the point before left, the body terminates with
   the inputs as they were and the accumulator written by its one store (this point's partial product added to
   what it held). The pieces the accumulator ends with are the run's witness. -/
import proofs.«148574_j76940044140789_2_alg».proof.Proof.KI.LinRunA

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), IN CASE B: no piece for the output (`L3 = []`), the
    accumulator's pieces `LS0`; with the proof that from the inputs' memrefs at their blocks `x0`, `x1`, `x2`, the
    output's at `xi3` and the accumulator's at `xs0`, the body runs to a continuation that is given the inputs'
    and the output's back as they were and the accumulator's buffer with `LS0` written. -/
noncomputable def kernelRun1_B (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) :
    Σ' (L3 : List (View.Piece (Elt F) S64x1024 .f32)), { LS0 : List (View.Piece (Elt F) S64x1024 .f32) //
      ∀ (xi3 : Vec F S64x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨[], ?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Lin

end
-- ==== Proof.KI.LinRunC.lean ====
/- The linear kernel's body in CASE C (the last point of a run of 24: "k = 23" holds, "k = 0" does not), run as
   a whole: on whole staging memrefs holding the three input blocks, the output's memref at anything, and the
   scratch accumulator at what the point before left, the body terminates with the inputs as they were, the
   accumulator written by its one store, and the output's buffer written by its one store (the accumulator read
   back, plus the bias row broadcast down the 64 rows). The pieces the two buffers end with are the run's witness. -/
import proofs.«148574_j76940044140789_2_alg».proof.Proof.KI.LinRunB

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), IN CASE C: the output's pieces `L3` and the
    accumulator's pieces `LS0`; with the proof that from the inputs' memrefs at their blocks `x0`, `x1`, `x2`, the
    output's at anything and the accumulator's at `xs0`, the body runs to a continuation that is given the inputs'
    back as they were, the output's buffer with `L3` written and the accumulator's with `LS0` written. -/
noncomputable def kernelRun1_C (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) :
    Σ' (L3 : List (View.Piece (Elt F) S64x1024 .f32)), { LS0 : List (View.Piece (Elt F) S64x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Lin

end
-- ==== Proof.KI.Lin.lean ====
/- The linear kernel's pipeline (the second pallas_call of `KernelIdeal`): the frame half of its region, at a
   PARAMETER `V` — the TensorCore's buffer contents when the region is entered — and at any float algebra `F`.

   The body keeps a running sum in a scratch accumulator: over each run of 24 points (one row-block n of the
   output, k = 0 … 23) it is zeroed at k = 0, the product of the point's two input blocks is added at every k, and at
   k = 23 the sum plus the bias row is stored into the output block, which the pipeline then writes back. So what the
   accumulator holds after a point depends on what the point before left in it: `outsAt1` states, by recursion on the
   point, what the output's staging buffer and the accumulator hold after each point — each case's stores, as the
   case's run found them, read back — and the region invariant `PhiS1` carries the accumulator at exactly that from
   one point to the next. The output window is idle (handed back untouched, not written back) at every point but the
   last of a run.

   From this: the proof data `dat1`, the inputs found at their blocks whether fetched at the point or not
   (`before1_W`), the body obligation at every point (`body_obligation1`: by cases on the point's position in its
   run, each case its run), and the two ends of the invariant (`hin1`, `hout1`). -/
import proofs.«148574_j76940044140789_2_alg».proof.Proof.KI.LinRunC

set_option maxRecDepth 16384

noncomputable section

namespace Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A (the first point of a run of 24) stores nothing into the output block: no pieces. What is read back is a
    placeholder that nothing consults, since at these points the block is neither written back nor read at the next point. -/
def out1_A_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) : Vec F S64x1024 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the scratch accumulator are each of its full extent, so its pieces cover it. -/
theorem scover1_A_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) (y : S64x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S64x1024.size (by sl_kernel_rfl) y

/-- What case A leaves in the scratch accumulator: its pieces read back over junk. -/
def sout1_A_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) : Vec F S64x1024 .f32 :=
  VS1_0.read (Elt F) (VS1_0.writes (Elt F) VS1_0.junk (kernelRun1_A c i arg2 harg2 arg3 harg3 arg4 harg4 arg5 harg5 arg6 harg6 hc0 hc1 x0 x1 x2).2.1)

/-- Case B (a middle point of a run of 24) stores nothing into the output block: no pieces. What is read back is a
    placeholder that nothing consults, since at these points the block is neither written back nor read at the next point. -/
def out1_B_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) : Vec F S64x1024 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the scratch accumulator are each of its full extent, so its pieces cover it. -/
theorem scover1_B_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) (y : S64x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S64x1024.size (by sl_kernel_rfl) y

/-- What case B leaves in the scratch accumulator: its pieces read back over junk. -/
def sout1_B_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) : Vec F S64x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output block is of the block's full extent, so its piece covers the block. -/
theorem cover1_C_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) (y : S64x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S64x1024.size (by sl_kernel_rfl) y

/-- What case C leaves in the output's staging buffer: its pieces read back over junk. -/
def out1_C_3 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) : Vec F S64x1024 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the scratch accumulator are each of its full extent, so its pieces cover it. -/
theorem scover1_C_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) (y : S64x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S64x1024.size (by sl_kernel_rfl) y

/-- What case C leaves in the scratch accumulator: its pieces read back over junk. -/
def sout1_C_0 (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) : Vec F S64x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block index
    has not moved since the point before, and the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block index
    has not moved since the point before, and the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block index
    has not moved since the point before, and the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the output's buffer and the accumulator hold after each point -/

/-- THE ACCUMULATION. What the output's staging buffer (first component) and the scratch accumulator (second) hold
    after the body at position `n`: the case `n % 24` selects, run at the point's memrefs and input blocks — in cases
    B and C over what this leaves in the accumulator at `n - 1`. Both conditions at once is no case: 0 ≠ 23. -/
def outsAt1 (c : Dev nD) : (n : ℕ) → n < cfg1.N → Vec F S64x1024 .f32 × Vec F S64x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 24 = 0 then
      if h1 : (n + 1) % 24 = 23 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 24 = 23 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first point of a run of 24: case A's contents. -/
theorem outsAt1_A (c : Dev nD) (t : Fin cfg1.N) (h0 : t.val % 24 = 0) (h1 : ¬t.val % 24 = 23) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle point of a run: case B's contents, over what the point before left in the accumulator. -/
theorem outsAt1_B (c : Dev nD) (t : Fin cfg1.N) (h0 : ¬t.val % 24 = 0) (h1 : ¬t.val % 24 = 23) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last point of a run: case C's contents, over what the point before left in the accumulator. -/
theorem outsAt1_C (c : Dev nD) (t : Fin cfg1.N) (h0 : ¬t.val % 24 = 0) (h1 : t.val % 24 = 23) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The core's scoped buffers that are the other pallas_call's (its seven staging buffers), each whole at some
    contents: the linear kernel never touches them, and the invariant carries them along. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f))

/-- What the launch hands the region — the scoped buffers that are no staging buffer of this pipeline and the
    generator register, each at anything — with the scratch accumulator set apart as a memref owned at some contents. -/
theorem PhiA1_eq (c : Dev nD) :
    (Pipeline.ΦA spec1 c : sProp 𝕄)
      = iprop(iprop(others1 c ∗ (∃ d, owns (c : Thread nD τ) scM1_0 fullShare d)) ∗ (∃ r, prngReg c r)) := by
  unfold Pipeline.ΦA; rw [scopedRest1_eq]; unfold others1
  simp only [scM1_0, owns_whole]
  refine BI.equiv_iff.mp ⟨?_, ?_⟩
  · show (_ : sProp 𝕄) ⊢ _
    iintro ⟨⟨R0, R1, R2, R3, R4, R5, R6, HS⟩, Hg⟩
    isplitr [Hg]
    · isplitr [HS]
      · isplitl [R0]; · iexact R0
        isplitl [R1]; · iexact R1
        isplitl [R2]; · iexact R2
        isplitl [R3]; · iexact R3
        isplitl [R4]; · iexact R4
        isplitl [R5]; · iexact R5
        iexact R6
      · iexact HS
    · iexact Hg
  · show (_ : sProp 𝕄) ⊢ _
    iintro ⟨⟨⟨R0, R1, R2, R3, R4, R5, R6⟩, HS⟩, Hg⟩
    isplitr [Hg]
    · isplitl [R0]; · iexact R0
      isplitl [R1]; · iexact R1
      isplitl [R2]; · iexact R2
      isplitl [R3]; · iexact R3
      isplitl [R4]; · iexact R4
      isplitl [R5]; · iexact R5
      isplitl [R6]; · iexact R6
      iexact HS
    · iexact Hg

/-- The region invariant before position `n`: before the first point what the launch hands over (the accumulator at
    anything); afterwards the same with the accumulator at what the point before left in it (`outsAt1`'s second
    component). -/
def PhiS1 (c : Dev nD) : (n : ℕ) → n ≤ cfg1.N → sProp 𝕄
  | 0, _ => Pipeline.ΦA spec1 c
  | n + 1, hn => iprop(iprop(others1 c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(others1 c ∗ owns (c : Thread nD τ) scM1_0 fullShare ((outsAt1 V c n hn).2)) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(others1 c ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the pipeline on core `c`: the arrays as the region finds them (`V`); after the body at point
    `t` each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1600000 in
/-- The body at the grid's very first point (case A, the accumulator at anything): the inputs' memrefs hold their
    blocks; the output window is idle and handed back as found; the invariant hands over the accumulator at some
    contents and takes it back at case A's (its stores cover it). -/
theorem sound_body1_A0 (c : Dev nD) (t : Fin cfg1.N) (h0 : t.val % 24 = 0) (h1 : ¬t.val % 24 = 23) (hz : t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_A V c t h0 h1]
  unfold sout1_A_0; (try dsimp only)
  rw [PhiS1_castSucc V c t, PhiS1_zero V c _ _ hz, PhiA1_eq]
  iintro ⟨⟨⟨HR, HS0⟩, Hg⟩, Ho, ⟨%d0, H0⟩, ⟨%d1, H1⟩, ⟨%d2, H2⟩, ⟨%d3, H3⟩⟩
  iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_A_0 c _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- The body at the first point of a later run (case A again): the accumulator arrives at what the run before left,
    which case A does not read before overwriting, so it is forgotten. -/
theorem sound_body1_A (c : Dev nD) (t : Fin cfg1.N) (h0 : t.val % 24 = 0) (h1 : ¬t.val % 24 = 23) (hz : t.val ≠ 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
  rw [outsAt1_A V c t h0 h1]
  unfold sout1_A_0; (try dsimp only)
  rw [PhiS1_castSucc V c t, PhiS1_pos V c _ _ hz]
  iintro ⟨⟨⟨HR, HS0⟩, Hg⟩, Ho, ⟨%d0, H0⟩, ⟨%d1, H1⟩, ⟨%d2, H2⟩, ⟨%d3, H3⟩⟩
  iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
  isplitl [H0]; · iexact H0
  isplitl [H1]; · iexact H1
  isplitl [H2]; · iexact H2
  isplitl [H3]; · iexact H3
  isplitl [HS0]; · iexists _; iexact HS0
  iintro ⟨H0, H1, H2, H3, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_A_0 c _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- The body at a middle point of a run (case B): the accumulator arrives at what the point before left and is taken
    back at case B's contents over it; the output window is idle and handed back as found. -/
theorem sound_body1_B (c : Dev nD) (t : Fin cfg1.N) (h0 : ¬t.val % 24 = 0) (h1 : ¬t.val % 24 = 23) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hz : t.val ≠ 0 := fun e => h0 (by omega)
  rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
  rw [outsAt1_B V c t h0 h1]
  unfold sout1_B_0; (try dsimp only)
  rw [PhiS1_castSucc V c t, PhiS1_pos V c _ _ hz]
  iintro ⟨⟨⟨HR, HS0⟩, Hg⟩, Ho, ⟨%d0, H0⟩, ⟨%d1, H1⟩, ⟨%d2, H2⟩, ⟨%d3, H3⟩⟩
  iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
  isplitl [H0]; · iexact H0
  isplitl [H1]; · iexact H1
  isplitl [H2]; · iexact H2
  isplitl [H3]; · iexact H3
  isplitl [HS0]; · iexact HS0
  iintro ⟨H0, H1, H2, H3, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_B_0 c _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 1600000 in
/-- The body at the last point of a run (case C): the accumulator arrives at what the point before left; the output
    window is live, its buffer handed over at anything and taken back at case C's contents (its store covers it). -/
theorem sound_body1_C (c : Dev nD) (t : Fin cfg1.N) (h0 : ¬t.val % 24 = 0) (h1 : t.val % 24 = 23) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hz : t.val ≠ 0 := fun e => h0 (by omega)
  rw [show (dat1 V c).leavesExact 3 t = owns (c : Thread nD τ) (ms1_3 t) fullShare ((dat1 V c).after 3 t) from by
    unfold Dat.leavesExact; rw [liveAt1_3_C t (fun h => h0 ((hcond1_0 t).mp h)) ((hcond1_1 t).mpr h1)], after1_3]
  rw [outsAt1_C V c t h0 h1]
  unfold out1_C_3 sout1_C_0; (try dsimp only)
  rw [PhiS1_castSucc V c t, PhiS1_pos V c _ _ hz]
  iintro ⟨⟨⟨HR, HS0⟩, Hg⟩, Ho, ⟨%d0, H0⟩, ⟨%d1, H1⟩, ⟨%d2, H2⟩, ⟨%d3, H3⟩⟩
  iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HR HS0 Hg]
  · isplitl [HR HS0]
    · isplitl [HR]; · iexact HR
      unfold owns; iexists _; isplitr
      swap; · iexact HS0
      ipureintro; exact View.read_writes_of_cover _ _ _ _ _ (scover1_C_0 c _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_C_3 c _ _ _ _ _ _ _ _ _ _ _ _ _ _ _ _ _)

/-- The body at any point: the point's position in its run of 24 says which case it is in, and that case's run applies. -/
theorem sound_body1 (c : Dev nD) (t : Fin cfg1.N)  :
    bodyPre1 V c t ⊢ wp frame (wpE (defs₀ (F := F)) Variants.none c none) Set.univ (bodyAt1 t) (fun _ => bodyPost1 V c t) := by
  by_cases h0 : t.val % 24 = 0
  · have h1 : ¬t.val % 24 = 23 := by omega
    by_cases hz : t.val = 0
    · exact sound_body1_A0 V c t h0 h1 hz
    · exact sound_body1_A V c t h0 h1 hz
  · by_cases h1 : t.val % 24 = 23
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The two ends of the invariant -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: what the accumulator holds
    is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0⟩, Hg⟩
  isplitl [HR HS0]
  · isplitl [HR]; · iexact HR
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 96 := N_1; omega)

end Region

end Cert.KernelIdeal.Lin

end
-- ==== Proof.KI.Run.lean ====
/-
  The whole program's run: @main is a stretch of host operations (a re-laying of the projection weights), the
  attention region, a stretch (the context re-laid as one row per batch element, the bias as one row), the linear
  region, a stretch (the result re-laid). The contents of every unscoped buffer at each boundary are a fold from the
  launch memory: a stretch applies its operations; a region leaves in each of its windows' arrays what its
  write-backs leave and every other buffer as entered. Every weakly fair execution ends with every unscoped buffer at
  the last boundary's contents; in particular no argument array is ever written.
-/
import proofs.«148574_j76940044140789_2_alg».proof.Proof.Gen.KernelIdeal.Launch
import proofs.«148574_j76940044140789_2_alg».proof.Proof.Gen.KernelIdeal.Skeleton
import proofs.«148574_j76940044140789_2_alg».proof.Proof.Gen.KernelIdeal.Points
import proofs.«148574_j76940044140789_2_alg».proof.Proof.Gen.KernelIdeal.Loops
import proofs.«148574_j76940044140789_2_alg».proof.Proof.KI.Attn
import proofs.«148574_j76940044140789_2_alg».proof.Proof.KI.Lin
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal.Attn Cert.KernelIdeal.Lin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first stretch (the attention region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the attention region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch (the linear region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the linear region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last stretch: the contents the program ends with. -/
abbrev W5 : Dev nD → Valuation τ sig (Elt F) := fun c => StableHlo.after hostOps2 (W4 m c)

/-! ## No argument array is written -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := W4_of_ne m c main_arg1 (by decide)
    _ = W2 m c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := (W4_arr m c 1).trans (((dat1 (V3 m) c).arrAt_in 1 rfl _).trans (A_eq1 (V3 m) c 1))
    _ = W2 m c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    have h := hin1 (V3 m) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (V3 m) c).Φ (Fin.last cfg1.N) from rfl]
    have h := hout1 (V3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state has every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun s h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Run
end
-- ==== Proof.Spec.lean ====
/-
  The two results of the program as mathematics on the extended reals (a float is an extended real, every
  operation exact).

  Inputs: x[64,64,768], W_proj[12,192,768], W_lin[4096,49152], b_lin[4096].
    qkv[b,n,s,f]   = Σ_d x[b,s,d] · W_proj[n,f,d]                       (12 heads, 192 = 3·64 features per head)
    q, k, v        = the feature ranges 0..63, 64..127, 128..191 of qkv
    raw[b,n,i,j]   = Σ_d q[b,n,i,d] · k[b,n,j,d]
    score[b,n,i,j] = −∞ if j > i (the causal mask), else raw[b,n,i,j] · 0.125                  — RESULT 1
    a row r = score[b,n,i,·] is normalised as a softmax, in the four steps both programs take:
      rowMax r = max over j of r j, folded from −∞;   expo r j = exp (r j − rowMax r);
      rowSum r = Σ_j expo r j;                         attn r j = expo r j / rowSum r
    ctx[b,n,i,d]   = Σ_j attn(score[b,n,i,·]) j · v[b,n,j,d]
    zflat[b,κ]     = ctx[b,n,i,d] at κ = (n·64 + i)·64 + d                (row-major over n, i, d)
    y[b,o]         = Σ_κ zflat[b,κ] · W_lin[o,κ] + b_lin[o]
    out0[b,0,r,c]  = y[b, r·64 + c]                                                             — RESULT 0

  Two float words are kept as words, so that no side ever has to evaluate them: 0xFF800000 (it denotes −∞,
  negInf_eq_bot) and 0x3E000000 (it denotes 1/8, ofBits_eighth). The softmax is a function of ONE row
  (Fin 64 → EReal) and is never opened: whoever shows two rows equal has the two normalised rows equal.
  The one law of this file: dividing by √64 is multiplying by 0.125, on every extended real
  (div_sqrt_sixtyfour).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes -/

abbrev SX : Shape := ⟨3, ![64, 64, 768]⟩
abbrev SWproj : Shape := ⟨3, ![12, 192, 768]⟩
abbrev SWlin : Shape := ⟨2, ![4096, 49152]⟩
abbrev SBlin : Shape := ⟨1, ![4096]⟩
abbrev SAtt : Shape := ⟨4, ![64, 12, 64, 64]⟩
abbrev SOut : Shape := ⟨4, ![64, 1, 64, 64]⟩

/-! ## The projection and the scores -/

/-- qkv[b,n,s,f] = Σ_d x[b,s,d] · W_proj[n,f,d]. -/
def qkv (x : SX.Idx → EReal) (w : SWproj.Idx → EReal) (b : Fin 64) (n : Fin 12) (s : Fin 64) (f : Fin 192) : EReal :=
  ∑ d : Fin 768, x (ix3 b s d) * w (ix3 n f d)

/-- The query: features 0..63 of a head. -/
def q (x : SX.Idx → EReal) (w : SWproj.Idx → EReal) (b : Fin 64) (n : Fin 12) (s : Fin 64) (d : Fin 64) : EReal :=
  qkv x w b n s ⟨d.val, by omega⟩
/-- The key: features 64..127 of a head. -/
def k (x : SX.Idx → EReal) (w : SWproj.Idx → EReal) (b : Fin 64) (n : Fin 12) (s : Fin 64) (d : Fin 64) : EReal :=
  qkv x w b n s ⟨64 + d.val, by omega⟩
/-- The value: features 128..191 of a head. -/
def v (x : SX.Idx → EReal) (w : SWproj.Idx → EReal) (b : Fin 64) (n : Fin 12) (s : Fin 64) (d : Fin 64) : EReal :=
  qkv x w b n s ⟨128 + d.val, by omega⟩

/-- raw[b,n,i,j] = Σ_d q[b,n,i,d] · k[b,n,j,d]. -/
def raw (x : SX.Idx → EReal) (w : SWproj.Idx → EReal) (b : Fin 64) (n : Fin 12) (i j : Fin 64) : EReal :=
  ∑ d : Fin 64, q x w b n i d * k x w b n j d

/-- The masked, scaled score: −∞ (the word 0xFF800000) above the diagonal, raw · 0.125 (the word 0x3E000000) on and
    below it. -/
def score (x : SX.Idx → EReal) (w : SWproj.Idx → EReal) (b : Fin 64) (n : Fin 12) (i j : Fin 64) : EReal :=
  if i.val < j.val then Ideal.ofBits .f32 0xFF800000#32 else raw x w b n i j * Ideal.ofBits .f32 0x3E000000#32

/-- RESULT 1: the masked scores as an array [64,12,64,64]. -/
def masked (x : SX.Idx → EReal) (w : SWproj.Idx → EReal) : SAtt.Idx → EReal :=
  fun t => score x w (t 0) (t 1) (t 2) (t 3)

theorem masked_ix4 (x : SX.Idx → EReal) (w : SWproj.Idx → EReal) (b : Fin 64) (n : Fin 12) (i j : Fin 64) :
    masked x w (ix4 b n i j) = score x w b n i j := rfl

/-! ## The softmax of one row, in the steps both programs take -/

/-- The row's maximum, folded from −∞ (the word 0xFF800000). -/
def rowMax (r : Fin 64 → EReal) : EReal :=
  (Finset.univ : Finset (Fin 64)).fold max (Ideal.ofBits .f32 0xFF800000#32) r
/-- exp (r j − max r). -/
def expo (r : Fin 64 → EReal) (j : Fin 64) : EReal := Ideal.exp (r j - rowMax r)
/-- Σ_j exp (r j − max r). -/
def rowSum (r : Fin 64 → EReal) : EReal := ∑ j : Fin 64, expo r j
/-- The normalised row: the exact quotient. -/
def attn (r : Fin 64 → EReal) (j : Fin 64) : EReal := Ideal.div (expo r j) (rowSum r)

/-! ## The context, the flattening, the linear layer -/

/-- ctx[b,n,i,d] = Σ_j attn(score[b,n,i,·]) j · v[b,n,j,d]. -/
def ctx (x : SX.Idx → EReal) (w : SWproj.Idx → EReal) (b : Fin 64) (n : Fin 12) (i d : Fin 64) : EReal :=
  ∑ j : Fin 64, attn (score x w b n i) j * v x w b n j d

/-- zflat[b,κ]: ctx re-laid row-major over (n, i, d): κ = (n·64 + i)·64 + d. -/
def zflat (x : SX.Idx → EReal) (w : SWproj.Idx → EReal) (b : Fin 64) (κ : Fin 49152) : EReal :=
  ctx x w b ⟨κ.val / 4096, by omega⟩ ⟨κ.val / 64 % 64, by omega⟩ ⟨κ.val % 64, by omega⟩

/-- y[b,o] = Σ_κ zflat[b,κ] · W_lin[o,κ] + b_lin[o]. -/
def y (x : SX.Idx → EReal) (w : SWproj.Idx → EReal) (wl : SWlin.Idx → EReal) (bl : SBlin.Idx → EReal)
    (b : Fin 64) (o : Fin 4096) : EReal :=
  (∑ κ : Fin 49152, zflat x w b κ * wl (ix2 o κ)) + bl (ix1 o)

/-- RESULT 0: y re-laid as [64,1,64,64]: out0[b,0,r,c] = y[b, r·64 + c]. -/
def out0 (x : SX.Idx → EReal) (w : SWproj.Idx → EReal) (wl : SWlin.Idx → EReal) (bl : SBlin.Idx → EReal) :
    SOut.Idx → EReal :=
  fun t => y x w wl bl (t 0) ⟨(t 2).val * 64 + (t 3).val, by
    have h2 : (t 2).val < 64 := (t 2).isLt
    have h3 : (t 3).val < 64 := (t 3).isLt
    omega⟩

theorem out0_ix4 (x : SX.Idx → EReal) (w : SWproj.Idx → EReal) (wl : SWlin.Idx → EReal) (bl : SBlin.Idx → EReal)
    (b : Fin 64) (u : Fin 1) (r c : Fin 64) :
    out0 x w wl bl (ix4 b u r c) = y x w wl bl b ⟨r.val * 64 + c.val, by omega⟩ := rfl

/-! ## What the kept words denote, and the law of the scale -/

/-- The word 0xFF800000 is −∞. -/
theorem negInf_eq_bot : Ideal.ofBits .f32 0xFF800000#32 = ⊥ := by simp [Ideal.ofBits, Ideal.ieee]

/-- The word 0x3E000000 is 1/8. -/
theorem ofBits_eighth : Ideal.ofBits .f32 0x3E000000#32 = ((1 / 8 : ℝ) : EReal) := by
  simp [Ideal.ofBits, Ideal.ieee, -EReal.coe_mul]; norm_num

/-- The word 0x42800000 is 64. -/
theorem ofBits_sixtyfour : Ideal.ofBits .f32 0x42800000#32 = ((64 : ℝ) : EReal) := by
  simp [Ideal.ofBits, Ideal.ieee, -EReal.coe_mul]; norm_num

/-- √64 = 8. -/
theorem sqrt_sixtyfour : Ideal.sqrt ((64 : ℝ) : EReal) = ((8 : ℝ) : EReal) := by
  rw [Ideal.sqrt_coe, if_neg (by norm_num), show (64 : ℝ) = 8 ^ 2 by norm_num, Real.sqrt_sq (by norm_num)]

/-- Dividing by √64 is multiplying by 0.125, at the infinities too: a quotient by a nonzero real is the product with
    its reciprocal on every extended real. -/
theorem div_sqrt_sixtyfour (a : EReal) :
    Ideal.div a (Ideal.sqrt (Ideal.ofBits .f32 0x42800000#32)) = a * Ideal.ofBits .f32 0x3E000000#32 := by
  rw [ofBits_sixtyfour, sqrt_sixtyfour, Ideal.div_coe (by norm_num : (8 : ℝ) ≠ 0), ofBits_eighth]

end Cert.Spec

end
-- ==== Proof.KI.AttnFinal.lean ====
/-
  The attention region's two result arrays as whole-array functions of its inputs, at the exact instance.
  Point `t` of the grid handles batch rows 8t … 8t+7: trip `k` of its loop writes, for every head `n`, the tile
  (k, n, ·, ·) of each output block, and that tile is the specification's context / masked score of batch row 8t + k
  (the two hypotheses `TripCtx`, `TripScore`, proved in AttnValue). The 96 tiles cover the block, so the block is
  that function of the row block and the weights; the 8 blocks cover the array.
-/
import proofs.«148574_j76940044140789_2_alg».proof.Proof.Gen.KernelIdeal.Launch
import proofs.«148574_j76940044140789_2_alg».proof.Proof.Gen.KernelIdeal.Skeleton
import proofs.«148574_j76940044140789_2_alg».proof.Proof.Gen.KernelIdeal.Points
import proofs.«148574_j76940044140789_2_alg».proof.Proof.Gen.KernelIdeal.Loops
import proofs.«148574_j76940044140789_2_alg».proof.Proof.KI.Attn
import proofs.«148574_j76940044140789_2_alg».proof.Proof.Spec
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.AttnFinal

open Cert.KernelIdeal.Attn Idealize.ShloMosaic.ValueIdx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- One trip's context tiles are the specification's context of the trip's batch row. -/
def TripCtx : Prop := ∀ (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec Ideal S2304x768 .f32) (X : BufTy.Contents (Elt Ideal) arg1.view.ty) (k : Fin k0_t1_loop.trips) (hk : k.val < 8)
      (f3 : BufTy.Contents (Elt Ideal) arg3.view.ty) (f4 : BufTy.Contents (Elt Ideal) arg4.view.ty)
      (x : Cert.Spec.SX.Idx → EReal) (w : Cert.Spec.SWproj.Idx → EReal) (b : Fin 64)
      (hx : ∀ (s : Fin 64) (d : Fin 768), arg1.view.read (Elt Ideal) X (ix3 (⟨k.val, hk⟩ : Fin 8) s d) = x (ix3 b s d))
      (hw : ∀ (n : Fin 12) (f : Fin 192) (d : Fin 768), v3 (ix2 (⟨192 * n.val + f.val, by omega⟩ : Fin 2304) d) = w (ix3 n f d))
      (G : S8x12x64x64.Idx → EReal) (hG : ∀ (n : Fin 12) (r j : Fin 64), G (ix4 (⟨k.val, hk⟩ : Fin 8) n r j) = Cert.Spec.ctx x w b n r j),
      ∀ p ∈ (tripL_k0_t1 (F := Ideal) 𝒱 c bd i arg1 harg1 arg2 harg2 arg3 harg3 arg4 harg4 v3 X k f3 f4).1, ∀ y, p.2 y = G (p.1.emb y)
/-- One trip's score tiles are the specification's masked scores of the trip's batch row. -/
def TripScore : Prop := ∀ (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec Ideal S2304x768 .f32) (X : BufTy.Contents (Elt Ideal) arg1.view.ty) (k : Fin k0_t1_loop.trips) (hk : k.val < 8)
      (f3 : BufTy.Contents (Elt Ideal) arg3.view.ty) (f4 : BufTy.Contents (Elt Ideal) arg4.view.ty)
      (x : Cert.Spec.SX.Idx → EReal) (w : Cert.Spec.SWproj.Idx → EReal) (b : Fin 64)
      (hx : ∀ (s : Fin 64) (d : Fin 768), arg1.view.read (Elt Ideal) X (ix3 (⟨k.val, hk⟩ : Fin 8) s d) = x (ix3 b s d))
      (hw : ∀ (n : Fin 12) (f : Fin 192) (d : Fin 768), v3 (ix2 (⟨192 * n.val + f.val, by omega⟩ : Fin 2304) d) = w (ix3 n f d))
      (G : S8x12x64x64.Idx → EReal) (hG : ∀ (n : Fin 12) (r j : Fin 64), G (ix4 (⟨k.val, hk⟩ : Fin 8) n r j) = Cert.Spec.score x w b n r j),
      ∀ p ∈ (tripL_k0_t1 (F := Ideal) 𝒱 c bd i arg1 harg1 arg2 harg2 arg3 harg3 arg4 harg4 v3 X k f3 f4).2, ∀ y, p.2 y = G (p.1.emb y)

theorem hz2 : (![0, 0] : Fin 2 → Nat) = fun _ => 0 := funext fun a => by fin_cases a <;> rfl

/-- The whole-matrix load reads the staged matrix. -/
theorem wAll_eq (arg2 : Memref sig .tc .vmem S2304x768 .f32) (harg2 : arg2.IsWhole) (x1 : Vec Ideal S2304x768 .f32) :
    wAll arg2 harg2 x1 = x1 := by
  unfold wAll
  rw [View.readAt_eq_ld, harg2.read_unread, View.ld_unit_zero hz2]

variable (x : Cert.Spec.SX.Idx → EReal) (w : Cert.Spec.SWproj.Idx → EReal)

/-- Block `T` of the masked scores, as a function of the block's own index. -/
def scoreBlk (T : Fin 8) : S8x12x64x64.Idx → EReal := fun y =>
  Cert.Spec.score x w ⟨8 * T.val + (y 0).val, by have h : (y 0).val < 8 := (y 0).isLt; omega⟩ (y 1) (y 2) (y 3)
/-- Block `T` of the contexts. -/
def ctxBlk (T : Fin 8) : S8x12x64x64.Idx → EReal := fun y =>
  Cert.Spec.ctx x w ⟨8 * T.val + (y 0).val, by have h : (y 0).val < 8 := (y 0).isLt; omega⟩ (y 1) (y 2) (y 3)
/-- The contexts as one array. -/
def ctxArr : S64x12x64x64.Idx → EReal := fun t => Cert.Spec.ctx x w (t 0) (t 1) (t 2) (t 3)

/-- The context tiles of the trips before `n` are blocks of ONE function of the output block's index. -/
theorem pieces_ctx (hTripCtx : TripCtx) (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole)
    (x0 : Vec Ideal S8x64x768 .f32) (x1 : Vec Ideal S2304x768 .f32) (T : Fin 8)
    (hx0 : ∀ (k : Fin 8) (s : Fin 64) (d : Fin 768), x0 (ix3 k s d) = x (ix3 (⟨8 * T.val + k.val, by omega⟩ : Fin 64) s d))
    (hx1 : ∀ (n : Fin 12) (f : Fin 192) (d : Fin 768), x1 (ix2 (⟨192 * n.val + f.val, by omega⟩ : Fin 2304) d) = w (ix3 n f d)) :
    ∀ n : ℕ, n ≤ 8 → ∀ p ∈ (pb_k0_t1 (F := Ideal) Variants.none c none i arg1 harg1 arg2 harg2 arg3 harg3 arg4 harg4 (wAll arg2 harg2 x1) (harg1.unread x0) arg3.view.junk arg4.view.junk n).1,
      ∀ y, p.2 y = ctxBlk x w T (p.1.emb y)
  | 0, _ => by intro p hp; exact absurd hp (List.not_mem_nil)
  | n + 1, hn => by
      have hn8 : n < 8 := hn
      have htr : n < k0_t1_loop.trips := lt_of_lt_of_le hn8 (by decide)
      intro p hp
      rw [pb_k0_t1_succ Variants.none c none i arg1 harg1 arg2 harg2 arg3 harg3 arg4 harg4 (wAll arg2 harg2 x1) (harg1.unread x0) arg3.view.junk arg4.view.junk ⟨n, htr⟩] at hp
      rcases List.mem_append.mp hp with hp | hp
      · refine hTripCtx Variants.none c none i arg1 harg1 arg2 harg2 arg3 harg3 arg4 harg4 (wAll arg2 harg2 x1) (harg1.unread x0) ⟨n, htr⟩ hn8 _ _ x w ⟨8 * T.val + n, by omega⟩ ?_ ?_ (ctxBlk x w T) ?_ p hp
        · intro s d
          rw [harg1.read_unread]
          exact hx0 ⟨n, hn8⟩ s d
        · intro m f d
          rw [wAll_eq]
          exact hx1 m f d
        · intro m r j
          rfl
      · exact pieces_ctx hTripCtx c i arg1 harg1 arg2 harg2 arg3 harg3 arg4 harg4 x0 x1 T hx0 hx1 n (Nat.le_of_lt hn8) p hp

/-- The score tiles of the trips before `n` are blocks of ONE function of the output block's index. -/
theorem pieces_score (hTripScore : TripScore) (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole)
    (x0 : Vec Ideal S8x64x768 .f32) (x1 : Vec Ideal S2304x768 .f32) (T : Fin 8)
    (hx0 : ∀ (k : Fin 8) (s : Fin 64) (d : Fin 768), x0 (ix3 k s d) = x (ix3 (⟨8 * T.val + k.val, by omega⟩ : Fin 64) s d))
    (hx1 : ∀ (n : Fin 12) (f : Fin 192) (d : Fin 768), x1 (ix2 (⟨192 * n.val + f.val, by omega⟩ : Fin 2304) d) = w (ix3 n f d)) :
    ∀ n : ℕ, n ≤ 8 → ∀ p ∈ (pb_k0_t1 (F := Ideal) Variants.none c none i arg1 harg1 arg2 harg2 arg3 harg3 arg4 harg4 (wAll arg2 harg2 x1) (harg1.unread x0) arg3.view.junk arg4.view.junk n).2,
      ∀ y, p.2 y = scoreBlk x w T (p.1.emb y)
  | 0, _ => by intro p hp; exact absurd hp (List.not_mem_nil)
  | n + 1, hn => by
      have hn8 : n < 8 := hn
      have htr : n < k0_t1_loop.trips := lt_of_lt_of_le hn8 (by decide)
      intro p hp
      rw [pb_k0_t1_succ Variants.none c none i arg1 harg1 arg2 harg2 arg3 harg3 arg4 harg4 (wAll arg2 harg2 x1) (harg1.unread x0) arg3.view.junk arg4.view.junk ⟨n, htr⟩] at hp
      rcases List.mem_append.mp hp with hp | hp
      · refine hTripScore Variants.none c none i arg1 harg1 arg2 harg2 arg3 harg3 arg4 harg4 (wAll arg2 harg2 x1) (harg1.unread x0) ⟨n, htr⟩ hn8 _ _ x w ⟨8 * T.val + n, by omega⟩ ?_ ?_ (scoreBlk x w T) ?_ p hp
        · intro s d
          rw [harg1.read_unread]
          exact hx0 ⟨n, hn8⟩ s d
        · intro m f d
          rw [wAll_eq]
          exact hx1 m f d
        · intro m r j
          rfl
      · exact pieces_score hTripScore c i arg1 harg1 arg2 harg2 arg3 harg3 arg4 harg4 x0 x1 T hx0 hx1 n (Nat.le_of_lt hn8) p hp

/-- The context block a call leaves is that function. -/
theorem out0_2_eq (hTripCtx : TripCtx) (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole)
    (x0 : Vec Ideal S8x64x768 .f32) (x1 : Vec Ideal S2304x768 .f32) (T : Fin 8)
    (hx0 : ∀ (k : Fin 8) (s : Fin 64) (d : Fin 768), x0 (ix3 k s d) = x (ix3 (⟨8 * T.val + k.val, by omega⟩ : Fin 64) s d))
    (hx1 : ∀ (n : Fin 12) (f : Fin 192) (d : Fin 768), x1 (ix2 (⟨192 * n.val + f.val, by omega⟩ : Fin 2304) d) = w (ix3 n f d)) :
    out0_2 c i arg1 harg1 arg2 harg2 arg3 harg3 arg4 harg4 x0 x1 = ctxBlk x w T := by
  funext y
  unfold out0_2 tiles
  exact View.canon_apply_of_pieces (ctxBlk x w T) _
    (pieces_ctx x w hTripCtx c i arg1 harg1 arg2 harg2 arg3 harg3 arg4 harg4 x0 x1 T hx0 hx1 _ (by decide)) y (cover0_2 c i arg1 harg1 arg2 harg2 arg3 harg3 arg4 harg4 x0 x1 y)

/-- The score block a call leaves is that function. -/
theorem out0_3_eq (hTripScore : TripScore) (c : Dev nD) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole)
    (x0 : Vec Ideal S8x64x768 .f32) (x1 : Vec Ideal S2304x768 .f32) (T : Fin 8)
    (hx0 : ∀ (k : Fin 8) (s : Fin 64) (d : Fin 768), x0 (ix3 k s d) = x (ix3 (⟨8 * T.val + k.val, by omega⟩ : Fin 64) s d))
    (hx1 : ∀ (n : Fin 12) (f : Fin 192) (d : Fin 768), x1 (ix2 (⟨192 * n.val + f.val, by omega⟩ : Fin 2304) d) = w (ix3 n f d)) :
    out0_3 c i arg1 harg1 arg2 harg2 arg3 harg3 arg4 harg4 x0 x1 = scoreBlk x w T := by
  funext y
  unfold out0_3 tiles
  exact View.canon_apply_of_pieces (scoreBlk x w T) _
    (pieces_score x w hTripScore c i arg1 harg1 arg2 harg2 arg3 harg3 arg4 harg4 x0 x1 T hx0 hx1 _ (by decide)) y (cover0_3 c i arg1 harg1 arg2 harg2 arg3 harg3 arg4 harg4 x0 x1 y)

/-! ## From the blocks to the arrays -/

section Final

variable (V : (c : Dev nD) → (b : Ref sig .tc) → Buf (Elt Ideal) ((c : Thread nD τ).loc b))
variable (w : Cert.Spec.SWproj.Idx → EReal)

/-- The printed index maps, decided over the grid: the row-block window and the two output windows move along the
    batch axis with the point, the projection matrix's window never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- Row `k` of the row block at point `t` is batch row `8t + k`. -/
theorem xblk_apply (c : Dev nD) (t : Fin cfg0.N) (k : Fin 8) (s : Fin 64) (d : Fin 768) :
    (iblk0 V c 0 t : Vec Ideal S8x64x768 .f32) (ix3 k s d)
      = V c main_arg0 (ix3 (⟨8 * t.val + k.val, by have := lt_of_lt_of_eq t.isLt N_0; omega⟩ : Fin 64) s d) := by
  obtain ⟨e0, e1, e2, -⟩ := idx_facts t
  show V c main_arg0 (((cfg0.win 0).blk t).view.emb (ix3 k s d)) = _
  refine congrArg (V c main_arg0) (funext fun a => Fin.ext ?_)
  match a with
  | ⟨0, _⟩ => show win0_0.index t (0 : Fin 3) * 8 + 1 * k.val = 8 * t.val + k.val; omega
  | ⟨1, _⟩ => show win0_0.index t (1 : Fin 3) * 64 + 1 * s.val = s.val; omega
  | ⟨2, _⟩ => show win0_0.index t (2 : Fin 3) * 768 + 1 * d.val = d.val; omega

/-- The projection matrix's block is the whole matrix at every point. -/
theorem wblk_apply (c : Dev nD) (t : Fin cfg0.N) (r : Fin 2304) (d : Fin 768) :
    (iblk0 V c 1 t : Vec Ideal S2304x768 .f32) (ix2 r d) = V c main_v0 (ix2 r d) := by
  obtain ⟨-, -, -, e0, e1, -⟩ := idx_facts t
  show V c main_v0 (((cfg0.win 1).blk t).view.emb (ix2 r d)) = _
  refine congrArg (V c main_v0) (funext fun a => Fin.ext ?_)
  match a with
  | ⟨0, _⟩ => show win0_1.index t (0 : Fin 2) * 2304 + 1 * r.val = r.val; omega
  | ⟨1, _⟩ => show win0_1.index t (1 : Fin 2) * 768 + 1 * d.val = d.val; omega

/-- An index of the array is in point `t`'s block of window 2 iff each coordinate is in the block's range. -/
theorem mem_blk2 (t : Fin cfg0.N) (i : S64x12x64x64.Idx) :
    i ∈ ((cfg0.win 2).blk t).view.set ↔ ∀ a : Fin 4, win0_2.index t a * S8x12x64x64.size a ≤ (i a).val ∧ (i a).val < win0_2.index t a * S8x12x64x64.size a + S8x12x64x64.size a := by
  show i ∈ ((View.whole main_v1_0).slice (win0_2.rect t)).set ↔ _
  rw [View.set_slice_whole, Rect.mem_set_unit]
  exact Iff.rfl

/-- What point `t` writes back through window 2 is block `t` of the whole-array function. -/
theorem flushed2_eq (hTripCtx : TripCtx) (c : Dev nD) (t : Fin cfg0.N)
    (hW : ∀ (n : Fin 12) (f : Fin 192) (d : Fin 768), V c main_v0 (ix2 (⟨192 * n.val + f.val, by omega⟩ : Fin 2304) d) = w (ix3 n f d)) :
    (dat0 V c).flushed 2 t = ((cfg0.win 2).blk t).view.read (Elt Ideal) (ctxArr (V c main_arg0) w) := by
  have ht : t.val < 8 := lt_of_lt_of_eq t.isLt N_0
  obtain ⟨-, -, -, -, -, -, -, -, -, f0, f1, f2, f3⟩ := idx_facts t
  obtain ⟨-, -, -, -, -, g0, g1, g2, g3, -⟩ := idx_facts t
  show (cfg0.win 2).cut (grid0.coords t) ((dat0 V c).after 2 t) = _
  rw [after0_2, out0_2_eq (V c main_arg0) w hTripCtx c _ _ _ _ _ _ _ _ _ (iblk0 V c 0 t) (iblk0 V c 1 t) ⟨t.val, ht⟩
    (fun k s d => xblk_apply V c t k s d) (fun n f d => (wblk_apply V c t _ d).trans (hW n f d))]
  funext y
  have hy0 : (y 0).val < 8 := (y 0).isLt
  have hy1 : (y 1).val < 12 := (y 1).isLt
  have hy2 : (y 2).val < 64 := (y 2).isLt
  have hy3 : (y 3).val < 64 := (y 3).isLt
  have h64 : 8 * t.val + (y 0).val < 64 := by omega
  have e0 : (((cfg0.win 2).blk t).view.emb y) 0 = (⟨8 * t.val + (y 0).val, h64⟩ : Fin 64) :=
    Fin.ext (by show win0_2.index t (0 : Fin 4) * 8 + 1 * (y 0).val = 8 * t.val + (y 0).val; omega)
  have e1 : ((((cfg0.win 2).blk t).view.emb y) 1 : Fin 12) = (y 1 : Fin 12) :=
    Fin.ext (by show win0_2.index t (1 : Fin 4) * 12 + 1 * (y 1).val = (y 1).val; omega)
  have e2 : ((((cfg0.win 2).blk t).view.emb y) 2 : Fin 64) = (y 2 : Fin 64) :=
    Fin.ext (by show win0_2.index t (2 : Fin 4) * 64 + 1 * (y 2).val = (y 2).val; omega)
  have e3 : ((((cfg0.win 2).blk t).view.emb y) 3 : Fin 64) = (y 3 : Fin 64) :=
    Fin.ext (by show win0_2.index t (3 : Fin 4) * 64 + 1 * (y 3).val = (y 3).val; omega)
  show ctxBlk (V c main_arg0) w ⟨t.val, ht⟩ y = (ctxArr (V c main_arg0) w) (((cfg0.win 2).blk t).view.emb y)
  unfold ctxBlk ctxArr
  rw [e0, e1, e2, e3]

/-- Every index of the array is in some point's block of window 2. -/
theorem cover2 (i : S64x12x64x64.Idx) : ∃ t : Fin cfg0.N, (cfg0.win 2).flush t = true ∧ i ∈ ((cfg0.win 2).blk t).view.set := by
  have hi0 : (i 0).val < 64 := (i 0).isLt
  have hi1 : (i 1).val < 12 := (i 1).isLt
  have hi2 : (i 2).val < 64 := (i 2).isLt
  have hi3 : (i 3).val < 64 := (i 3).isLt
  let t : Fin cfg0.N := ⟨(i 0).val / 8, by rw [show cfg0.N = 8 from N_0]; omega⟩
  have ht : t.val = (i 0).val / 8 := rfl
  refine ⟨t, flush0_2 t, ?_⟩
  obtain ⟨-, -, -, -, -, g0, g1, g2, g3, f0, f1, f2, f3⟩ := idx_facts t
  rw [mem_blk2]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 12 ≤ (i 1).val ∧ (i 1).val < win0_2.index t (1 : Fin 4) * 12 + 12; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- THE ARRAY after the region. -/
theorem final2 (hTripCtx : TripCtx) (c : Dev nD)
    (hW : ∀ (n : Fin 12) (f : Fin 192) (d : Fin 768), V c main_v0 (ix2 (⟨192 * n.val + f.val, by omega⟩ : Fin 2304) d) = w (ix3 n f d)) :
    (dat0 V c).arrAt 2 cfg0.N = ctxArr (V c main_arg0) w :=
  (dat0 V c).arrAt_eq_of_cover 2 _ (fun t _ => flushed2_eq V w hTripCtx c t hW) cover2

/-- An index of the array is in point `t`'s block of window 3 iff each coordinate is in the block's range. -/
theorem mem_blk3 (t : Fin cfg0.N) (i : S64x12x64x64.Idx) :
    i ∈ ((cfg0.win 3).blk t).view.set ↔ ∀ a : Fin 4, win0_3.index t a * S8x12x64x64.size a ≤ (i a).val ∧ (i a).val < win0_3.index t a * S8x12x64x64.size a + S8x12x64x64.size a := by
  show i ∈ ((View.whole main_v1_1).slice (win0_3.rect t)).set ↔ _
  rw [View.set_slice_whole, Rect.mem_set_unit]
  exact Iff.rfl

/-- What point `t` writes back through window 3 is block `t` of the whole-array function. -/
theorem flushed3_eq (hTripScore : TripScore) (c : Dev nD) (t : Fin cfg0.N)
    (hW : ∀ (n : Fin 12) (f : Fin 192) (d : Fin 768), V c main_v0 (ix2 (⟨192 * n.val + f.val, by omega⟩ : Fin 2304) d) = w (ix3 n f d)) :
    (dat0 V c).flushed 3 t = ((cfg0.win 3).blk t).view.read (Elt Ideal) (Cert.Spec.masked (V c main_arg0) w) := by
  have ht : t.val < 8 := lt_of_lt_of_eq t.isLt N_0
  obtain ⟨-, -, -, -, -, -, -, -, -, f0, f1, f2, f3⟩ := idx_facts t
  obtain ⟨-, -, -, -, -, g0, g1, g2, g3, -⟩ := idx_facts t
  show (cfg0.win 3).cut (grid0.coords t) ((dat0 V c).after 3 t) = _
  rw [after0_3, out0_3_eq (V c main_arg0) w hTripScore c _ _ _ _ _ _ _ _ _ (iblk0 V c 0 t) (iblk0 V c 1 t) ⟨t.val, ht⟩
    (fun k s d => xblk_apply V c t k s d) (fun n f d => (wblk_apply V c t _ d).trans (hW n f d))]
  funext y
  have hy0 : (y 0).val < 8 := (y 0).isLt
  have hy1 : (y 1).val < 12 := (y 1).isLt
  have hy2 : (y 2).val < 64 := (y 2).isLt
  have hy3 : (y 3).val < 64 := (y 3).isLt
  have h64 : 8 * t.val + (y 0).val < 64 := by omega
  have e0 : (((cfg0.win 3).blk t).view.emb y) 0 = (⟨8 * t.val + (y 0).val, h64⟩ : Fin 64) :=
    Fin.ext (by show win0_3.index t (0 : Fin 4) * 8 + 1 * (y 0).val = 8 * t.val + (y 0).val; omega)
  have e1 : ((((cfg0.win 3).blk t).view.emb y) 1 : Fin 12) = (y 1 : Fin 12) :=
    Fin.ext (by show win0_3.index t (1 : Fin 4) * 12 + 1 * (y 1).val = (y 1).val; omega)
  have e2 : ((((cfg0.win 3).blk t).view.emb y) 2 : Fin 64) = (y 2 : Fin 64) :=
    Fin.ext (by show win0_3.index t (2 : Fin 4) * 64 + 1 * (y 2).val = (y 2).val; omega)
  have e3 : ((((cfg0.win 3).blk t).view.emb y) 3 : Fin 64) = (y 3 : Fin 64) :=
    Fin.ext (by show win0_3.index t (3 : Fin 4) * 64 + 1 * (y 3).val = (y 3).val; omega)
  show scoreBlk (V c main_arg0) w ⟨t.val, ht⟩ y = (Cert.Spec.masked (V c main_arg0) w) (((cfg0.win 3).blk t).view.emb y)
  unfold scoreBlk Cert.Spec.masked
  rw [e0, e1, e2, e3]

/-- Every index of the array is in some point's block of window 3. -/
theorem cover3 (i : S64x12x64x64.Idx) : ∃ t : Fin cfg0.N, (cfg0.win 3).flush t = true ∧ i ∈ ((cfg0.win 3).blk t).view.set := by
  have hi0 : (i 0).val < 64 := (i 0).isLt
  have hi1 : (i 1).val < 12 := (i 1).isLt
  have hi2 : (i 2).val < 64 := (i 2).isLt
  have hi3 : (i 3).val < 64 := (i 3).isLt
  let t : Fin cfg0.N := ⟨(i 0).val / 8, by rw [show cfg0.N = 8 from N_0]; omega⟩
  have ht : t.val = (i 0).val / 8 := rfl
  refine ⟨t, flush0_3 t, ?_⟩
  obtain ⟨-, -, -, -, -, g0, g1, g2, g3, f0, f1, f2, f3⟩ := idx_facts t
  rw [mem_blk3]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 12 ≤ (i 1).val ∧ (i 1).val < win0_3.index t (1 : Fin 4) * 12 + 12; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- THE ARRAY after the region. -/
theorem final3 (hTripScore : TripScore) (c : Dev nD)
    (hW : ∀ (n : Fin 12) (f : Fin 192) (d : Fin 768), V c main_v0 (ix2 (⟨192 * n.val + f.val, by omega⟩ : Fin 2304) d) = w (ix3 n f d)) :
    (dat0 V c).arrAt 3 cfg0.N = Cert.Spec.masked (V c main_arg0) w :=
  (dat0 V c).arrAt_eq_of_cover 3 _ (fun t _ => flushed3_eq V w hTripScore c t hW) cover3

end Final

end Cert.KernelIdeal.AttnFinal
end
-- ==== Proof.Relay.lean ====
/-
  The four re-layings the program's host side performs around its two regions, read at an index.

  A re-laying keeps the elements in row-major order and changes only the shape, so an entry of the result is the entry
  of the operand at the same row-major position:
    the projection weight [12,192,768] as [2304,768]:   row 192·n + f is (n, f);
    the context [64,12,64,64] as [64,49152]:            column κ of row b is (n, i, d) = (κ / 4096, κ / 64 mod 64, κ mod 64);
    the bias [4096] as [1,4096]:                        (0, o) is o;
    the linear layer's [64,4096] as [64,1,64,64]:       (b, 0, r, c) is column r·64 + c of row b.
  Each is one comparison of two row-major positions, closed by linear arithmetic. They are stated for an arbitrary
  operand and an arbitrary witness that the two shapes have equally many elements.
-/
import proofs.«148574_j76940044140789_2_alg».proof.KernelIdeal
import proofs.«148574_j76940044140789_2_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Relay

open Cert.KernelIdeal Idealize.ShloMosaic Idealize.ShloMosaic.ValueIdx

variable {α : Type}

/-- The projection weight flattened over (head, feature): row 192·n + f of [2304,768] is (n, f) of [12,192,768]. -/
theorem relay_w (A : S12x192x768.Idx → α) (h : S12x192x768.ShapeCasts S2304x768) (n : Fin 12) (f : Fin 192) (d : Fin 768) :
    shapeCast S2304x768 A h (ix2 (⟨192 * n.val + f.val, by omega⟩ : Fin 2304) d) = A (ix3 n f d) := by
  refine shapeCast_apply A h _ (ix3 n f d) ?_
  rewrite [Shape.rowMajor_val_three, Shape.rowMajor_val_two]
  show (n.val * 192 + f.val) * 768 + d.val = (192 * n.val + f.val) * 768 + d.val
  omega

/-- The context flattened over (head, position, coordinate): column κ of row r of [64,49152] is
    (r, κ / 4096, κ / 64 mod 64, κ mod 64) of [64,12,64,64]. -/
theorem relay_z (A : S64x12x64x64.Idx → α) (h : S64x12x64x64.ShapeCasts S64x49152) (r : Fin 64) (κ : Fin 49152) :
    shapeCast S64x49152 A h (ix2 r κ)
      = A (ix4 r (⟨κ.val / 4096, by omega⟩ : Fin 12) (⟨κ.val / 64 % 64, by omega⟩ : Fin 64) (⟨κ.val % 64, by omega⟩ : Fin 64)) := by
  refine shapeCast_apply A h _ _ ?_
  rewrite [Shape.rowMajor_val_four, Shape.rowMajor_val_two]
  have hr : r.val < 64 := r.isLt
  have hκ : κ.val < 49152 := κ.isLt
  show ((r.val * 12 + κ.val / 4096) * 64 + κ.val / 64 % 64) * 64 + κ.val % 64 = r.val * 49152 + κ.val
  omega

/-- The bias as a one-row matrix: (0, o) of [1,4096] is o of [4096]. -/
theorem relay_b (A : S4096.Idx → α) (h : S4096.ShapeCasts S1x4096) (o : Fin 4096) :
    shapeCast S1x4096 A h (ix2 (0 : Fin 1) o) = A (ix1 o) := by
  refine shapeCast_apply A h _ (ix1 o) ?_
  rewrite [Shape.rowMajor_val_one, Shape.rowMajor_val_two]
  show o.val = 0 * 4096 + o.val
  omega

/-- The linear layer's rows cut into 64 × 64: (b, 0, r, c) of [64,1,64,64] is column r·64 + c of row b of [64,4096]. -/
theorem relay_y (A : S64x4096.Idx → α) (h : S64x4096.ShapeCasts S64x1x64x64) (b : Fin 64) (u : Fin 1) (r c : Fin 64) :
    shapeCast S64x1x64x64 A h (ix4 b u r c) = A (ix2 b (⟨r.val * 64 + c.val, by omega⟩ : Fin 4096)) := by
  refine shapeCast_apply A h _ _ ?_
  rewrite [Shape.rowMajor_val_two, Shape.rowMajor_val_four]
  have hu : u.val < 1 := u.isLt
  show b.val * 4096 + (r.val * 64 + c.val) = ((b.val * 1 + u.val) * 64 + r.val) * 64 + c.val
  omega

/-- Result 0 of the specification at (b, 0, r, c), opened once: the contraction of row b of the flattened context with
    row r·64 + c of the weight, plus that entry of the bias. -/
theorem y_of_parts (x : Cert.Spec.SX.Idx → EReal) (w : Cert.Spec.SWproj.Idx → EReal) (wl : Cert.Spec.SWlin.Idx → EReal)
    (bl : Cert.Spec.SBlin.Idx → EReal) (b : Fin 64) (u : Fin 1) (r c : Fin 64) :
    Cert.Spec.out0 x w wl bl (ix4 b u r c)
      = (∑ κ : Fin 49152, Cert.Spec.zflat x w b κ * wl (ix2 (⟨r.val * 64 + c.val, by omega⟩ : Fin 4096) κ))
        + bl (ix1 (⟨r.val * 64 + c.val, by omega⟩ : Fin 4096)) := rfl

end Cert.KernelIdeal.Relay

end
-- ==== Proof.KernelValue.lean ====
/-
  The idealized kernel's two results as the specification's functions of the four argument arrays.
  The masked scores leave the attention region in their array and are never written again. The contexts leave it in
  theirs, are re-laid as one row of 49152 entries per batch element, and the linear region's result — row by row the
  product with the weight matrix plus the bias row — is re-laid to the result's shape.
-/
import proofs.«148574_j76940044140789_2_alg».proof.Proof.Gen.KernelIdeal.Launch
import proofs.«148574_j76940044140789_2_alg».proof.Proof.Gen.KernelIdeal.Skeleton
import proofs.«148574_j76940044140789_2_alg».proof.Proof.Gen.KernelIdeal.Points
import proofs.«148574_j76940044140789_2_alg».proof.Proof.Gen.KernelIdeal.Loops
import proofs.«148574_j76940044140789_2_alg».proof.Proof.KI.Run
import proofs.«148574_j76940044140789_2_alg».proof.Proof.KI.AttnFinal
import proofs.«148574_j76940044140789_2_alg».proof.Proof.Relay
import proofs.«148574_j76940044140789_2_alg».proof.Proof.Spec
import Idealize.ShloMosaic.Lib.StableHlo.Run
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KValue

open Cert.KernelIdeal.Attn Cert.KernelIdeal.Lin Cert.KernelIdeal.Run Cert.KernelIdeal.AttnFinal Cert.KernelIdeal.Relay Idealize.ShloMosaic.ValueIdx Idealize.ShloMosaic.StableHlo

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The linear region's result array: each row's product with the weight matrix, plus the bias row. -/
abbrev LinFinal : Prop := ∀ (V : (c : Dev nD) → (b : Ref sig .tc) → Buf (Elt Ideal) ((c : Thread nD τ).loc b)) (c : Dev nD)
    (z : S64x49152.Idx → EReal) (wl : S4096x49152.Idx → EReal) (bl : S1x4096.Idx → EReal),
    z = V c main_v2 → wl = V c main_arg2 → bl = V c main_v3 →
    (dat1 (F := Ideal) V c).arrAt 3 cfg1.N = fun i : S64x4096.Idx =>
      (∑ κ : Fin 49152, z (ix2 (i 0) κ) * wl (ix2 (i 1) κ)) + bl (ix2 (0 : Fin 1) (i 1))

variable (m : (ℓ : Loc nD τ sig) → Buf (Elt Ideal) ℓ)

/-- The attention region finds the batch rows as launched, -/
theorem V1_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- and the projection weights re-laid as one matrix. -/
theorem W1_v0 (c : Dev nD) : W1 m c (Proc.devRef .tc main_v0)
    = shapeCast S2304x768 (m ((c : Thread nD τ).loc main_arg1)) shapeCasts_S12x192x768_S2304x768 := by
  show StableHlo.after hostOps0 (W0 m c) (Proc.devRef .tc main_v0) = _
  after_results
  rfl

theorem hW (c : Dev nD) (n : Fin 12) (f : Fin 192) (d : Fin 768) :
    V1 m c main_v0 (ix2 (⟨192 * n.val + f.val, by omega⟩ : Fin 2304) d) = m ((c : Thread nD τ).loc main_arg1) (ix3 n f d) :=
  (congrFun (W1_v0 m c) _).trans (relay_w _ _ n f d)

/-- RESULT 1: the masked scores. -/
theorem result1 (hS : TripScore) (c : Dev nD) :
    W5 m c (Proc.devRef .tc main_v1_1) = Cert.Spec.masked (m ((c : Thread nD τ).loc main_arg0)) (m ((c : Thread nD τ).loc main_arg1)) :=
  calc W5 m c (Proc.devRef .tc main_v1_1)
    _ = W4 m c (Proc.devRef .tc main_v1_1) := StableHlo.after_of_forall_not_mem (b := Proc.devRef .tc main_v1_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_v1_1) := W4_of_ne m c main_v1_1 (by decide)
    _ = W2 m c (Proc.devRef .tc main_v1_1) := StableHlo.after_of_forall_not_mem (b := Proc.devRef .tc main_v1_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m) c).arrAt 3 cfg0.N := W2_arr m c 3
    _ = Cert.Spec.masked (V1 m c main_arg0) (m ((c : Thread nD τ).loc main_arg1)) := final3 (V1 m) _ hS c (hW m c)
    _ = Cert.Spec.masked (m ((c : Thread nD τ).loc main_arg0)) (m ((c : Thread nD τ).loc main_arg1)) := by
          rw [show V1 m c main_arg0 = m ((c : Thread nD τ).loc main_arg0) from V1_arg0 m c]

/-- The contexts after the attention region. -/
theorem W2_ctx (hC : TripCtx) (c : Dev nD) :
    W2 m c (Proc.devRef .tc main_v1_0) = ctxArr (m ((c : Thread nD τ).loc main_arg0)) (m ((c : Thread nD τ).loc main_arg1)) :=
  (W2_arr m c 2).trans ((final2 (V1 m) _ hC c (hW m c)).trans (by
    rw [show V1 m c main_arg0 = m ((c : Thread nD τ).loc main_arg0) from V1_arg0 m c]))

/-- The linear region finds the contexts re-laid, -/
theorem V3_v2 (c : Dev nD) : W3 m c (Proc.devRef .tc main_v2)
    = shapeCast S64x49152 (W2 m c (Proc.devRef .tc main_v1_0)) shapeCasts_S64x12x64x64_S64x49152 := by
  show StableHlo.after hostOps1 (W2 m c) (Proc.devRef .tc main_v2) = _
  after_results
  rfl
/-- the bias re-laid as a row, -/
theorem V3_v3 (c : Dev nD) : W3 m c (Proc.devRef .tc main_v3)
    = shapeCast S1x4096 (W2 m c (Proc.devRef .tc main_arg3)) shapeCasts_S4096_S1x4096 := by
  show StableHlo.after hostOps1 (W2 m c) (Proc.devRef .tc main_v3) = _
  after_results
  rfl
theorem W2_arg3 (c : Dev nD) : W2 m c (Proc.devRef .tc main_arg3) = m ((c : Thread nD τ).loc main_arg3) :=
  (W2_of_ne m c main_arg3 (by decide)).trans ((StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl)
/-- and the weight matrix as launched. -/
theorem V3_arg2 (c : Dev nD) : W3 m c (Proc.devRef .tc main_arg2) = m ((c : Thread nD τ).loc main_arg2) :=
  (StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans ((W2_of_ne m c main_arg2 (by decide)).trans ((StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl))

/-- RESULT 0: the linear layer's output, re-laid. -/
theorem result0 (hC : TripCtx) (hL : LinFinal) (c : Dev nD) :
    W5 m c (Proc.devRef .tc main_v5) = Cert.Spec.out0 (m ((c : Thread nD τ).loc main_arg0)) (m ((c : Thread nD τ).loc main_arg1))
      (m ((c : Thread nD τ).loc main_arg2)) (m ((c : Thread nD τ).loc main_arg3)) := by
  have e5 : W5 m c (Proc.devRef .tc main_v5) = shapeCast S64x1x64x64 (W4 m c (Proc.devRef .tc main_v4)) shapeCasts_S64x4096_S64x1x64x64 := by
    show StableHlo.after hostOps2 (W4 m c) (Proc.devRef .tc main_v5) = _
    after_results
    rfl
  have e4 : W4 m c (Proc.devRef .tc main_v4) = (dat1 (V3 m) c).arrAt 3 cfg1.N := W4_arr m c 3
  funext i
  obtain ⟨b, u, r, q, rfl⟩ : ∃ (b : Fin 64) (u : Fin 1) (r q : Fin 64), i = ix4 b u r q := ⟨i 0, i 1, i 2, i 3, eq_ix4 i⟩
  rw [e5, relay_y, e4,
    hL (V3 m) c (shapeCast S64x49152 (ctxArr (m ((c : Thread nD τ).loc main_arg0)) (m ((c : Thread nD τ).loc main_arg1))) shapeCasts_S64x12x64x64_S64x49152)
      (m ((c : Thread nD τ).loc main_arg2)) (shapeCast S1x4096 (m ((c : Thread nD τ).loc main_arg3)) shapeCasts_S4096_S1x4096)
      ((congrArg (fun A => shapeCast S64x49152 A shapeCasts_S64x12x64x64_S64x49152) (W2_ctx m hC c)).symm.trans (V3_v2 m c).symm)
      (V3_arg2 m c).symm
      ((congrArg (fun A => shapeCast S1x4096 A shapeCasts_S4096_S1x4096) (W2_arg3 m c)).symm.trans (V3_v3 m c).symm),
    y_of_parts]
  show (∑ κ : Fin 49152, shapeCast S64x49152 (ctxArr (m ((c : Thread nD τ).loc main_arg0)) (m ((c : Thread nD τ).loc main_arg1))) shapeCasts_S64x12x64x64_S64x49152 (ix2 b κ)
        * m ((c : Thread nD τ).loc main_arg2) (ix2 (⟨r.val * 64 + q.val, by omega⟩ : Fin 4096) κ))
      + shapeCast S1x4096 (m ((c : Thread nD τ).loc main_arg3)) shapeCasts_S4096_S1x4096 (ix2 (0 : Fin 1) (⟨r.val * 64 + q.val, by omega⟩ : Fin 4096)) = _
  rw [relay_b]
  refine congrArg₂ (· + ·) (Finset.sum_congr rfl fun κ _ => ?_) rfl
  rw [relay_z]
  rfl

end Cert.KernelIdeal.KValue
end
-- ==== Proof.AttnOps.lean ====
/-
  The attention kernel's vector operations read at one index, at the exact instance (floats are extended reals, every
  operation exact, the bf16 format changes the identity): the three contractions as plain sums over the contracted
  coordinate, the two lane reductions of a row as the specification's fold of max and as a plain sum, a per-row value
  kept as a column and spread back over the row, the causal mask's bit, and a 64×64 tile viewed as a [1,1,64,64] block.
-/
import proofs.«148574_j76940044140789_2_alg».proof.Proof.Gen.KernelIdeal.Skeleton
import proofs.«148574_j76940044140789_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Affine
import Idealize.ShloMosaic.Lib.DynamicIndex

noncomputable section

open scoped BigOperators

namespace Cert.KernelIdeal.AttnValue

open Cert.KernelIdeal Cert.KernelIdeal.Gen Idealize.ShloMosaic Idealize.ShloMosaic.ValueIdx

/-! ## The three contractions read at an index

Each is a `tpu.matmul` into a zero accumulator with one contracting axis, so at the exact instance its element
is the plain sum of products over that axis's coordinate. The operand indices are read off the dimension numbers. -/

theorem NT_lhs0 (i : S64x64.Idx) (q : dot_S64x64_S64x64_S64x64_1_1_0_0_n_n.contr.Idx) : (dot_S64x64_S64x64_S64x64_1_1_0_0_n_n.lhsIdx i q 0).val = (i 0).val := by
  unfold DotDims.lhsIdx
  rw [dif_neg (show ¬(0 : Fin S64x64.rank) ∈ dot_S64x64_S64x64_S64x64_1_1_0_0_n_n.lhsBatch by decide),
    dif_pos (show (0 : Fin S64x64.rank) ∈ dot_S64x64_S64x64_S64x64_1_1_0_0_n_n.lhsNonContracting by decide)]
  rfl
theorem NT_lhs1 (i : S64x64.Idx) (q : dot_S64x64_S64x64_S64x64_1_1_0_0_n_n.contr.Idx) : (dot_S64x64_S64x64_S64x64_1_1_0_0_n_n.lhsIdx i q 1).val = (q ⟨0, by decide⟩).val :=
  dot_S64x64_S64x64_S64x64_1_1_0_0_n_n.lhsIdx_val_of_single rfl i q
theorem NT_rhs0 (i : S64x64.Idx) (q : dot_S64x64_S64x64_S64x64_1_1_0_0_n_n.contr.Idx) : (dot_S64x64_S64x64_S64x64_1_1_0_0_n_n.rhsIdx i q 0).val = (i 1).val := by
  unfold DotDims.rhsIdx
  rw [dif_neg (show ¬(0 : Fin S64x64.rank) ∈ dot_S64x64_S64x64_S64x64_1_1_0_0_n_n.rhsBatch by decide),
    dif_pos (show (0 : Fin S64x64.rank) ∈ dot_S64x64_S64x64_S64x64_1_1_0_0_n_n.rhsNonContracting by decide)]
  rfl
theorem NT_rhs1 (i : S64x64.Idx) (q : dot_S64x64_S64x64_S64x64_1_1_0_0_n_n.contr.Idx) : (dot_S64x64_S64x64_S64x64_1_1_0_0_n_n.rhsIdx i q 1).val = (q ⟨0, by decide⟩).val :=
  dot_S64x64_S64x64_S64x64_1_1_0_0_n_n.rhsIdx_val_of_single rfl i q

theorem NN_lhs0 (i : S64x64.Idx) (q : dot_S64x64_S64x64_S64x64_1_0_0_1_n_n.contr.Idx) : (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide),
    dif_pos (show (0 : Fin S64x64.rank) ∈ dot_S64x64_S64x64_S64x64_1_0_0_1_n_n.lhsNonContracting by decide)]
  rfl
theorem NN_lhs1 (i : S64x64.Idx) (q : dot_S64x64_S64x64_S64x64_1_0_0_1_n_n.contr.Idx) : (dot_S64x64_S64x64_S64x64_1_0_0_1_n_n.lhsIdx i q 1).val = (q ⟨0, by decide⟩).val :=
  dot_S64x64_S64x64_S64x64_1_0_0_1_n_n.lhsIdx_val_of_single rfl i q
theorem NN_rhs1 (i : S64x64.Idx) (q : dot_S64x64_S64x64_S64x64_1_0_0_1_n_n.contr.Idx) : (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide),
    dif_pos (show (1 : Fin S64x64.rank) ∈ dot_S64x64_S64x64_S64x64_1_0_0_1_n_n.rhsNonContracting by decide)]
  rfl
theorem NN_rhs0 (i : S64x64.Idx) (q : dot_S64x64_S64x64_S64x64_1_0_0_1_n_n.contr.Idx) : (dot_S64x64_S64x64_S64x64_1_0_0_1_n_n.rhsIdx i q 0).val = (q ⟨0, by decide⟩).val :=
  dot_S64x64_S64x64_S64x64_1_0_0_1_n_n.rhsIdx_val_of_single rfl i q

theorem proj_lhs0 (i : S64x2304.Idx) (q : dot_S64x768_S2304x768_S64x2304_1_1_0_0_n_n.contr.Idx) : (dot_S64x768_S2304x768_S64x2304_1_1_0_0_n_n.lhsIdx i q 0).val = (i 0).val := by
  unfold DotDims.lhsIdx
  rw [dif_neg (show ¬(0 : Fin S64x768.rank) ∈ dot_S64x768_S2304x768_S64x2304_1_1_0_0_n_n.lhsBatch by decide),
    dif_pos (show (0 : Fin S64x768.rank) ∈ dot_S64x768_S2304x768_S64x2304_1_1_0_0_n_n.lhsNonContracting by decide)]
  rfl
theorem proj_lhs1 (i : S64x2304.Idx) (q : dot_S64x768_S2304x768_S64x2304_1_1_0_0_n_n.contr.Idx) : (dot_S64x768_S2304x768_S64x2304_1_1_0_0_n_n.lhsIdx i q 1).val = (q ⟨0, by decide⟩).val :=
  dot_S64x768_S2304x768_S64x2304_1_1_0_0_n_n.lhsIdx_val_of_single rfl i q
theorem proj_rhs0 (i : S64x2304.Idx) (q : dot_S64x768_S2304x768_S64x2304_1_1_0_0_n_n.contr.Idx) : (dot_S64x768_S2304x768_S64x2304_1_1_0_0_n_n.rhsIdx i q 0).val = (i 1).val := by
  unfold DotDims.rhsIdx
  rw [dif_neg (show ¬(0 : Fin S2304x768.rank) ∈ dot_S64x768_S2304x768_S64x2304_1_1_0_0_n_n.rhsBatch by decide),
    dif_pos (show (0 : Fin S2304x768.rank) ∈ dot_S64x768_S2304x768_S64x2304_1_1_0_0_n_n.rhsNonContracting by decide)]
  rfl
theorem proj_rhs1 (i : S64x2304.Idx) (q : dot_S64x768_S2304x768_S64x2304_1_1_0_0_n_n.contr.Idx) : (dot_S64x768_S2304x768_S64x2304_1_1_0_0_n_n.rhsIdx i q 1).val = (q ⟨0, by decide⟩).val :=
  dot_S64x768_S2304x768_S64x2304_1_1_0_0_n_n.rhsIdx_val_of_single rfl i q

/-- q·kᵀ: both operands contract their second axis: element (r, j) is Σ_d a[r,d]·b[j,d]. -/
theorem dotNT_apply (a b : FVec Ideal S64x64 .bf16) (r j : Fin 64) :
    matmul dot_S64x64_S64x64_S64x64_1_1_0_0_n_n none a b (constant S64x64 .f32 0x00000000#32) (ix2 r j)
      = ∑ d : Fin 64, a (ix2 r d) * b (ix2 j d) := by
  simp only [matmul]
  rw [Ideal.matmul_constant_zero_apply, ← Equiv.sum_comp (contrEquiv1 dot_S64x64_S64x64_S64x64_1_1_0_0_n_n 64 rfl rfl).symm]
  refine Finset.sum_congr rfl fun d _ => ?_
  have hd := contrEquiv1_symm_val dot_S64x64_S64x64_S64x64_1_1_0_0_n_n 64 rfl rfl d
  have el : dot_S64x64_S64x64_S64x64_1_1_0_0_n_n.lhsIdx (ix2 r j) ((contrEquiv1 dot_S64x64_S64x64_S64x64_1_1_0_0_n_n 64 rfl rfl).symm d) = ix2 r d :=
    funext fun ax => Fin.ext (by
      match ax with
      | ⟨0, _⟩ => exact NT_lhs0 _ _
      | ⟨1, _⟩ => exact (NT_lhs1 _ _).trans hd)
  have er : dot_S64x64_S64x64_S64x64_1_1_0_0_n_n.rhsIdx (ix2 r j) ((contrEquiv1 dot_S64x64_S64x64_S64x64_1_1_0_0_n_n 64 rfl rfl).symm d) = ix2 j d :=
    funext fun ax => Fin.ext (by
      match ax with
      | ⟨0, _⟩ => exact NT_rhs0 _ _
      | ⟨1, _⟩ => exact (NT_rhs1 _ _).trans hd)
  rw [el, er]

/-- a·v: the left operand contracts its second axis, the right its first: element (r, d) is Σ_j a[r,j]·b[j,d]. -/
theorem dotNN_apply (a b : FVec Ideal S64x64 .bf16) (r d : Fin 64) :
    matmul dot_S64x64_S64x64_S64x64_1_0_0_1_n_n none a b (constant S64x64 .f32 0x00000000#32) (ix2 r d)
      = ∑ j : Fin 64, a (ix2 r j) * b (ix2 j d) := by
  simp only [matmul]
  rw [Ideal.matmul_constant_zero_apply, ← Equiv.sum_comp (contrEquiv1 dot_S64x64_S64x64_S64x64_1_0_0_1_n_n 64 rfl rfl).symm]
  refine Finset.sum_congr rfl fun j _ => ?_
  have hj := contrEquiv1_symm_val dot_S64x64_S64x64_S64x64_1_0_0_1_n_n 64 rfl rfl j
  have el : dot_S64x64_S64x64_S64x64_1_0_0_1_n_n.lhsIdx (ix2 r d) ((contrEquiv1 dot_S64x64_S64x64_S64x64_1_0_0_1_n_n 64 rfl rfl).symm j) = ix2 r j :=
    funext fun ax => Fin.ext (by
      match ax with
      | ⟨0, _⟩ => exact NN_lhs0 _ _
      | ⟨1, _⟩ => exact (NN_lhs1 _ _).trans hj)
  have er : dot_S64x64_S64x64_S64x64_1_0_0_1_n_n.rhsIdx (ix2 r d) ((contrEquiv1 dot_S64x64_S64x64_S64x64_1_0_0_1_n_n 64 rfl rfl).symm j) = ix2 j d :=
    funext fun ax => Fin.ext (by
      match ax with
      | ⟨0, _⟩ => exact (NN_rhs0 _ _).trans hj
      | ⟨1, _⟩ => exact NN_rhs1 _ _)
  rw [el, er]

/-- The projection: row s of the input block against row c of the flat weight matrix, over the 768 inputs. -/
theorem dotProj_apply (a : FVec Ideal S64x768 .bf16) (b : FVec Ideal S2304x768 .bf16) (s : Fin 64) (c : Fin 2304) :
    matmul dot_S64x768_S2304x768_S64x2304_1_1_0_0_n_n none a b (constant S64x2304 .f32 0x00000000#32) (ix2 s c)
      = ∑ d : Fin 768, a (ix2 s d) * b (ix2 c d) := by
  simp only [matmul]
  rw [Ideal.matmul_constant_zero_apply, ← Equiv.sum_comp (contrEquiv1 dot_S64x768_S2304x768_S64x2304_1_1_0_0_n_n 768 rfl rfl).symm]
  refine Finset.sum_congr rfl fun d _ => ?_
  have hd := contrEquiv1_symm_val dot_S64x768_S2304x768_S64x2304_1_1_0_0_n_n 768 rfl rfl d
  have el : dot_S64x768_S2304x768_S64x2304_1_1_0_0_n_n.lhsIdx (ix2 s c) ((contrEquiv1 dot_S64x768_S2304x768_S64x2304_1_1_0_0_n_n 768 rfl rfl).symm d) = ix2 s d :=
    funext fun ax => Fin.ext (by
      match ax with
      | ⟨0, _⟩ => exact proj_lhs0 _ _
      | ⟨1, _⟩ => exact (proj_lhs1 _ _).trans hd)
  have er : dot_S64x768_S2304x768_S64x2304_1_1_0_0_n_n.rhsIdx (ix2 s c) ((contrEquiv1 dot_S64x768_S2304x768_S64x2304_1_1_0_0_n_n 768 rfl rfl).symm d) = ix2 c d :=
    funext fun ax => Fin.ext (by
      match ax with
      | ⟨0, _⟩ => exact proj_rhs0 _ _
      | ⟨1, _⟩ => exact (proj_rhs1 _ _).trans hd)
  rw [el, er]

/-! ## The lane reductions, the keepdims column, the mask and the tile cast read at an index -/

/-- A row's maximum: the reduction over the columns, from the word 0xFF800000, is the specification's fold. -/
theorem rowMax_apply (src : FVec Ideal S64x64 .f32) (hφ : FKind.Formats .f32)
    (hacc : (0xFF800000#32 : BitVec 32) = FKind.maximumf.neutral .f32 hφ) (r : Fin 64) :
    multiReduction .maximumf [1] S64 src 0xFF800000#32 reduces_S64x64_S64 hφ hacc (ix1 r)
      = Cert.Spec.rowMax (fun j => src (ix2 r j)) := by
  refine (Ideal.multiReduction_maximumf_single src 0xFF800000#32 reduces_S64x64_S64 hφ hacc (ix1 r)).trans ?_
  unfold Cert.Spec.rowMax
  refine congrArg (fun g : Fin 64 → EReal => (Finset.univ : Finset (Fin 64)).fold max (Ideal.ofBits .f32 0xFF800000#32) g) ?_
  funext j
  exact congrArg src (funext fun ax => Fin.ext (by
    match ax with
    | ⟨0, _⟩ => rfl
    | ⟨1, _⟩ => rfl))

/-- A row's sum: the reduction over the columns, from zero, is the plain sum. -/
theorem rowSum_apply (src : FVec Ideal S64x64 .f32) (hφ : FKind.Formats .f32)
    (hacc : (0x00000000#32 : BitVec 32) = FKind.add.neutral .f32 hφ) (r : Fin 64) :
    multiReduction .add [1] S64 src 0x00000000#32 reduces_S64x64_S64 hφ hacc (ix1 r)
      = ∑ j : Fin 64, src (ix2 r j) := by
  refine (Ideal.multiReduction_add_single src 0x00000000#32 reduces_S64x64_S64 hφ hacc (ix1 r)).trans ?_
  refine Finset.sum_congr rfl fun j _ => ?_
  exact congrArg src (funext fun ax => Fin.ext (by
    match ax with
    | ⟨0, _⟩ => rfl
    | ⟨1, _⟩ => rfl))

/-- A per-row value kept as a column [64] → [64,1] and spread over the columns [64,1] → [64,64] reads, at (r, j),
    the row's value. -/
theorem col_apply {α : Type} (v : S64.Idx → α) (r j : Fin 64) :
    broadcastTo S64x64 (shapeCast S64x1 v shapeCasts_S64_S64x1) broadcasts_S64x1_S64x64 (ix2 r j) = v (ix1 r) := by
  refine (broadcastTo_apply _ broadcasts_S64x1_S64x64 (ix2 r j) (ix2 r (0 : Fin 1)) fun ax => ?_).trans ?_
  · match ax with
    | ⟨0, _⟩ => rfl
    | ⟨1, _⟩ => rfl
  · refine shapeCast_apply v shapeCasts_S64_S64x1 (ix2 r (0 : Fin 1)) (ix1 r) ?_
    rw [Shape.rowMajor_val_two, Shape.rowMajor_val_one]
    show r.val = r.val * 1 + 0
    omega

/-- The causal mask: the bit at (r, j) is set exactly when the column is past the row (the two iotas read their
    coordinates, both below 2^31, so the signed comparison of the words is the comparison of the numbers). -/
theorem mask_iff (r j : Fin 64) : k0_pay1 (ix2 r j) = 1#1 ↔ r.val < j.val := by
  unfold k0_pay1
  show IntOp.cmpi .sgt (iota .tc S64x64 32 [1] iota_S64x64_d1_w32 (ix2 r j))
      (iota .tc S64x64 32 [0] iota_S64x64_d0_w32 (ix2 r j)) = 1#1 ↔ _
  rw [iota_single_apply, iota_single_apply, IntOp.cmpi_sgt]
  show (BitVec.ofNat 32 r.val).toInt < (BitVec.ofNat 32 j.val).toInt ↔ _
  have hr : r.val < 64 := r.isLt
  have hj : j.val < 64 := j.isLt
  rw [toInt_ofNat_of_lt (by omega), toInt_ofNat_of_lt (by omega)]
  omega

/-- A 64×64 tile stored as a [1,1,64,64] block reads, at (u, v, r, j), the tile at (r, j). -/
theorem tile_apply {α : Type} (T : S64x64.Idx → α) (y : S1x1x64x64.Idx) :
    shapeCast S1x1x64x64 T shapeCasts_S64x64_S1x1x64x64 y = T (ix2 (y 2) (y 3)) := by
  refine shapeCast_apply T shapeCasts_S64x64_S1x1x64x64 y (ix2 (y 2) (y 3)) ?_
  rw [Shape.rowMajor_val_four, Shape.rowMajor_val_two]
  have h0 : (y 0).val = 0 := by have h : (y 0).val < 1 := (y 0).isLt; omega
  have h1 : (y 1).val = 0 := by have h : (y 1).val < 1 := (y 1).isLt; omega
  show (y 2).val * 64 + (y 3).val = (((y 0).val * 1 + (y 1).val) * 64 + (y 2).val) * 64 + (y 3).val
  rw [h0, h1]
  omega

end Cert.KernelIdeal.AttnValue
end
-- ==== Proof.AttnHeadDefs.lean ====
/-
  One head of the attention kernel as functions of the head's 192 projected features, at any float instance, in the
  kernel's own operations. The kernel repeats this chain for each of its 12 heads on the head's slice A (64 rows, 192
  features: query 0..63, key 64..127, value 128..191) of the projected row block; each head's stored values unfold to
  these functions of its slice.
-/
import proofs.«148574_j76940044140789_2_alg».proof.Proof.Gen.KernelIdeal.Skeleton

noncomputable section

namespace Cert.KernelIdeal.AttnValue

open Cert.KernelIdeal Cert.KernelIdeal.Gen Idealize.ShloMosaic

variable {F : FTy → Type} [FloatOps F]

/-- q·kᵀ of the head: rows of features 0..63 against rows of features 64..127, both rounded to bf16 on the way in. -/
def headRaw (A : FVec F S64x192 .f32) : FVec F S64x64 .f32 :=
  have vq : FVec F S64x64 .f32 := extractStridedSlice S64x64 ![0, 0] A slices_S64x192_o0_0_S64x64
  have vk : FVec F S64x64 .f32 := extractStridedSlice S64x64 ![0, 64] A slices_S64x192_o0_64_S64x64
  have vqb : FVec F S64x64 .bf16 := truncf .bf16 vq bitsLt_bf16_f32
  have vkb : FVec F S64x64 .bf16 := truncf .bf16 vk bitsLt_bf16_f32
  matmul dot_S64x64_S64x64_S64x64_1_1_0_0_n_n none vqb vkb (constant S64x64 .f32 0x00000000#32)

/-- The masked, scaled scores: where the mask bit is set the word 0xFF800000 (−∞), elsewhere (q·kᵀ) times the word
    0x3E000000 (0.125). -/
def headScore (v2 : IVec S64x64 1) (A : FVec F S64x192 .f32) : FVec F S64x64 .f32 :=
  select v2 (broadcast S64x64 (Scalar.ofBits .f32 0xFF800000#32 : F .f32))
    (mulf (headRaw A) (broadcast S64x64 (Scalar.ofBits .f32 0x3E000000#32 : F .f32)))

/-- Each row's maximum (folded from the word 0xFF800000), kept as a column and spread back over the row. -/
def rowMaxB (S : FVec F S64x64 .f32) : FVec F S64x64 .f32 :=
  have m : FVec F S64 .f32 := multiReduction .maximumf [1] S64 S 0xFF800000#32 reduces_S64x64_S64 (.inl rfl) rfl
  broadcastTo S64x64 (shapeCast S64x1 m shapeCasts_S64_S64x1) broadcasts_S64x1_S64x64

/-- exp (S − row maximum). -/
def rowExp (S : FVec F S64x64 .f32) : FVec F S64x64 .f32 := exp (subf S (rowMaxB S))

/-- Each row's sum (from zero), kept as a column and spread back over the row. -/
def rowSumB (P : FVec F S64x64 .f32) : FVec F S64x64 .f32 :=
  have l : FVec F S64 .f32 := multiReduction .add [1] S64 P 0x00000000#32 reduces_S64x64_S64 (.inl rfl) rfl
  broadcastTo S64x64 (shapeCast S64x1 l shapeCasts_S64_S64x1) broadcasts_S64x1_S64x64

/-- The context from the exponentials P and the value block V: (P / row sum)·V, both rounded to bf16 on the way in. -/
def ctxOf (P V : FVec F S64x64 .f32) : FVec F S64x64 .f32 :=
  have a : FVec F S64x64 .f32 := divf P (rowSumB P)
  have vb : FVec F S64x64 .bf16 := truncf .bf16 V bitsLt_bf16_f32
  have ab : FVec F S64x64 .bf16 := truncf .bf16 a bitsLt_bf16_f32
  matmul dot_S64x64_S64x64_S64x64_1_0_0_1_n_n none ab vb (constant S64x64 .f32 0x00000000#32)

/-- The head's value block: features 128..191. -/
def headV (A : FVec F S64x192 .f32) : FVec F S64x64 .f32 :=
  extractStridedSlice S64x64 ![0, 128] A slices_S64x192_o0_128_S64x64

/-- The head's context tile. -/
def headCtx (v2 : IVec S64x64 1) (A : FVec F S64x192 .f32) : FVec F S64x64 .f32 :=
  ctxOf (rowExp (headScore v2 A)) (headV A)

/-- Head 0's two stored tiles are these functions of its slice (the other heads' likewise, each cut differently). -/
theorem pay8_eq (v2 : IVec S64x64 1) (v5 : FVec F S2304x768 .bf16) (v8 : Vec F S1x64x768 .f32) :
    k0_pay8 v2 v5 v8 = shapeCast S1x1x64x64 (headScore v2 (k0_pay5 v5 v8)) shapeCasts_S64x64_S1x1x64x64 := rfl
theorem pay7_eq (v2 : IVec S64x64 1) (v5 : FVec F S2304x768 .bf16) (v8 : Vec F S1x64x768 .f32) :
    k0_pay7 v2 v5 v8 = shapeCast S1x1x64x64 (headCtx v2 (k0_pay5 v5 v8)) shapeCasts_S64x64_S1x1x64x64 := rfl

end Cert.KernelIdeal.AttnValue
end
-- ==== Proof.AttnHead.lean ====
/-
  One head's two tiles at the exact instance: the masked, scaled scores of the head are the specification's score, and
  the context tile is the specification's ctx, whenever the head's slice A holds the specification's projection qkv
  of the batch row. The softmax is never opened: the kernel's row maximum, exponentials, row sum and quotient are the
  specification's rowMax, expo, rowSum and attn of the same row, step by step.
-/
import proofs.«148574_j76940044140789_2_alg».proof.Proof.Gen.KernelIdeal.Skeleton
import proofs.«148574_j76940044140789_2_alg».proof.Proof.Spec
import proofs.«148574_j76940044140789_2_alg».proof.Proof.AttnOps
import proofs.«148574_j76940044140789_2_alg».proof.Proof.AttnHeadDefs
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.AttnValue

open Cert.KernelIdeal Cert.KernelIdeal.Gen Idealize.ShloMosaic Idealize.ShloMosaic.ValueIdx

/-! ## The softmax steps of a tile, row by row -/

/-- The row maximum spread over the row reads, anywhere in row r, the specification's rowMax of that row. -/
theorem rowMaxB_apply (S : FVec Ideal S64x64 .f32) (r j : Fin 64) :
    rowMaxB S (ix2 r j) = Cert.Spec.rowMax (fun j => S (ix2 r j)) :=
  (col_apply _ r j).trans (rowMax_apply S (.inl rfl) rfl r)

/-- exp (S − row maximum) at (r, j) is the specification's expo of row r at j. -/
theorem rowExp_apply (S : FVec Ideal S64x64 .f32) (r j : Fin 64) :
    rowExp S (ix2 r j) = Cert.Spec.expo (fun j => S (ix2 r j)) j := by
  show Ideal.exp (S (ix2 r j) - rowMaxB S (ix2 r j)) = _
  rw [rowMaxB_apply]
  rfl

/-- The row sum spread over the row reads, anywhere in row r, the plain sum of that row. -/
theorem rowSumB_apply (P : FVec Ideal S64x64 .f32) (r j : Fin 64) :
    rowSumB P (ix2 r j) = ∑ j' : Fin 64, P (ix2 r j') :=
  (col_apply _ r j).trans (rowSum_apply P (.inl rfl) rfl r)

/-- The context from exponentials P and values V at (r, d): Σ_j (P[r,j] / Σ_j' P[r,j']) · V[j,d]. -/
theorem ctxOf_apply (P V : FVec Ideal S64x64 .f32) (r d : Fin 64) :
    ctxOf P V (ix2 r d) = ∑ j : Fin 64, Ideal.div (P (ix2 r j)) (∑ j' : Fin 64, P (ix2 r j')) * V (ix2 j d) := by
  refine (dotNN_apply _ _ r d).trans (Finset.sum_congr rfl fun j _ => ?_)
  show Ideal.div (P (ix2 r j)) (rowSumB P (ix2 r j)) * V (ix2 j d) = _
  rw [rowSumB_apply]

/-! ## The head's scores and context against the specification -/

/-- q·kᵀ at (r, j) over a slice whose element (s, f) is a s f: Σ_d a r d · a j (64 + d). -/
theorem headRaw_apply (A : FVec Ideal S64x192 .f32) (a : Fin 64 → Fin 192 → EReal)
    (hA : ∀ (s : Fin 64) (f : Fin 192), A (ix2 s f) = a s f) (r j : Fin 64) :
    headRaw A (ix2 r j) = ∑ d : Fin 64, a r ⟨d.val, by omega⟩ * a j ⟨64 + d.val, by omega⟩ := by
  refine (dotNT_apply _ _ r j).trans (Finset.sum_congr rfl fun d _ => ?_)
  exact congrArg₂ (· * ·)
    ((slice2_axis1_apply 0 A slices_S64x192_o0_0_S64x64 r d ⟨d.val, by omega⟩ (Nat.zero_add _).symm).trans (hA _ _))
    ((slice2_axis1_apply 64 A slices_S64x192_o0_64_S64x64 j d ⟨64 + d.val, by omega⟩ rfl).trans (hA _ _))

/-- The head's masked, scaled score is the specification's, when the slice holds the specification's projection. -/
theorem headScore_eq_score (x : Cert.Spec.SX.Idx → EReal) (w : Cert.Spec.SWproj.Idx → EReal) (b : Fin 64) (n : Fin 12)
    (A : FVec Ideal S64x192 .f32) (hA : ∀ (s : Fin 64) (f : Fin 192), A (ix2 s f) = Cert.Spec.qkv x w b n s f)
    (r j : Fin 64) : headScore k0_pay1 A (ix2 r j) = Cert.Spec.score x w b n r j := by
  show Scalar.select (k0_pay1 (ix2 r j)) (Ideal.ofBits .f32 0xFF800000#32)
      (headRaw A (ix2 r j) * Ideal.ofBits .f32 0x3E000000#32) = _
  rw [headRaw_apply A (Cert.Spec.qkv x w b n) hA r j]
  unfold Cert.Spec.score
  by_cases h : r.val < j.val
  · rw [if_pos h]
    exact if_pos ((mask_iff r j).mpr h)
  · rw [if_neg h]
    exact if_neg (fun e => h ((mask_iff r j).mp e))

/-- The head's context tile is the specification's ctx, when the slice holds the specification's projection. -/
theorem headCtx_eq_ctx (x : Cert.Spec.SX.Idx → EReal) (w : Cert.Spec.SWproj.Idx → EReal) (b : Fin 64) (n : Fin 12)
    (A : FVec Ideal S64x192 .f32) (hA : ∀ (s : Fin 64) (f : Fin 192), A (ix2 s f) = Cert.Spec.qkv x w b n s f)
    (r d : Fin 64) : headCtx k0_pay1 A (ix2 r d) = Cert.Spec.ctx x w b n r d := by
  have hrow : (fun j => headScore k0_pay1 A (ix2 r j)) = Cert.Spec.score x w b n r :=
    funext fun j => headScore_eq_score x w b n A hA r j
  have hE : ∀ j' : Fin 64, rowExp (headScore k0_pay1 A) (ix2 r j') = Cert.Spec.expo (Cert.Spec.score x w b n r) j' :=
    fun j' => by rw [rowExp_apply, hrow]
  refine (ctxOf_apply _ _ r d).trans ?_
  unfold Cert.Spec.ctx
  refine Finset.sum_congr rfl fun j _ => ?_
  have hV : headV A (ix2 j d) = Cert.Spec.v x w b n j d :=
    (slice2_axis1_apply 128 A slices_S64x192_o0_128_S64x64 j d ⟨128 + d.val, by omega⟩ rfl).trans (hA _ _)
  rw [hV, hE j, Finset.sum_congr rfl (fun j' _ => hE j')]
  rfl

end Cert.KernelIdeal.AttnValue
end
-- ==== Proof.AttnGeom.lean ====
/-
  The geometry of the attention kernel's loop over the 8 batch rows of a block, as index equations.

  Trip k of the loop reads batch row k of the staged input block [8,64,768] (a unit rectangle [1,64,768] at offset
  (k, 0, 0)) and reads and writes, for each head n = 0..11, the tile [1,1,64,64] of the two staged output blocks
  [8,12,64,64] at offset (k, n, 0, 0). The offsets are computed by the kernel on 32-bit words from the loop counter; for
  the loop's 8 trips they are the closed forms below (the generated facts, restated with the trip bound as an argument).
  A unit rectangle's entry y sits at offset + y on each axis, so entry (0, s, d) of the input rectangle is (k, s, d) of
  the block, and entry y of a tile at offset (k, n, 0, 0) is (k, n, y₂, y₃) of the output block (y₀ = y₁ = 0).
-/
import proofs.«148574_j76940044140789_2_alg».proof.Proof.Gen.KernelIdeal.Loops
import Idealize.ShloMosaic.Lib.ValueIdx
import Idealize.ShloMosaic.Lib.Pipeline.Value
import Idealize.ShloMosaic.Lib.Pipeline.FrameBody

noncomputable section

namespace Cert.KernelIdeal.AttnValue

open Cert.KernelIdeal Cert.KernelIdeal.Gen Idealize.ShloMosaic Idealize.ShloMosaic.ValueIdx

/-! ## The offsets in closed form -/

/-- The input row's offset at trip k is (k, 0, 0). -/
theorem off1_eq (k : Fin k0_t1_loop.trips) (hk : k.val < 8) : k0_off1 k = ![k.val, 0, 0] := k0_off1_eq k

/-! Head n's tile offset at trip k is (k, n, 0, 0); the kernel names the twelve offsets 2..13. -/
theorem off2_eq (k : Fin k0_t1_loop.trips) (hk : k.val < 8) : k0_off2 k = ![k.val, 0, 0, 0] := k0_off2_eq k
theorem off3_eq (k : Fin k0_t1_loop.trips) (hk : k.val < 8) : k0_off3 k = ![k.val, 1, 0, 0] := k0_off3_eq k
theorem off4_eq (k : Fin k0_t1_loop.trips) (hk : k.val < 8) : k0_off4 k = ![k.val, 2, 0, 0] := k0_off4_eq k
theorem off5_eq (k : Fin k0_t1_loop.trips) (hk : k.val < 8) : k0_off5 k = ![k.val, 3, 0, 0] := k0_off5_eq k
theorem off6_eq (k : Fin k0_t1_loop.trips) (hk : k.val < 8) : k0_off6 k = ![k.val, 4, 0, 0] := k0_off6_eq k
theorem off7_eq (k : Fin k0_t1_loop.trips) (hk : k.val < 8) : k0_off7 k = ![k.val, 5, 0, 0] := k0_off7_eq k
theorem off8_eq (k : Fin k0_t1_loop.trips) (hk : k.val < 8) : k0_off8 k = ![k.val, 6, 0, 0] := k0_off8_eq k
theorem off9_eq (k : Fin k0_t1_loop.trips) (hk : k.val < 8) : k0_off9 k = ![k.val, 7, 0, 0] := k0_off9_eq k
theorem off10_eq (k : Fin k0_t1_loop.trips) (hk : k.val < 8) : k0_off10 k = ![k.val, 8, 0, 0] := k0_off10_eq k
theorem off11_eq (k : Fin k0_t1_loop.trips) (hk : k.val < 8) : k0_off11 k = ![k.val, 9, 0, 0] := k0_off11_eq k
theorem off12_eq (k : Fin k0_t1_loop.trips) (hk : k.val < 8) : k0_off12 k = ![k.val, 10, 0, 0] := k0_off12_eq k
theorem off13_eq (k : Fin k0_t1_loop.trips) (hk : k.val < 8) : k0_off13 k = ![k.val, 11, 0, 0] := k0_off13_eq k

/-! ## Reading through the rectangles -/

/-- Entry (0, s, d) of the input rectangle of trip k is entry (k, s, d) of the staged block. -/
theorem row_read (arg1 : Memref sig .tc .vmem S8x64x768 .f32) (X : BufTy.Contents (Elt Ideal) arg1.view.ty)
    (k : Fin k0_t1_loop.trips) (hk : k.val < 8) (inb : ∀ a, k0_off1 k a + S1x64x768.size a ≤ S8x64x768.size a)
    (s : Fin 64) (d : Fin 768) :
    View.readAt (Elt Ideal) arg1.view (Rect.unit (s := S8x64x768) (k0_off1 k) S1x64x768.size inb).toLoadRect X
        (ix3 (0 : Fin 1) s d)
      = arg1.view.read (Elt Ideal) X (ix3 (⟨k.val, hk⟩ : Fin 8) s d) := by
  rw [View.readAt_apply]
  refine congrArg (arg1.view.read (Elt Ideal) X) (funext fun a => Fin.ext ?_)
  have e := k0_off1_eq k
  match a with
  | ⟨0, _⟩ =>
    show k0_off1 k 0 + 1 * (0 : Fin 1).val = k.val
    rw [congrFun e 0]; show k.val + 1 * 0 = k.val; omega
  | ⟨1, _⟩ =>
    show k0_off1 k 1 + 1 * s.val = s.val
    rw [congrFun e 1]; show 0 + 1 * s.val = s.val; omega
  | ⟨2, _⟩ =>
    show k0_off1 k 2 + 1 * d.val = d.val
    rw [congrFun e 2]; show 0 + 1 * d.val = d.val; omega

/-- Entry y of the [1,1,64,64] tile at offset (kk, n, 0, 0) of an [8,12,64,64] block is entry (kk, n, y₂, y₃). -/
theorem tile_emb (off : Fin 4 → ℕ) (kk : Fin 8) (n : Fin 12) (hoff : off = ![kk.val, n.val, 0, 0])
    (inb : ∀ a, off a + S1x1x64x64.size a ≤ S8x12x64x64.size a) (y : S1x1x64x64.Idx) :
    (Rect.unit (s := S8x12x64x64) off S1x1x64x64.size inb).emb y = ix4 kk n (y 2 : Fin 64) (y 3 : Fin 64) := by
  subst hoff
  have h0 : (y 0).val < 1 := (y 0).isLt
  have h1 : (y 1).val < 1 := (y 1).isLt
  refine funext fun a => Fin.ext ?_
  match a with
  | ⟨0, _⟩ => show kk.val + 1 * (y 0).val = kk.val; omega
  | ⟨1, _⟩ => show n.val + 1 * (y 1).val = n.val; omega
  | ⟨2, _⟩ => show 0 + 1 * (y 2).val = (y 2).val; omega
  | ⟨3, _⟩ => show 0 + 1 * (y 3).val = (y 3).val; omega

end Cert.KernelIdeal.AttnValue

end
-- ==== Proof.AttnValue.lean ====
/-
  The tiles one trip of the attention kernel's loop writes, at the exact instance. Trip k loads batch row k of the staged
  input block and projects it against the whole flat weight matrix: element (s, 192·n + f) of the projected block is the
  specification's qkv of head n, so head n's slice (columns 192·n … 192·n + 191) holds the specification's projection of
  that head. Each of the 12 + 12 stored tiles is, by unfolding, the generic head's context / score of that slice viewed
  as a [1,1,64,64] block, and it lands at offset (k, n, 0, 0): so each tile reads the specification's ctx / score of the
  trip's batch row at the array index under it.
-/
import proofs.«148574_j76940044140789_2_alg».proof.Proof.Gen.KernelIdeal.Skeleton
import proofs.«148574_j76940044140789_2_alg».proof.Proof.Gen.KernelIdeal.Loops
import proofs.«148574_j76940044140789_2_alg».proof.Proof.Spec
import proofs.«148574_j76940044140789_2_alg».proof.Proof.AttnOps
import proofs.«148574_j76940044140789_2_alg».proof.Proof.AttnHeadDefs
import proofs.«148574_j76940044140789_2_alg».proof.Proof.AttnHead
import proofs.«148574_j76940044140789_2_alg».proof.Proof.AttnGeom
import Idealize.ShloMosaic.Lib.Pipeline.Value
import Idealize.ShloMosaic.Lib.ValueIdx
import Idealize.ShloMosaic.Lib.ValueLayout

noncomputable section

open scoped BigOperators

namespace Cert.KernelIdeal.AttnValue

open Cert.KernelIdeal Cert.KernelIdeal.Gen Idealize.ShloMosaic Idealize.ShloMosaic.ValueIdx

/-! ## The projected row block and a head's slice of it -/

/-- Element (s, c) of the projected row block, for c = 192·n + f, is the specification's qkv[b,n,s,f]: the loaded row is
    row k of the block (the trip's batch row b), the flat weight row c is row f of head n, and the format changes and
    same-shape casts on the way into the contraction are the identity. -/
theorem proj_eq_qkv (arg1 : Memref sig .tc .vmem S8x64x768 .f32) (v3 : Vec Ideal S2304x768 .f32)
    (X : BufTy.Contents (Elt Ideal) arg1.view.ty) (k : Fin k0_t1_loop.trips) (hk : k.val < 8)
    (inb1 : ∀ a, k0_off1 k a + S1x64x768.size a ≤ S8x64x768.size a)
    (x : Cert.Spec.SX.Idx → EReal) (w : Cert.Spec.SWproj.Idx → EReal) (b : Fin 64)
    (hx : ∀ (s : Fin 64) (d : Fin 768), arg1.view.read (Elt Ideal) X (ix3 (⟨k.val, hk⟩ : Fin 8) s d) = x (ix3 b s d))
    (hw : ∀ (n : Fin 12) (f : Fin 192) (d : Fin 768), v3 (ix2 (⟨192 * n.val + f.val, by omega⟩ : Fin 2304) d) = w (ix3 n f d))
    (n : Fin 12) (s : Fin 64) (f : Fin 192) (c : Fin 2304) (hc : c.val = 192 * n.val + f.val) :
    (k0_pay4 (k0_pay2 v3) (View.readAt (Elt Ideal) arg1.view (Rect.unit (s := S8x64x768) (k0_off1 k) S1x64x768.size inb1).toLoadRect X)) (ix2 s c) = Cert.Spec.qkv x w b n s f := by
  unfold k0_pay4
  refine (dotProj_apply _ _ s c).trans ?_
  unfold Cert.Spec.qkv
  refine Finset.sum_congr rfl fun d _ => ?_
  refine congrArg₂ (· * ·) ?_ ?_
  · exact ((shapeCast_1ab_ab_apply _ shapeCasts_S1x64x768_S64x768 s d).trans (row_read arg1 X k hk inb1 s d)).trans (hx s d)
  · show shapeCast S2304x768 v3 shapeCasts_S2304x768_S2304x768 (ix2 c d) = _
    rw [shapeCast_self]
    have e : c = ⟨192 * n.val + f.val, by omega⟩ := Fin.ext hc
    rw [e]
    exact hw n f d

/-- So head n's slice of the projected row block holds the specification's projection of head n. -/
theorem slice_eq_qkv (arg1 : Memref sig .tc .vmem S8x64x768 .f32) (v3 : Vec Ideal S2304x768 .f32)
    (X : BufTy.Contents (Elt Ideal) arg1.view.ty) (k : Fin k0_t1_loop.trips) (hk : k.val < 8)
    (inb1 : ∀ a, k0_off1 k a + S1x64x768.size a ≤ S8x64x768.size a)
    (x : Cert.Spec.SX.Idx → EReal) (w : Cert.Spec.SWproj.Idx → EReal) (b : Fin 64)
    (hx : ∀ (s : Fin 64) (d : Fin 768), arg1.view.read (Elt Ideal) X (ix3 (⟨k.val, hk⟩ : Fin 8) s d) = x (ix3 b s d))
    (hw : ∀ (n : Fin 12) (f : Fin 192) (d : Fin 768), v3 (ix2 (⟨192 * n.val + f.val, by omega⟩ : Fin 2304) d) = w (ix3 n f d))
    (n : Fin 12) (o : ℕ) (ho : o = 192 * n.val) (hs : S64x2304.Slices ![0, o] S64x192) (s : Fin 64) (f : Fin 192) :
    extractStridedSlice S64x192 ![0, o] (k0_pay4 (k0_pay2 v3) (View.readAt (Elt Ideal) arg1.view (Rect.unit (s := S8x64x768) (k0_off1 k) S1x64x768.size inb1).toLoadRect X)) hs (ix2 s f) = Cert.Spec.qkv x w b n s f :=
  (slice2_axis1_apply o _ hs s f ⟨o + f.val, by omega⟩ rfl).trans
    (proj_eq_qkv arg1 v3 X k hk inb1 x w b hx hw n s f _ (by show o + f.val = 192 * n.val + f.val; omega))

/-! ## One stored tile against the array under it -/

/-- Head n's context tile, stored at offset (k, n, 0, 0), reads the function G of the output block's index whenever G
    is the specification's ctx of the trip's batch row on row k of the block. -/
theorem ctx_piece (arg1 : Memref sig .tc .vmem S8x64x768 .f32) (v3 : Vec Ideal S2304x768 .f32)
    (X : BufTy.Contents (Elt Ideal) arg1.view.ty) (k : Fin k0_t1_loop.trips) (hk : k.val < 8)
    (inb1 : ∀ a, k0_off1 k a + S1x64x768.size a ≤ S8x64x768.size a)
    (x : Cert.Spec.SX.Idx → EReal) (w : Cert.Spec.SWproj.Idx → EReal) (b : Fin 64)
    (hx : ∀ (s : Fin 64) (d : Fin 768), arg1.view.read (Elt Ideal) X (ix3 (⟨k.val, hk⟩ : Fin 8) s d) = x (ix3 b s d))
    (hw : ∀ (n : Fin 12) (f : Fin 192) (d : Fin 768), v3 (ix2 (⟨192 * n.val + f.val, by omega⟩ : Fin 2304) d) = w (ix3 n f d))
    (G : S8x12x64x64.Idx → EReal)
    (hG : ∀ (n : Fin 12) (r j : Fin 64), G (ix4 (⟨k.val, hk⟩ : Fin 8) n r j) = Cert.Spec.ctx x w b n r j)
    (n : Fin 12) (o : ℕ) (ho : o = 192 * n.val) (hs : S64x2304.Slices ![0, o] S64x192)
    (off : Fin 4 → ℕ) (hoff : off = ![k.val, n.val, 0, 0]) (inb : ∀ a, off a + S1x1x64x64.size a ≤ S8x12x64x64.size a)
    (y : S1x1x64x64.Idx) :
    shapeCast S1x1x64x64 (headCtx k0_pay1 (extractStridedSlice S64x192 ![0, o] (k0_pay4 (k0_pay2 v3) (View.readAt (Elt Ideal) arg1.view (Rect.unit (s := S8x64x768) (k0_off1 k) S1x64x768.size inb1).toLoadRect X)) hs)) shapeCasts_S64x64_S1x1x64x64 y
      = G ((Rect.unit (s := S8x12x64x64) off S1x1x64x64.size inb).emb y) := by
  refine (tile_apply _ y).trans ?_
  rw [tile_emb off ⟨k.val, hk⟩ n hoff inb y]
  refine Eq.trans ?_ (hG n (y 2) (y 3)).symm
  exact headCtx_eq_ctx x w b n _ (fun s f => slice_eq_qkv arg1 v3 X k hk inb1 x w b hx hw n o ho hs s f) (y 2) (y 3)

/-- Head n's score tile likewise, against the specification's masked score. -/
theorem score_piece (arg1 : Memref sig .tc .vmem S8x64x768 .f32) (v3 : Vec Ideal S2304x768 .f32)
    (X : BufTy.Contents (Elt Ideal) arg1.view.ty) (k : Fin k0_t1_loop.trips) (hk : k.val < 8)
    (inb1 : ∀ a, k0_off1 k a + S1x64x768.size a ≤ S8x64x768.size a)
    (x : Cert.Spec.SX.Idx → EReal) (w : Cert.Spec.SWproj.Idx → EReal) (b : Fin 64)
    (hx : ∀ (s : Fin 64) (d : Fin 768), arg1.view.read (Elt Ideal) X (ix3 (⟨k.val, hk⟩ : Fin 8) s d) = x (ix3 b s d))
    (hw : ∀ (n : Fin 12) (f : Fin 192) (d : Fin 768), v3 (ix2 (⟨192 * n.val + f.val, by omega⟩ : Fin 2304) d) = w (ix3 n f d))
    (G : S8x12x64x64.Idx → EReal)
    (hG : ∀ (n : Fin 12) (r j : Fin 64), G (ix4 (⟨k.val, hk⟩ : Fin 8) n r j) = Cert.Spec.score x w b n r j)
    (n : Fin 12) (o : ℕ) (ho : o = 192 * n.val) (hs : S64x2304.Slices ![0, o] S64x192)
    (off : Fin 4 → ℕ) (hoff : off = ![k.val, n.val, 0, 0]) (inb : ∀ a, off a + S1x1x64x64.size a ≤ S8x12x64x64.size a)
    (y : S1x1x64x64.Idx) :
    shapeCast S1x1x64x64 (headScore k0_pay1 (extractStridedSlice S64x192 ![0, o] (k0_pay4 (k0_pay2 v3) (View.readAt (Elt Ideal) arg1.view (Rect.unit (s := S8x64x768) (k0_off1 k) S1x64x768.size inb1).toLoadRect X)) hs)) shapeCasts_S64x64_S1x1x64x64 y
      = G ((Rect.unit (s := S8x12x64x64) off S1x1x64x64.size inb).emb y) := by
  refine (tile_apply _ y).trans ?_
  rw [tile_emb off ⟨k.val, hk⟩ n hoff inb y]
  refine Eq.trans ?_ (hG n (y 2) (y 3)).symm
  exact headScore_eq_score x w b n _ (fun s f => slice_eq_qkv arg1 v3 X k hk inb1 x w b hx hw n o ho hs s f) (y 2) (y 3)

/-! ## The trip's twelve context tiles and twelve score tiles

The trip's piece lists are opened once, here. Head n's tile is stored at the kernel's offset number n + 2, and its
payload unfolds (the body was cut into parts at statement boundaries, differently for each head) to the generic head's
tile of the slice at column 192·n. The lists hold the last head first. -/

/-- Every context tile trip k writes reads, at each entry, the function G of the block index under it, whenever G is
    the specification's ctx of the trip's batch row on row k of the block. -/
theorem trip_ctx_pieces (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec Ideal S2304x768 .f32) (X : BufTy.Contents (Elt Ideal) arg1.view.ty) (k : Fin k0_t1_loop.trips) (hk : k.val < 8)
    (f3 : BufTy.Contents (Elt Ideal) arg3.view.ty) (f4 : BufTy.Contents (Elt Ideal) arg4.view.ty)
    (x : Cert.Spec.SX.Idx → EReal) (w : Cert.Spec.SWproj.Idx → EReal) (b : Fin 64)
    (hx : ∀ (s : Fin 64) (d : Fin 768), arg1.view.read (Elt Ideal) X (ix3 (⟨k.val, hk⟩ : Fin 8) s d) = x (ix3 b s d))
    (hw : ∀ (n : Fin 12) (f : Fin 192) (d : Fin 768), v3 (ix2 (⟨192 * n.val + f.val, by omega⟩ : Fin 2304) d) = w (ix3 n f d))
    (G : S8x12x64x64.Idx → EReal) (hG : ∀ (n : Fin 12) (r j : Fin 64), G (ix4 (⟨k.val, hk⟩ : Fin 8) n r j) = Cert.Spec.ctx x w b n r j) :
    ∀ p ∈ (tripL_k0_t1 (F := Ideal) 𝒱 c bd i arg1 harg1 arg2 harg2 arg3 harg3 arg4 harg4 v3 X k f3 f4).1, ∀ y, p.2 y = G (p.1.emb y) := by
  unfold tripL_k0_t1 trip_k0_t1
  dsimp only
  intro p hp y
  simp only [List.mem_cons, List.mem_nil_iff, or_false] at hp
  rcases hp with rfl | rfl | rfl | rfl | rfl | rfl | rfl | rfl | rfl | rfl | rfl | rfl
  · exact ctx_piece arg1 v3 X k hk (k0_off1_inb k) x w b hx hw G hG ⟨11, by omega⟩ 2112 rfl slices_S64x2304_o0_2112_S64x192 (k0_off13 k) (off13_eq k hk) (k0_off13_inb k) y
  · exact ctx_piece arg1 v3 X k hk (k0_off1_inb k) x w b hx hw G hG ⟨10, by omega⟩ 1920 rfl slices_S64x2304_o0_1920_S64x192 (k0_off12 k) (off12_eq k hk) (k0_off12_inb k) y
  · exact ctx_piece arg1 v3 X k hk (k0_off1_inb k) x w b hx hw G hG ⟨9, by omega⟩ 1728 rfl slices_S64x2304_o0_1728_S64x192 (k0_off11 k) (off11_eq k hk) (k0_off11_inb k) y
  · exact ctx_piece arg1 v3 X k hk (k0_off1_inb k) x w b hx hw G hG ⟨8, by omega⟩ 1536 rfl slices_S64x2304_o0_1536_S64x192 (k0_off10 k) (off10_eq k hk) (k0_off10_inb k) y
  · exact ctx_piece arg1 v3 X k hk (k0_off1_inb k) x w b hx hw G hG ⟨7, by omega⟩ 1344 rfl slices_S64x2304_o0_1344_S64x192 (k0_off9 k) (off9_eq k hk) (k0_off9_inb k) y
  · exact ctx_piece arg1 v3 X k hk (k0_off1_inb k) x w b hx hw G hG ⟨6, by omega⟩ 1152 rfl slices_S64x2304_o0_1152_S64x192 (k0_off8 k) (off8_eq k hk) (k0_off8_inb k) y
  · exact ctx_piece arg1 v3 X k hk (k0_off1_inb k) x w b hx hw G hG ⟨5, by omega⟩ 960 rfl slices_S64x2304_o0_960_S64x192 (k0_off7 k) (off7_eq k hk) (k0_off7_inb k) y
  · exact ctx_piece arg1 v3 X k hk (k0_off1_inb k) x w b hx hw G hG ⟨4, by omega⟩ 768 rfl slices_S64x2304_o0_768_S64x192 (k0_off6 k) (off6_eq k hk) (k0_off6_inb k) y
  · exact ctx_piece arg1 v3 X k hk (k0_off1_inb k) x w b hx hw G hG ⟨3, by omega⟩ 576 rfl slices_S64x2304_o0_576_S64x192 (k0_off5 k) (off5_eq k hk) (k0_off5_inb k) y
  · exact ctx_piece arg1 v3 X k hk (k0_off1_inb k) x w b hx hw G hG ⟨2, by omega⟩ 384 rfl slices_S64x2304_o0_384_S64x192 (k0_off4 k) (off4_eq k hk) (k0_off4_inb k) y
  · exact ctx_piece arg1 v3 X k hk (k0_off1_inb k) x w b hx hw G hG ⟨1, by omega⟩ 192 rfl slices_S64x2304_o0_192_S64x192 (k0_off3 k) (off3_eq k hk) (k0_off3_inb k) y
  · exact ctx_piece arg1 v3 X k hk (k0_off1_inb k) x w b hx hw G hG ⟨0, by omega⟩ 0 rfl slices_S64x2304_o0_0_S64x192 (k0_off2 k) (off2_eq k hk) (k0_off2_inb k) y

/-- Every score tile trip k writes likewise reads the specification's masked score of the trip's batch row. -/
theorem trip_score_pieces (𝒱 : Variants) (c : Dev nD) (bd : Option 𝒱.V) (i : grid0.Coords) (arg1 : Memref sig .tc .vmem S8x64x768 .f32) (harg1 : arg1.IsWhole) (arg2 : Memref sig .tc .vmem S2304x768 .f32) (harg2 : arg2.IsWhole) (arg3 : Memref sig .tc .vmem S8x12x64x64 .f32) (harg3 : arg3.IsWhole) (arg4 : Memref sig .tc .vmem S8x12x64x64 .f32) (harg4 : arg4.IsWhole) (v3 : Vec Ideal S2304x768 .f32) (X : BufTy.Contents (Elt Ideal) arg1.view.ty) (k : Fin k0_t1_loop.trips) (hk : k.val < 8)
    (f3 : BufTy.Contents (Elt Ideal) arg3.view.ty) (f4 : BufTy.Contents (Elt Ideal) arg4.view.ty)
    (x : Cert.Spec.SX.Idx → EReal) (w : Cert.Spec.SWproj.Idx → EReal) (b : Fin 64)
    (hx : ∀ (s : Fin 64) (d : Fin 768), arg1.view.read (Elt Ideal) X (ix3 (⟨k.val, hk⟩ : Fin 8) s d) = x (ix3 b s d))
    (hw : ∀ (n : Fin 12) (f : Fin 192) (d : Fin 768), v3 (ix2 (⟨192 * n.val + f.val, by omega⟩ : Fin 2304) d) = w (ix3 n f d))
    (G : S8x12x64x64.Idx → EReal) (hG : ∀ (n : Fin 12) (r j : Fin 64), G (ix4 (⟨k.val, hk⟩ : Fin 8) n r j) = Cert.Spec.score x w b n r j) :
    ∀ p ∈ (tripL_k0_t1 (F := Ideal) 𝒱 c bd i arg1 harg1 arg2 harg2 arg3 harg3 arg4 harg4 v3 X k f3 f4).2, ∀ y, p.2 y = G (p.1.emb y) := by
  unfold tripL_k0_t1 trip_k0_t1
  dsimp only
  intro p hp y
  simp only [List.mem_cons, List.mem_nil_iff, or_false] at hp
  rcases hp with rfl | rfl | rfl | rfl | rfl | rfl | rfl | rfl | rfl | rfl | rfl | rfl
  · exact score_piece arg1 v3 X k hk (k0_off1_inb k) x w b hx hw G hG ⟨11, by omega⟩ 2112 rfl slices_S64x2304_o0_2112_S64x192 (k0_off13 k) (off13_eq k hk) (k0_off13_inb k) y
  · exact score_piece arg1 v3 X k hk (k0_off1_inb k) x w b hx hw G hG ⟨10, by omega⟩ 1920 rfl slices_S64x2304_o0_1920_S64x192 (k0_off12 k) (off12_eq k hk) (k0_off12_inb k) y
  · exact score_piece arg1 v3 X k hk (k0_off1_inb k) x w b hx hw G hG ⟨9, by omega⟩ 1728 rfl slices_S64x2304_o0_1728_S64x192 (k0_off11 k) (off11_eq k hk) (k0_off11_inb k) y
  · exact score_piece arg1 v3 X k hk (k0_off1_inb k) x w b hx hw G hG ⟨8, by omega⟩ 1536 rfl slices_S64x2304_o0_1536_S64x192 (k0_off10 k) (off10_eq k hk) (k0_off10_inb k) y
  · exact score_piece arg1 v3 X k hk (k0_off1_inb k) x w b hx hw G hG ⟨7, by omega⟩ 1344 rfl slices_S64x2304_o0_1344_S64x192 (k0_off9 k) (off9_eq k hk) (k0_off9_inb k) y
  · exact score_piece arg1 v3 X k hk (k0_off1_inb k) x w b hx hw G hG ⟨6, by omega⟩ 1152 rfl slices_S64x2304_o0_1152_S64x192 (k0_off8 k) (off8_eq k hk) (k0_off8_inb k) y
  · exact score_piece arg1 v3 X k hk (k0_off1_inb k) x w b hx hw G hG ⟨5, by omega⟩ 960 rfl slices_S64x2304_o0_960_S64x192 (k0_off7 k) (off7_eq k hk) (k0_off7_inb k) y
  · exact score_piece arg1 v3 X k hk (k0_off1_inb k) x w b hx hw G hG ⟨4, by omega⟩ 768 rfl slices_S64x2304_o0_768_S64x192 (k0_off6 k) (off6_eq k hk) (k0_off6_inb k) y
  · exact score_piece arg1 v3 X k hk (k0_off1_inb k) x w b hx hw G hG ⟨3, by omega⟩ 576 rfl slices_S64x2304_o0_576_S64x192 (k0_off5 k) (off5_eq k hk) (k0_off5_inb k) y
  · exact score_piece arg1 v3 X k hk (k0_off1_inb k) x w b hx hw G hG ⟨2, by omega⟩ 384 rfl slices_S64x2304_o0_384_S64x192 (k0_off4 k) (off4_eq k hk) (k0_off4_inb k) y
  · exact score_piece arg1 v3 X k hk (k0_off1_inb k) x w b hx hw G hG ⟨1, by omega⟩ 192 rfl slices_S64x2304_o0_192_S64x192 (k0_off3 k) (off3_eq k hk) (k0_off3_inb k) y
  · exact score_piece arg1 v3 X k hk (k0_off1_inb k) x w b hx hw G hG ⟨0, by omega⟩ 0 rfl slices_S64x2304_o0_0_S64x192 (k0_off2 k) (off2_eq k hk) (k0_off2_inb k) y

end Cert.KernelIdeal.AttnValue
end
-- ==== Proof.LinValueCases.lean ====
/- The linear kernel's three cases, what each leaves behind as a term of the point's input blocks and of what
   the accumulator held: every load and store of the body is of a whole buffer, so a load reads the buffer's
   contents and a store leaves its payload. With acc the accumulator's contents on entry, x0 x1 x2 the three input blocks:
     case A (first point of a run):  accumulator  <-  pay2 x0 x1 (the zero fill)
     case B (a middle point):        accumulator  <-  pay2 x0 x1 acc
     case C (last point of a run):   accumulator  <-  pay2 x0 x1 acc,   output block  <-  pay3 (pay2 x0 x1 acc) x2
   where pay2 adds the product of the two blocks to its third argument and pay3 adds the bias row. -/
import proofs.«148574_j76940044140789_2_alg».proof.Proof.KI.Lin
import Idealize.ShloMosaic.Lib.Pipeline.Value

set_option maxRecDepth 16384

noncomputable section

namespace Cert.KernelIdeal.LinValue

open Cert.KernelIdeal Cert.KernelIdeal.Gen Cert.KernelIdeal.Lin
open Idealize.ShloMosaic Idealize.ShloMosaic.TcCoe Idealize.ShloMosaic.Tactic Idealize.SL.Sem
open Idealize.ShloMosaic.Pipeline (Dat)

variable {F : FTy → Type} [FloatOps F]

/-- The offsets of every load and store of the body: the origin. -/
theorem hz2 : (![0, 0] : Fin 2 → Nat) = fun _ => 0 := funext fun a => by fin_cases a <;> rfl

/-- Case A: the accumulator is zero-filled, read back, and the first partial product added. -/
theorem soutA_eq (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : cond1_0 i) (hc1 : ¬cond1_1 i)
    (x0 : Vec F S64x2048 .f32) (x1 : Vec F S1024x2048 .f32) (x2 : Vec F S1x1024 .f32) :
    sout1_A_0 c i arg2 harg2 arg3 harg3 arg4 harg4 arg5 harg5 arg6 harg6 hc0 hc1 x0 x1 x2 = k1_pay2 x0 x1 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  try sl_unfold_words
  rw [View.canon_cons_unit_zero hz2]
  rw [View.readCov_unit_zero (S := S64x1024) _ hz2]
  simp only [View.readAt_eq_ld, harg2.read_unread, harg3.read_unread, harg4.read_unread, harg6.read_unread,
    View.ld_unit_zero (S := S64x2048) hz2, View.ld_unit_zero (S := S1024x2048) hz2, View.ld_unit_zero (S := S1x1024) hz2,
    View.ld_unit_zero (S := S64x1024) hz2]

/-- Case B: this point's partial product is added to what the accumulator held. -/
theorem soutB_eq (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : ¬cond1_1 i)
    (x0 : Vec F S64x2048 .f32) (x1 : Vec F S1024x2048 .f32) (x2 : Vec F S1x1024 .f32) (xs0 : Vec F S64x1024 .f32) :
    sout1_B_0 c i arg2 harg2 arg3 harg3 arg4 harg4 arg5 harg5 arg6 harg6 hc0 hc1 x0 x1 x2 xs0 = k1_pay2 x0 x1 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  try sl_unfold_words
  rw [View.canon_unit_zero hz2]
  simp only [View.readAt_eq_ld, harg2.read_unread, harg3.read_unread, harg4.read_unread, harg6.read_unread,
    View.ld_unit_zero (S := S64x2048) hz2, View.ld_unit_zero (S := S1024x2048) hz2, View.ld_unit_zero (S := S1x1024) hz2,
    View.ld_unit_zero (S := S64x1024) hz2]

/-- Case C, the accumulator: as in case B. -/
theorem soutC_eq (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) :
    sout1_C_0 c i arg2 harg2 arg3 harg3 arg4 harg4 arg5 harg5 arg6 harg6 hc0 hc1 x0 x1 x2 xs0 = k1_pay2 x0 x1 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  try sl_unfold_words
  rw [View.canon_unit_zero hz2]
  simp only [View.readAt_eq_ld, harg2.read_unread, harg3.read_unread, harg4.read_unread, harg6.read_unread,
    View.ld_unit_zero (S := S64x2048) hz2, View.ld_unit_zero (S := S1024x2048) hz2, View.ld_unit_zero (S := S1x1024) hz2,
    View.ld_unit_zero (S := S64x1024) hz2]

/-- Case C, the output block: the accumulator just stored, read back, plus the bias row. -/
theorem outC_eq (c : Dev nD) (i : grid1.Coords) (arg2 : Memref sig .tc .vmem S64x2048 .f32) (harg2 : arg2.IsWhole) (arg3 : Memref sig .tc .vmem S1024x2048 .f32) (harg3 : arg3.IsWhole) (arg4 : Memref sig .tc .vmem S1x1024 .f32) (harg4 : arg4.IsWhole) (arg5 : Memref sig .tc .vmem S64x1024 .f32) (harg5 : arg5.IsWhole) (arg6 : Memref sig .tc .vmem S64x1024 .f32) (harg6 : arg6.IsWhole) (hc0 : ¬cond1_0 i) (hc1 : cond1_1 i)
    (x0 : Vec F S64x2048 .f32) (x1 : Vec F S1024x2048 .f32) (x2 : Vec F S1x1024 .f32) (xs0 : Vec F S64x1024 .f32) :
    out1_C_3 c i arg2 harg2 arg3 harg3 arg4 harg4 arg5 harg5 arg6 harg6 hc0 hc1 x0 x1 x2 xs0 = k1_pay3 (k1_pay2 x0 x1 xs0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  try sl_unfold_words
  rw [View.canon_unit_zero hz2]
  rw [View.readCov_unit_zero (S := S64x1024) _ hz2]
  simp only [View.readAt_eq_ld, harg2.read_unread, harg3.read_unread, harg4.read_unread, harg6.read_unread,
    View.ld_unit_zero (S := S64x2048) hz2, View.ld_unit_zero (S := S1024x2048) hz2, View.ld_unit_zero (S := S1x1024) hz2,
    View.ld_unit_zero (S := S64x1024) hz2]

end Cert.KernelIdeal.LinValue

end
-- ==== Proof.LinValuePay.lean ====
/- The linear kernel's three payloads read at an index, at the ideal values (extended reals, no rounding):
     pay1        the zero fill:                      0
     pay2 x w a  accumulate one block product:       a[r,q] + Σ_{j<2048} x[r,j] · w[q,j]
     pay3 a b    add the bias row:                   a[r,q] + b[0,q]
   The conversions to bf16 before the product are the identity at the ideal values, a cast to the same shape is the
   identity, and the matrix product into a zero accumulator is the sum over the one contracted axis (the second of
   each operand: the right operand is used transposed). -/
import proofs.«148574_j76940044140789_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.LinValue

open Cert.KernelIdeal Cert.KernelIdeal.Gen
open Idealize.ShloMosaic Idealize.ShloMosaic.TcCoe Idealize.SL.Sem Idealize.ShloMosaic.ValueIdx

/-- The zero fill reads 0 everywhere. -/
theorem pay1_apply (y : S64x1024.Idx) : k1_pay1 (F := Ideal) y = 0 := by
  unfold k1_pay1
  simp only [shapeCast_self]
  show Ideal.ofBits .f32 0x00000000#32 = 0
  exact Ideal.ofBits_zero_f32

/-- The product's left operand index at output index `y` and contraction index `q`: row `y 0`, column `q`. -/
theorem lhs_0 (y : S64x1024.Idx) (q : dot_S64x2048_S1024x2048_S64x1024_1_1_0_0_n_n.contr.Idx) : (dot_S64x2048_S1024x2048_S64x1024_1_1_0_0_n_n.lhsIdx y q 0).val = (y 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_1 (y : S64x1024.Idx) (q : dot_S64x2048_S1024x2048_S64x1024_1_1_0_0_n_n.contr.Idx) : (dot_S64x2048_S1024x2048_S64x1024_1_1_0_0_n_n.lhsIdx y q 1).val = (q ⟨0, by decide⟩).val :=
  dot_S64x2048_S1024x2048_S64x1024_1_1_0_0_n_n.lhsIdx_val_of_single rfl y q
/-- The right operand's: row `y 1`, column `q` (the operand is contracted along its second axis). -/
theorem rhs_0 (y : S64x1024.Idx) (q : dot_S64x2048_S1024x2048_S64x1024_1_1_0_0_n_n.contr.Idx) : (dot_S64x2048_S1024x2048_S64x1024_1_1_0_0_n_n.rhsIdx y q 0).val = (y 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_1 (y : S64x1024.Idx) (q : dot_S64x2048_S1024x2048_S64x1024_1_1_0_0_n_n.contr.Idx) : (dot_S64x2048_S1024x2048_S64x1024_1_1_0_0_n_n.rhsIdx y q 1).val = (q ⟨0, by decide⟩).val :=
  dot_S64x2048_S1024x2048_S64x1024_1_1_0_0_n_n.rhsIdx_val_of_single rfl y q

/-- One accumulation step at (r, q): what the accumulator held there plus the 2048 products of row r of the left block
    with row q of the right block. -/
theorem pay2_apply (x0 : Vec Ideal S64x2048 .f32) (x1 : Vec Ideal S1024x2048 .f32) (acc : Vec Ideal S64x1024 .f32) (r : Fin 64) (q : Fin 1024) :
    k1_pay2 x0 x1 acc (ix2 r q) = acc (ix2 r q) + ∑ j : Fin 2048, x0 (ix2 r j) * x1 (ix2 q j) := by
  unfold k1_pay2
  simp only [shapeCast_self, matmul]
  rw [addf_apply]
  congr 1
  rw [Ideal.matmul_constant_zero_apply, ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 r q) ((contrEquiv1 dot_S64x2048_S1024x2048_S64x1024_1_1_0_0_n_n 2048 rfl rfl).symm k) = ix2 r k := funext fun a => Fin.ext (by
    match a with
    | ⟨0, _⟩ => exact lhs_0 _ _
    | ⟨1, _⟩ => exact (lhs_1 _ _).trans hk)
  have er : dot_S64x2048_S1024x2048_S64x1024_1_1_0_0_n_n.rhsIdx (ix2 r q) ((contrEquiv1 dot_S64x2048_S1024x2048_S64x1024_1_1_0_0_n_n 2048 rfl rfl).symm k) = ix2 q k := funext fun a => Fin.ext (by
    match a with
    | ⟨0, _⟩ => exact rhs_0 _ _
    | ⟨1, _⟩ => exact (rhs_1 _ _).trans hk)
  rw [truncf_apply, truncf_apply, el, er]

/-- The bias step at (r, q): the accumulator there plus the bias row's entry of column q. -/
theorem pay3_apply (acc : Vec Ideal S64x1024 .f32) (x2 : Vec Ideal S1x1024 .f32) (r : Fin 64) (q : Fin 1024) :
    k1_pay3 acc x2 (ix2 r q) = acc (ix2 r q) + x2 (ix2 (0 : Fin 1) q) := by
  unfold k1_pay3
  simp only [shapeCast_self]
  rw [addf_apply]
  congr 1
  exact broadcastTo_1b_ab_apply x2 broadcasts_S1x1024_S64x1024 r q

end Cert.KernelIdeal.LinValue

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.LinValue.lean ====
/- The linear kernel's pipeline (the second pallas_call of `KernelIdeal`) at the ideal values: WHAT ITS OUTPUT
   ARRAY ENDS HOLDING, as one function of the three arrays it reads.

   Write z : [64, 49152], W : [4096, 49152], b : [1, 4096] for the arrays of windows 0, 1, 2 as the region finds
   them. Grid point t = 24·n + k (n < 4, k < 24) stages the blocks
       x0[r, j] = z[r, 2048·k + j],   x1[q, j] = W[1024·n + q, 2048·k + j],   x2[0, q] = b[0, 1024·n + q].
   The accumulator after point t holds, at (r, q), the sum of the first 2048·(k + 1) products
   z[r, d] · W[1024·n + q, d] (`acc_eq`: by induction on the point — the first point of a run starts from the zero
   fill, every other point adds its 2048 products to what the point before left; the long sum is taken in
   consecutive blocks, which needs only that + is commutative and associative). At k = 23 that is the whole
   contraction over 49152, and the output block is that plus the bias entry b[0, 1024·n + q] (`out_at_flush`).
   The pipeline writes the block back to columns 1024·n … 1024·n + 1023 of the output array; the four blocks
   cover its 4096 columns, so the array ends at  Σ_d z[r, d] · W[col, d] + b[0, col]  (`final1_3`). -/
import proofs.«148574_j76940044140789_2_alg».proof.Proof.LinValueCases
import proofs.«148574_j76940044140789_2_alg».proof.Proof.LinValuePay
import proofs.«148574_j76940044140789_2_alg».proof.Proof.LibBlockAcc
import Idealize.ShloMosaic.PureOps.Ideal.Laws
import Idealize.ShloMosaic.Lib.Pipeline.Value
import Idealize.ShloMosaic.Lib.ValueIdx

set_option maxRecDepth 16384

noncomputable section

namespace Cert.KernelIdeal.LinValue

open Cert.KernelIdeal Cert.KernelIdeal.Gen Cert.KernelIdeal.Lin
open Idealize.ShloMosaic Idealize.ShloMosaic.TcCoe Idealize.ShloMosaic.Tactic Idealize.SL.Sem
open Idealize.ShloMosaic.Pipeline (Dat)
open Idealize.ShloMosaic.ValueIdx
open BlockAcc

variable (V : (c : Dev nD) → (b : Ref sig .tc) → Buf (Elt Ideal) ((c : Thread nD τ).loc b))

/-! ## The windows' block indices over the grid -/

/-- The printed index maps, decided over the 96 points: at point t = 24·n + k window 0 is at block (0, k), window 1
    at (n, k), windows 2 and 3 at (0, n). -/
theorem idx_facts : ∀ t : Fin cfg1.N,
    win1_0.index t (0 : Fin 2) = 0 ∧ win1_0.index t (1 : Fin 2) = t.val % 24
    ∧ win1_1.index t (0 : Fin 2) = t.val / 24 ∧ win1_1.index t (1 : Fin 2) = t.val % 24
    ∧ win1_2.index t (0 : Fin 2) = 0 ∧ win1_2.index t (1 : Fin 2) = t.val / 24
    ∧ win1_3.index t (0 : Fin 2) = 0 ∧ win1_3.index t (1 : Fin 2) = t.val / 24 :=
  (by decide +kernel : ∀ t : Fin grid1.N,
    win1_0.index t (0 : Fin 2) = 0 ∧ win1_0.index t (1 : Fin 2) = t.val % 24
    ∧ win1_1.index t (0 : Fin 2) = t.val / 24 ∧ win1_1.index t (1 : Fin 2) = t.val % 24
    ∧ win1_2.index t (0 : Fin 2) = 0 ∧ win1_2.index t (1 : Fin 2) = t.val / 24
    ∧ win1_3.index t (0 : Fin 2) = 0 ∧ win1_3.index t (1 : Fin 2) = t.val / 24)

/-! ## The input blocks as reads of their arrays -/

/-- Window 0's block at point t: columns 2048·(t % 24) … of z. -/
theorem iblk0_apply (c : Dev nD) (t : Fin cfg1.N) (x : S64x2048.Idx) (k : S64x49152.Idx)
    (hk0 : (k 0).val = (x 0).val) (hk1 : (k 1).val = 2048 * (t.val % 24) + (x 1).val) :
    (iblk1 V c 0 t : Vec Ideal S64x2048 .f32) x = (V c main_v2 : S64x49152.Idx → Elt Ideal .f32) k := by
  obtain ⟨e0, e1, -⟩ := idx_facts t
  unfold iblk1
  rw [View.read_apply]
  show V c main_v2 _ = V c main_v2 _
  congr 1
  funext a
  apply Fin.ext
  match a with
  | ⟨0, _⟩ => show win1_0.index t 0 * 64 + 1 * (x 0).val = (k 0).val; rw [e0, hk0]; omega
  | ⟨1, _⟩ => show win1_0.index t 1 * 2048 + 1 * (x 1).val = (k 1).val; rw [e1, hk1]; omega

/-- Window 1's block at point t: rows 1024·(t / 24) … and columns 2048·(t % 24) … of W. -/
theorem iblk1_apply (c : Dev nD) (t : Fin cfg1.N) (x : S1024x2048.Idx) (k : S4096x49152.Idx)
    (hk0 : (k 0).val = 1024 * (t.val / 24) + (x 0).val) (hk1 : (k 1).val = 2048 * (t.val % 24) + (x 1).val) :
    (iblk1 V c 1 t : Vec Ideal S1024x2048 .f32) x = (V c main_arg2 : S4096x49152.Idx → Elt Ideal .f32) k := by
  obtain ⟨-, -, e0, e1, -⟩ := idx_facts t
  unfold iblk1
  rw [View.read_apply]
  show V c main_arg2 _ = V c main_arg2 _
  congr 1
  funext a
  apply Fin.ext
  match a with
  | ⟨0, _⟩ => show win1_1.index t 0 * 1024 + 1 * (x 0).val = (k 0).val; rw [e0, hk0]; omega
  | ⟨1, _⟩ => show win1_1.index t 1 * 2048 + 1 * (x 1).val = (k 1).val; rw [e1, hk1]; omega

/-- Window 2's block at point t: columns 1024·(t / 24) … of the bias row. -/
theorem iblk2_apply (c : Dev nD) (t : Fin cfg1.N) (x : S1x1024.Idx) (k : S1x4096.Idx)
    (hk0 : (k 0).val = (x 0).val) (hk1 : (k 1).val = 1024 * (t.val / 24) + (x 1).val) :
    (iblk1 V c 2 t : Vec Ideal S1x1024 .f32) x = (V c main_v3 : S1x4096.Idx → Elt Ideal .f32) k := by
  obtain ⟨-, -, -, -, e0, e1, -⟩ := idx_facts t
  unfold iblk1
  rw [View.read_apply]
  show V c main_v3 _ = V c main_v3 _
  congr 1
  funext a
  apply Fin.ext
  match a with
  | ⟨0, _⟩ => show win1_2.index t 0 * 1 + 1 * (x 0).val = (k 0).val; rw [e0, hk0]; omega
  | ⟨1, _⟩ => show win1_2.index t 1 * 1024 + 1 * (x 1).val = (k 1).val; rw [e1, hk1]; omega

/-! ## The products, as the terms of one long sum -/

/-- The d-th product of row r of z with row col of W (zero past the contraction's length: never reached). -/
def term (z : S64x49152.Idx → EReal) (wl : S4096x49152.Idx → EReal) (r : Fin 64) (col : Fin 4096) (d : ℕ) : EReal :=
  if h : d < 49152 then z (ix2 r ⟨d, h⟩) * wl (ix2 col ⟨d, h⟩) else 0

/-- The output column that column q of point n's block is. -/
def colOf (n : ℕ) (hn : n < cfg1.N) (q : Fin 1024) : Fin 4096 :=
  ⟨1024 * (n / 24) + q.val, by have hN : cfg1.N = 96 := N_1; have := q.isLt; omega⟩

/-- The j-th product of point t's two blocks at (r, q) is term number 2048·(t % 24) + j of row r and column
    `colOf t q`. -/
theorem block_term (c : Dev nD) (z : S64x49152.Idx → EReal) (wl : S4096x49152.Idx → EReal) (hz : z = V c main_v2) (hwl : wl = V c main_arg2) (t : Fin cfg1.N) (r : Fin 64) (q : Fin 1024) (j : Fin 2048)
    (x0 : Vec Ideal S64x2048 .f32) (x1 : Vec Ideal S1024x2048 .f32) (hx0 : x0 = iblk1 V c 0 t) (hx1 : x1 = iblk1 V c 1 t) :
    x0 (ix2 r j) * x1 (ix2 q j) = term z wl r (colOf t.val t.isLt q) (2048 * (t.val % 24) + j.val) := by
  have hd : 2048 * (t.val % 24) + j.val < 49152 := by have := j.isLt; omega
  unfold term
  rw [dif_pos hd]
  have e0 : x0 (ix2 r j) = z (ix2 r ⟨_, hd⟩) := by
    rw [hx0, hz]; exact iblk0_apply V c t (ix2 r j) (ix2 r ⟨_, hd⟩) rfl rfl
  have e1 : x1 (ix2 q j) = wl (ix2 (colOf t.val t.isLt q) ⟨_, hd⟩) := by
    rw [hx1, hwl]; exact iblk1_apply V c t (ix2 q j) (ix2 (colOf t.val t.isLt q) ⟨_, hd⟩) rfl rfl
  rw [e0, e1]

/-! ## The accumulator after each point -/

/-- At the first point of a run the accumulator holds the first 2048 terms: the zero fill plus the block product. -/
theorem acc_A (c : Dev nD) (z : S64x49152.Idx → EReal) (wl : S4096x49152.Idx → EReal) (hz : z = V c main_v2) (hwl : wl = V c main_arg2) (t : Fin cfg1.N) (h0 : t.val % 24 = 0) (r : Fin 64) (q : Fin 1024) :
    (outsAt1 V c t.val t.isLt).2 (ix2 r q) = partialSum 2048 (term z wl r (colOf t.val t.isLt q)) (t.val % 24 + 1) := by
  have h1 : ¬t.val % 24 = 23 := by omega
  have hp : partialSum 2048 (term z wl r (colOf t.val t.isLt q)) (t.val % 24) = 0 := by
    rw [h0]; exact partialSum_zero _ _
  rw [outsAt1_A V c t h0 h1]
  dsimp only
  rw [soutA_eq, pay2_apply, pay1_apply, partialSum_succ, hp]
  congr 1
  exact Finset.sum_congr rfl fun j _ => block_term V c z wl hz hwl t r q j _ _ rfl rfl

/-- At any other point the accumulator gains the point's 2048 terms over what the point before left. -/
theorem acc_step (c : Dev nD) (z : S64x49152.Idx → EReal) (wl : S4096x49152.Idx → EReal) (hz : z = V c main_v2) (hwl : wl = V c main_arg2) (t : Fin cfg1.N) (h0 : ¬t.val % 24 = 0) (r : Fin 64) (q : Fin 1024)
    (ih : ∀ (r' : Fin 64) (q' : Fin 1024), (outsAt1 V c (t.val - 1) (Nat.lt_of_le_of_lt (Nat.sub_le _ _) t.isLt)).2 (ix2 r' q')
      = partialSum 2048 (term z wl r' (colOf (t.val - 1) (Nat.lt_of_le_of_lt (Nat.sub_le _ _) t.isLt) q')) ((t.val - 1) % 24 + 1)) :
    (outsAt1 V c t.val t.isLt).2 (ix2 r q) = partialSum 2048 (term z wl r (colOf t.val t.isLt q)) (t.val % 24 + 1) := by
  have hc : colOf (t.val - 1) (Nat.lt_of_le_of_lt (Nat.sub_le _ _) t.isLt) q = colOf t.val t.isLt q :=
    Fin.ext (by show 1024 * ((t.val - 1) / 24) + q.val = 1024 * (t.val / 24) + q.val; omega)
  have hm : (t.val - 1) % 24 + 1 = t.val % 24 := by omega
  have key : k1_pay2 (iblk1 V c 0 t) (iblk1 V c 1 t) (outsAt1 V c (t.val - 1) (Nat.lt_of_le_of_lt (Nat.sub_le _ _) t.isLt)).2 (ix2 r q)
      = partialSum 2048 (term z wl r (colOf t.val t.isLt q)) (t.val % 24 + 1) := by
    rw [pay2_apply, ih r q, hc, hm, partialSum_succ]
    congr 1
    exact Finset.sum_congr rfl fun j _ => block_term V c z wl hz hwl t r q j _ _ rfl rfl
  by_cases h1 : t.val % 24 = 23
  · rw [outsAt1_C V c t h0 h1]
    dsimp only
    rw [soutC_eq]
    exact key
  · rw [outsAt1_B V c t h0 h1]
    dsimp only
    rw [soutB_eq]
    exact key

/-- THE ACCUMULATOR after point n, at (r, q): the first 2048·(n % 24 + 1) terms of row r and column `colOf n q`. -/
theorem acc_eq (c : Dev nD) (z : S64x49152.Idx → EReal) (wl : S4096x49152.Idx → EReal) (hz : z = V c main_v2) (hwl : wl = V c main_arg2) : ∀ (n : ℕ) (hn : n < cfg1.N) (r : Fin 64) (q : Fin 1024),
    (outsAt1 V c n hn).2 (ix2 r q) = partialSum 2048 (term z wl r (colOf n hn q)) (n % 24 + 1)
  | 0, hn, r, q => acc_A V c z wl hz hwl ⟨0, hn⟩ (Nat.zero_mod _) r q
  | n + 1, hn, r, q => by
    by_cases h0 : (n + 1) % 24 = 0
    · exact acc_A V c z wl hz hwl ⟨n + 1, hn⟩ h0 r q
    · exact acc_step V c z wl hz hwl ⟨n + 1, hn⟩ h0 r q (fun r' q' => acc_eq c z wl hz hwl n (Nat.lt_of_succ_lt hn) r' q')

/-! ## The output block at a point that writes it back -/

/-- At the last point of a run the output's staging buffer holds, at (r, q), the whole contraction of row r of z with
    row `colOf t q` of W, plus the bias entry of that column. -/
theorem out_at_flush (c : Dev nD) (z : S64x49152.Idx → EReal) (wl : S4096x49152.Idx → EReal) (hz : z = V c main_v2) (hwl : wl = V c main_arg2) (bl : S1x4096.Idx → EReal) (hbl : bl = V c main_v3)
    (t : Fin cfg1.N) (h1 : t.val % 24 = 23) (r : Fin 64) (q : Fin 1024) :
    (outsAt1 V c t.val t.isLt).1 (ix2 r q)
      = (∑ κ : Fin 49152, z (ix2 r κ) * wl (ix2 (colOf t.val t.isLt q) κ)) + bl (ix2 (0 : Fin 1) (colOf t.val t.isLt q)) := by
  have h0 : ¬t.val % 24 = 0 := by omega
  have hacc := acc_eq V c z wl hz hwl t.val t.isLt r q
  rw [outsAt1_C V c t h0 h1] at hacc ⊢
  dsimp only at hacc ⊢
  rw [soutC_eq] at hacc
  have es : ∑ d : Fin 49152, term z wl r (colOf t.val t.isLt q) d.val = ∑ κ : Fin 49152, z (ix2 r κ) * wl (ix2 (colOf t.val t.isLt q) κ) :=
    Finset.sum_congr rfl fun κ _ => by unfold term; rw [dif_pos κ.isLt]
  have eb : ∀ x2 : Vec Ideal S1x1024 .f32, x2 = iblk1 V c 2 t → x2 (ix2 (0 : Fin 1) q) = bl (ix2 (0 : Fin 1) (colOf t.val t.isLt q)) := by
    intro x2 hx2
    rw [hx2, hbl]; exact iblk2_apply V c t (ix2 (0 : Fin 1) q) (ix2 (0 : Fin 1) (colOf t.val t.isLt q)) rfl rfl
  rw [outC_eq, pay3_apply, hacc, h1, partialSum_all 2048 24 49152 rfl, es, eb _ rfl]

/-! ## The output array after the region -/

/-- What the output array ends holding: at (r, col) the contraction of row r of z with row col of W, plus b[0, col]. -/
def G (z : S64x49152.Idx → EReal) (wl : S4096x49152.Idx → EReal) (bl : S1x4096.Idx → EReal) : S64x4096.Idx → EReal := fun i =>
  (∑ κ : Fin 49152, z (ix2 (i 0) κ) * wl (ix2 (i 1) κ)) + bl (ix2 (0 : Fin 1) (i 1))

/-- WHAT A WRITING POINT WRITES BACK is its block of `G`. -/
theorem flushed_eq (c : Dev nD) (z : S64x49152.Idx → EReal) (wl : S4096x49152.Idx → EReal) (hz : z = V c main_v2) (hwl : wl = V c main_arg2) (bl : S1x4096.Idx → EReal) (hbl : bl = V c main_v3)
    (t : Fin cfg1.N) (hf : (cfg1.win 3).flush t = true) :
    (dat1 V c).flushed 3 t = ((cfg1.win 3).blk t).view.read (Elt Ideal) (G z wl bl) := by
  have h1 : t.val % 24 = 23 := (flush1_3 t).mp hf
  obtain ⟨-, -, -, -, -, -, e0, e1⟩ := idx_facts t
  show (cfg1.win 3).cut (grid1.coords t) ((dat1 V c).after 3 t) = _
  rw [after1_3]
  funext j
  obtain ⟨r, q, rfl⟩ : ∃ (r : Fin 64) (q : Fin 1024), j = (ix2 r q : S64x1024.Idx) := ⟨j 0, j 1, eq_ix2 (n0 := 64) (n1 := 1024) j⟩
  show (outsAt1 V c t.val t.isLt).1 (ix2 r q) = G z wl bl (((cfg1.win 3).blk t).view.emb (ix2 r q))
  have hemb : ((cfg1.win 3).blk t).view.emb (ix2 r q) = (ix2 r (colOf t.val t.isLt q) : S64x4096.Idx) := by
    funext a
    apply Fin.ext
    match a with
    | ⟨0, _⟩ => show win1_3.index t 0 * 64 + 1 * r.val = r.val; rw [e0]; omega
    | ⟨1, _⟩ => show win1_3.index t 1 * 1024 + 1 * q.val = 1024 * (t.val / 24) + q.val; rw [e1]; omega
  rw [hemb, out_at_flush V c z wl hz hwl bl hbl t h1 r q]
  rfl

/-- Every index of the output array is in the block some writing point writes: column col is in the block of the
    last point of run col / 1024. -/
theorem cover (i : S64x4096.Idx) : ∃ t : Fin cfg1.N, (cfg1.win 3).flush t = true ∧ i ∈ ((cfg1.win 3).blk t).view.set := by
  have hi0 : (i 0).val < 64 := (i 0).isLt
  have hi1 : (i 1).val < 4096 := (i 1).isLt
  have hN : cfg1.N = 96 := N_1
  have hlt : 24 * ((i 1).val / 1024) + 23 < cfg1.N := by omega
  refine ⟨⟨24 * ((i 1).val / 1024) + 23, hlt⟩, (flush1_3 _).mpr (by show (24 * ((i 1).val / 1024) + 23) % 24 = 23; omega), ?_⟩
  obtain ⟨-, -, -, -, -, -, e0, e1⟩ := idx_facts ⟨24 * ((i 1).val / 1024) + 23, hlt⟩
  have e1' : win1_3.index ⟨24 * ((i 1).val / 1024) + 23, hlt⟩ (1 : Fin 2) = (i 1).val / 1024 := by
    rw [e1]; show (24 * ((i 1).val / 1024) + 23) / 24 = (i 1).val / 1024; omega
  show i ∈ ((View.whole main_v4).slice (win1_3.rect ⟨24 * ((i 1).val / 1024) + 23, hlt⟩)).set
  rw [View.set_slice_whole, Rect.mem_set_unit]
  intro a
  match a with
  | ⟨0, _⟩ =>
    show win1_3.index ⟨24 * ((i 1).val / 1024) + 23, hlt⟩ 0 * 64 ≤ (i 0).val ∧ (i 0).val < win1_3.index ⟨24 * ((i 1).val / 1024) + 23, hlt⟩ 0 * 64 + 64
    rw [e0]; omega
  | ⟨1, _⟩ =>
    show win1_3.index ⟨24 * ((i 1).val / 1024) + 23, hlt⟩ 1 * 1024 ≤ (i 1).val ∧ (i 1).val < win1_3.index ⟨24 * ((i 1).val / 1024) + 23, hlt⟩ 1 * 1024 + 1024
    rw [e1']; omega

/-- THE OUTPUT ARRAY AFTER THE REGION: at (r, col), Σ_d z[r, d] · W[col, d] + b[0, col], for z, W, b the arrays of
    windows 0, 1, 2 as the region finds them. -/
theorem final1_3 (c : Dev nD) (z : S64x49152.Idx → EReal) (wl : S4096x49152.Idx → EReal) (bl : S1x4096.Idx → EReal)
    (hz : z = V c main_v2) (hwl : wl = V c main_arg2) (hbl : bl = V c main_v3) :
    (dat1 (F := Ideal) V c).arrAt 3 cfg1.N = fun i : S64x4096.Idx => (∑ κ : Fin 49152, z (ix2 (i 0) κ) * wl (ix2 (i 1) κ)) + bl (ix2 (0 : Fin 1) (i 1)) :=
  (dat1 V c).arrAt_eq_of_cover 3 (G z wl bl) (flushed_eq V c z wl hz hwl bl hbl) cover

end Cert.KernelIdeal.LinValue

end
-- ==== Proof.RefScores.lean ====
/-
  The reference's masked scores, read index by index at the exact (extended-real) instance, are the specification's
  masked scores: stage by stage — the projection (a sum over the 768 hidden coordinates, the weight written first by
  the reference, the input first by the specification: products commute), the three feature ranges, the query-key sum,
  the quotient by √64 (= the product with 0.125), and the causal mask, whose bit is 1 exactly where the column is past
  the row (the reference computes "row ≥ column" on 32-bit words and selects false / true on it).
-/
import proofs.«148574_j76940044140789_2_alg».proof.Proof.Gen.ReferenceIdeal.Read
import proofs.«148574_j76940044140789_2_alg».proof.Proof.Spec
import Idealize.ShloMosaic.Lib.Affine
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The projection and its three ranges -/

/-- The transposed projection at (b, n, s, f) is Σ_d x[b,s,d] · W_proj[n,f,d]. -/
theorem qkv_eq (x0 : (⟨S64x64x768, .f32⟩ : BufTy).Contents (Elt Ideal)) (x1 : (⟨S12x192x768, .f32⟩ : BufTy).Contents (Elt Ideal))
    (b : Fin 64) (n : Fin 12) (s : Fin 64) (f : Fin 192) :
    val_main_v1 (F := Ideal) x0 x1 (ix4 b n s f) = Cert.Spec.qkv x0 x1 b n s f := by
  rw [val_main_v1_apply, val_main_v0_apply]
  unfold Cert.Spec.qkv
  refine Finset.sum_congr rfl fun d _ => ?_
  have el : lidx_main_v0 (idx_main_v1 (ix4 b n s f)) d = ix3 n f d :=
    funext fun a => Fin.ext (by match a with | ⟨0, _⟩ => rfl | ⟨1, _⟩ => rfl | ⟨2, _⟩ => rfl)
  have er : ridx_main_v0 (idx_main_v1 (ix4 b n s f)) d = ix3 b s d :=
    funext fun a => Fin.ext (by match a with | ⟨0, _⟩ => rfl | ⟨1, _⟩ => rfl | ⟨2, _⟩ => rfl)
  rw [el, er, mul_comm]

/-- Features 0..63: the query. -/
theorem q_eq (x0 : (⟨S64x64x768, .f32⟩ : BufTy).Contents (Elt Ideal)) (x1 : (⟨S12x192x768, .f32⟩ : BufTy).Contents (Elt Ideal))
    (b : Fin 64) (n : Fin 12) (s d : Fin 64) :
    val_main_v2 (F := Ideal) x0 x1 (ix4 b n s d) = Cert.Spec.q x0 x1 b n s d := by
  rw [val_main_v2_apply]
  have e : idx_main_v2 (ix4 b n s d) = ix4 b n s (⟨d.val, by omega⟩ : Fin 192) :=
    funext fun a => Fin.ext (by match a with | ⟨0, _⟩ => rfl | ⟨1, _⟩ => rfl | ⟨2, _⟩ => rfl | ⟨3, _⟩ => rfl)
  rw [e, qkv_eq]; rfl

/-- Features 64..127: the key. -/
theorem k_eq (x0 : (⟨S64x64x768, .f32⟩ : BufTy).Contents (Elt Ideal)) (x1 : (⟨S12x192x768, .f32⟩ : BufTy).Contents (Elt Ideal))
    (b : Fin 64) (n : Fin 12) (s d : Fin 64) :
    val_main_v3 (F := Ideal) x0 x1 (ix4 b n s d) = Cert.Spec.k x0 x1 b n s d := by
  rw [val_main_v3_apply]
  have e : idx_main_v3 (ix4 b n s d) = ix4 b n s (⟨64 + d.val, by omega⟩ : Fin 192) :=
    funext fun a => Fin.ext (by match a with | ⟨0, _⟩ => rfl | ⟨1, _⟩ => rfl | ⟨2, _⟩ => rfl | ⟨3, _⟩ => rfl)
  rw [e, qkv_eq]; rfl

/-- Features 128..191: the value. -/
theorem v_eq (x0 : (⟨S64x64x768, .f32⟩ : BufTy).Contents (Elt Ideal)) (x1 : (⟨S12x192x768, .f32⟩ : BufTy).Contents (Elt Ideal))
    (b : Fin 64) (n : Fin 12) (s d : Fin 64) :
    val_main_v4 (F := Ideal) x0 x1 (ix4 b n s d) = Cert.Spec.v x0 x1 b n s d := by
  rw [val_main_v4_apply]
  have e : idx_main_v4 (ix4 b n s d) = ix4 b n s (⟨128 + d.val, by omega⟩ : Fin 192) :=
    funext fun a => Fin.ext (by match a with | ⟨0, _⟩ => rfl | ⟨1, _⟩ => rfl | ⟨2, _⟩ => rfl | ⟨3, _⟩ => rfl)
  rw [e, qkv_eq]; rfl

/-! ## The raw and the scaled scores -/

/-- The query-key sum over the 64 head coordinates. -/
theorem raw_eq (x0 : (⟨S64x64x768, .f32⟩ : BufTy).Contents (Elt Ideal)) (x1 : (⟨S12x192x768, .f32⟩ : BufTy).Contents (Elt Ideal))
    (b : Fin 64) (n : Fin 12) (i j : Fin 64) :
    val_main_v5 (F := Ideal) x0 x1 (ix4 b n i j) = Cert.Spec.raw x0 x1 b n i j := by
  rw [val_main_v5_apply]
  unfold Cert.Spec.raw
  refine Finset.sum_congr rfl fun d _ => ?_
  have el : lidx_main_v5 (ix4 b n i j) d = ix4 b n i d :=
    funext fun a => Fin.ext (by match a with | ⟨0, _⟩ => rfl | ⟨1, _⟩ => rfl | ⟨2, _⟩ => rfl | ⟨3, _⟩ => rfl)
  have er : ridx_main_v5 (ix4 b n i j) d = ix4 b n j d :=
    funext fun a => Fin.ext (by match a with | ⟨0, _⟩ => rfl | ⟨1, _⟩ => rfl | ⟨2, _⟩ => rfl | ⟨3, _⟩ => rfl)
  rw [el, er, q_eq, k_eq]

/-- The quotient by √64 is the product with 0.125. -/
theorem scaled_eq (x0 : (⟨S64x64x768, .f32⟩ : BufTy).Contents (Elt Ideal)) (x1 : (⟨S12x192x768, .f32⟩ : BufTy).Contents (Elt Ideal))
    (b : Fin 64) (n : Fin 12) (i j : Fin 64) :
    val_main_v8 (F := Ideal) x0 x1 (ix4 b n i j) = Cert.Spec.raw x0 x1 b n i j * Ideal.ofBits .f32 0x3E000000#32 := by
  rw [val_main_v8_apply, val_main_v7_apply, val_main_v6_apply, val_main_cst_apply, raw_eq]
  simp only [Ideal.hostDivf_def, Ideal.hostUnary_sqrt_def, Ideal.ofBits_def]
  exact Cert.Spec.div_sqrt_sixtyfour _

/-! ## The causal mask -/

/-- A number below 64 written as a 32-bit word reads back, signed, as itself. -/
theorem toInt_ofNat_small (a : Nat) (h : a < 64) : (BitVec.ofNat 32 a).toInt = (a : Int) := by
  have e := BitVec.toInt_eq_toNat_cond (BitVec.ofNat 32 a)
  rw [BitVec.toNat_ofNat, Nat.mod_eq_of_lt (by omega)] at e
  rw [e, if_pos (by omega)]

/-- The reference's mask bit at row i, column j — "select false / true on (i + 0 ≥ j)", on 32-bit words — is 1 exactly
    when the column is past the row. -/
theorem causal_bit (i j : Nat) (hi : i < 64) (hj : j < 64) :
    Scalar.select (IntOp.cmpi .sge (IntOp.addi (BitVec.ofNat 32 i) 0#32) (BitVec.ofNat 32 j)) (0#1 : BitVec 1) 1#1
      = if i < j then 1#1 else 0#1 := by
  have hadd : IntOp.addi (BitVec.ofNat 32 i) 0#32 = BitVec.ofNat 32 i := BitVec.add_zero _
  rw [hadd]
  by_cases h : i < j
  · have hc : ¬ IntOp.cmpi .sge (BitVec.ofNat 32 i) (BitVec.ofNat 32 j) = 1#1 := by
      rw [IntOp.cmpi_sge, toInt_ofNat_small i hi, toInt_ofNat_small j hj]; omega
    rw [if_pos h, eq_zero_of_ne_one hc, select_zero]
  · have hc : IntOp.cmpi .sge (BitVec.ofNat 32 i) (BitVec.ofNat 32 j) = 1#1 := by
      rw [IntOp.cmpi_sge, toInt_ofNat_small i hi, toInt_ofNat_small j hj]; omega
    rw [if_neg h, hc, select_one]

/-- The broadcast mask at (b, n, i, j). -/
theorem mask_eq (b : Fin 64) (n : Fin 12) (i j : Fin 64) :
    val_main_call1_v1 (F := Ideal) (ix4 b n i j) = if i.val < j.val then 1#1 else 0#1 := by
  rw [val_main_call1_v1_apply, val_main_v10_apply, val_main_call0_v4_apply, val_main_call0_v5_apply, val_main_v9_apply,
    val_main_call0_c_0_apply, val_main_c_apply, val_main_call0_v2_apply, val_main_call0_v0_apply, val_main_call0_v1_apply,
    val_main_call0_c_apply, val_main_call0_v3_apply]
  exact causal_bit i.val j.val i.isLt j.isLt

/-! ## Result 1 -/

/-- The masked score at (b, n, i, j). -/
theorem score_eq (x0 : (⟨S64x64x768, .f32⟩ : BufTy).Contents (Elt Ideal)) (x1 : (⟨S12x192x768, .f32⟩ : BufTy).Contents (Elt Ideal))
    (b : Fin 64) (n : Fin 12) (i j : Fin 64) :
    val_main_v11 (F := Ideal) x0 x1 (ix4 b n i j) = Cert.Spec.score x0 x1 b n i j := by
  rw [val_main_v11_apply, mask_eq, val_main_call1_v2_apply, val_main_call1_v0_apply, val_main_cst_0_apply, scaled_eq]
  unfold Cert.Spec.score
  by_cases h : i.val < j.val
  · rw [if_pos h, if_pos h, select_one]; rfl
  · rw [if_neg h, if_neg h, select_zero]

/-- RESULT 1: the reference's masked scores are the specification's. -/
theorem scores_eq (x0 : (⟨S64x64x768, .f32⟩ : BufTy).Contents (Elt Ideal)) (x1 : (⟨S12x192x768, .f32⟩ : BufTy).Contents (Elt Ideal)) :
    val_main_v11 (F := Ideal) x0 x1 = Cert.Spec.masked x0 x1 := by
  funext t
  obtain ⟨b, n, i, j, rfl⟩ : ∃ (b : Fin 64) (n : Fin 12) (i j : Fin 64), t = ix4 b n i j := ⟨t 0, t 1, t 2, t 3, eq_ix4 t⟩
  rw [Cert.Spec.masked_ix4]
  exact score_eq x0 x1 b n i j

end Cert.ReferenceIdeal.RefValue

end
-- ==== Proof.RefCtx.lean ====
/-
  The reference's softmax and context, read index by index at the exact (extended-real) instance.

  The reference normalises a row of masked scores in the specification's four steps: the row's maximum (a max-reduce
  over the last axis, folded from −∞, followed by one more maximum with −∞, which changes nothing since −∞ is the
  least extended real), the exponential of the difference, the sum of the exponentials (the reduce starts from 0), and
  the exact quotient. The maximum and the sum reach an entry through two keep-dims broadcasts ([64,12,64] → [64,12,64,1]
  → [64,12,64,64]), which read (b, n, i, j) at (b, n, i). The context is the sum over the key position of the
  normalised row times the value.
-/
import proofs.«148574_j76940044140789_2_alg».proof.Proof.RefScores
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The row maximum -/

/-- The last axis of [64,12,64,64] reduces away. -/
theorem reduces_last : S64x12x64x64.Reduces [3] S64x12x64 := by decide

/-- The index (b, n, i) with the reduced coordinate k put back is (b, n, i, k). -/
theorem lift_ix3 (b : Fin 64) (n : Fin 12) (i : Fin 64) (k : Fin (S64x12x64x64.size 3)) :
    reduces_last.lift (ix3 b n i) k = ix4 b n i (⟨k.val, k.isLt⟩ : Fin 64) :=
  funext fun c => Fin.ext (by match c with | ⟨0, _⟩ => rfl | ⟨1, _⟩ => rfl | ⟨2, _⟩ => rfl | ⟨3, _⟩ => rfl)

/-- A max-reduce over the last axis from the word 0xFF800000, at (b, n, i), is the specification's row maximum of the
    row (b, n, i, ·): both fold the maximum over the 64 columns from that word, in any order. -/
theorem hostRowMax (s : FVec Ideal S64x12x64x64 .f32) (b : Fin 64) (n : Fin 12) (i : Fin 64) :
    Host.reduce (FloatOps.maximumf (F := Ideal) (φ := .f32)) s (constant (F := Ideal) S_ .f32 0xFF800000#32)
        reducesTo_S64x12x64x64_S64x12x64_d3 h_S_ (ix3 b n i)
      = Cert.Spec.rowMax fun j => s (ix4 b n i j) := by
  refine (Host.reduce_eq_fold_single (FloatOps.maximumf (F := Ideal) (φ := .f32)) s
    (constant (F := Ideal) S_ .f32 0xFF800000#32) reducesTo_S64x12x64x64_S64x12x64_d3 reduces_last h_S_ (ix3 b n i)).trans ?_
  have hf : (s ∘ reduces_last.lift (ix3 b n i)) = fun k : Fin 64 => s (ix4 b n i k) :=
    funext fun k => congrArg s (lift_ix3 b n i k)
  exact congrArg (fun f => Finset.fold max (Ideal.ofBits .f32 0xFF800000#32) f (Finset.univ : Finset (Fin 64))) hf

/-- The reference's row maximum at (b, n, i): the reduce, then a maximum with −∞. -/
theorem rowMax_eq (x0 : (⟨S64x64x768, .f32⟩ : BufTy).Contents (Elt Ideal)) (x1 : (⟨S12x192x768, .f32⟩ : BufTy).Contents (Elt Ideal))
    (b : Fin 64) (n : Fin 12) (i : Fin 64) :
    val_main_v14 (F := Ideal) x0 x1 (ix3 b n i) = Cert.Spec.rowMax (Cert.Spec.score x0 x1 b n i) := by
  rw [val_main_v14_apply, val_main_v13_apply, val_main_cst_2_apply]
  have h12 : val_main_v12 (F := Ideal) x0 x1 (ix3 b n i) = Cert.Spec.rowMax (Cert.Spec.score x0 x1 b n i) := by
    unfold val_main_v12
    refine (hostRowMax (val_main_v11 (F := Ideal) x0 x1) b n i).trans ?_
    exact congrArg Cert.Spec.rowMax (funext fun j => score_eq x0 x1 b n i j)
  rw [h12]
  simp only [Ideal.maximumf_def, Ideal.ofBits_def]
  rw [Cert.Spec.negInf_eq_bot]
  exact max_eq_right bot_le

/-! ## The exponentials, their sum, the quotient -/

/-- Through the two keep-dims broadcasts an entry (b, n, i, j) reads the per-row array at (b, n, i). -/
theorem rowIdx_max (b : Fin 64) (n : Fin 12) (i j : Fin 64) :
    idx_main_v15 (idx_main_v16 (ix4 b n i j)) = ix3 b n i :=
  funext fun a => Fin.ext (by match a with | ⟨0, _⟩ => rfl | ⟨1, _⟩ => rfl | ⟨2, _⟩ => rfl)

theorem rowIdx_sum (b : Fin 64) (n : Fin 12) (i j : Fin 64) :
    idx_main_v20 (idx_main_v21 (ix4 b n i j)) = ix3 b n i :=
  funext fun a => Fin.ext (by match a with | ⟨0, _⟩ => rfl | ⟨1, _⟩ => rfl | ⟨2, _⟩ => rfl)

/-- exp (score − row maximum). -/
theorem expo_eq (x0 : (⟨S64x64x768, .f32⟩ : BufTy).Contents (Elt Ideal)) (x1 : (⟨S12x192x768, .f32⟩ : BufTy).Contents (Elt Ideal))
    (b : Fin 64) (n : Fin 12) (i j : Fin 64) :
    val_main_v18 (F := Ideal) x0 x1 (ix4 b n i j) = Cert.Spec.expo (Cert.Spec.score x0 x1 b n i) j := by
  rw [val_main_v18_apply, val_main_v17_apply, val_main_v16_apply, val_main_v15_apply, rowIdx_max, rowMax_eq, score_eq]
  rfl

/-- The sum of the row's exponentials; the reduce starts from the zero word. -/
theorem rowSum_eq (x0 : (⟨S64x64x768, .f32⟩ : BufTy).Contents (Elt Ideal)) (x1 : (⟨S12x192x768, .f32⟩ : BufTy).Contents (Elt Ideal))
    (b : Fin 64) (n : Fin 12) (i : Fin 64) :
    val_main_v19 (F := Ideal) x0 x1 (ix3 b n i) = Cert.Spec.rowSum (Cert.Spec.score x0 x1 b n i) := by
  rw [val_main_v19_apply, val_main_cst_3_apply]
  simp only [Ideal.ofBits_def, Ideal.ofBits_zero_f32, zero_add]
  unfold Cert.Spec.rowSum
  refine Finset.sum_congr rfl fun k _ => ?_
  have e : idx_main_v19 (ix3 b n i) k = ix4 b n i k :=
    funext fun a => Fin.ext (by match a with | ⟨0, _⟩ => rfl | ⟨1, _⟩ => rfl | ⟨2, _⟩ => rfl | ⟨3, _⟩ => rfl)
  rw [e, expo_eq]

/-- The normalised row. -/
theorem attn_eq (x0 : (⟨S64x64x768, .f32⟩ : BufTy).Contents (Elt Ideal)) (x1 : (⟨S12x192x768, .f32⟩ : BufTy).Contents (Elt Ideal))
    (b : Fin 64) (n : Fin 12) (i j : Fin 64) :
    val_main_v22 (F := Ideal) x0 x1 (ix4 b n i j) = Cert.Spec.attn (Cert.Spec.score x0 x1 b n i) j := by
  rw [val_main_v22_apply, val_main_v21_apply, val_main_v20_apply, rowIdx_sum, rowSum_eq, expo_eq]
  rfl

/-! ## The context -/

/-- ctx[b,n,i,d] = Σ_j attn · v. -/
theorem ctx_eq (x0 : (⟨S64x64x768, .f32⟩ : BufTy).Contents (Elt Ideal)) (x1 : (⟨S12x192x768, .f32⟩ : BufTy).Contents (Elt Ideal))
    (b : Fin 64) (n : Fin 12) (i d : Fin 64) :
    val_main_v23 (F := Ideal) x0 x1 (ix4 b n i d) = Cert.Spec.ctx x0 x1 b n i d := by
  rw [val_main_v23_apply]
  unfold Cert.Spec.ctx
  refine Finset.sum_congr rfl fun j _ => ?_
  have el : lidx_main_v23 (ix4 b n i d) j = ix4 b n i j :=
    funext fun a => Fin.ext (by match a with | ⟨0, _⟩ => rfl | ⟨1, _⟩ => rfl | ⟨2, _⟩ => rfl | ⟨3, _⟩ => rfl)
  have er : ridx_main_v23 (ix4 b n i d) j = ix4 b n j d :=
    funext fun a => Fin.ext (by match a with | ⟨0, _⟩ => rfl | ⟨1, _⟩ => rfl | ⟨2, _⟩ => rfl | ⟨3, _⟩ => rfl)
  rw [el, er, attn_eq, v_eq]

end Cert.ReferenceIdeal.RefValue

end
-- ==== Proof.RefOut.lean ====
/-
  The reference's linear layer and result 0, read index by index at the exact (extended-real) instance.

  The context [64,12,64,64] is re-laid row-major as [64, 49152]: column κ of row b is the entry
  (n, i, d) = (κ / 4096, κ / 64 mod 64, κ mod 64). The linear layer contracts that column index against the
  transposed weight (so W_lin is read at (o, κ)) and adds the bias, broadcast over the 64 rows. Result 0 re-lays
  [64, 4096] as [64,1,64,64]: entry (b, 0, r, c) is column r·64 + c of row b.
-/
import proofs.«148574_j76940044140789_2_alg».proof.Proof.RefCtx

noncomputable section

open scoped BigOperators

namespace Cert.ReferenceIdeal.RefValue

open Cert.ReferenceIdeal Cert.ReferenceIdeal.Gen Cert.ReferenceIdeal.Read Idealize.ShloMosaic Idealize.ShloMosaic.ValueIdx

/-- The flattened context at (b, κ). -/
theorem zflat_eq (x0 : (⟨S64x64x768, .f32⟩ : BufTy).Contents (Elt Ideal)) (x1 : (⟨S12x192x768, .f32⟩ : BufTy).Contents (Elt Ideal))
    (b : Fin 64) (κ : Fin 49152) :
    val_main_v24 (F := Ideal) x0 x1 (ix2 b κ) = Cert.Spec.zflat x0 x1 b κ := by
  rw [val_main_v24_apply]
  have hb : b.val < 64 := b.isLt
  have hκ : κ.val < 49152 := κ.isLt
  have e : idx_main_v24 (ix2 b κ)
      = ix4 b (⟨κ.val / 4096, by omega⟩ : Fin 12) (⟨κ.val / 64 % 64, by omega⟩ : Fin 64) (⟨κ.val % 64, by omega⟩ : Fin 64) :=
    funext fun a => Fin.ext (by
      match a with
      | ⟨0, _⟩ => show (b.val * 49152 + κ.val) / 49152 = b.val; omega
      | ⟨1, _⟩ => show (b.val * 49152 + κ.val) / 4096 % 12 = κ.val / 4096; omega
      | ⟨2, _⟩ => show (b.val * 49152 + κ.val) / 64 % 64 = κ.val / 64 % 64; omega
      | ⟨3, _⟩ => show (b.val * 49152 + κ.val) % 64 = κ.val % 64; omega)
  rw [e, ctx_eq]; rfl

/-- The linear layer at (b, o): the contraction plus the bias. -/
theorem y_eq (x0 : (⟨S64x64x768, .f32⟩ : BufTy).Contents (Elt Ideal)) (x1 : (⟨S12x192x768, .f32⟩ : BufTy).Contents (Elt Ideal))
    (x2 : (⟨S4096x49152, .f32⟩ : BufTy).Contents (Elt Ideal)) (x3 : (⟨S4096, .f32⟩ : BufTy).Contents (Elt Ideal))
    (b : Fin 64) (o : Fin 4096) :
    val_main_v29 (F := Ideal) x0 x1 x2 x3 (ix2 b o) = Cert.Spec.y x0 x1 x2 x3 b o := by
  rw [val_main_v29_apply, val_main_v26_apply, val_main_v28_apply, val_main_v27_apply]
  simp only [Ideal.addf_def]
  unfold Cert.Spec.y
  have hbias : idx_main_v27 (idx_main_v28 (ix2 b o)) = ix1 o :=
    funext fun a => Fin.ext (by match a with | ⟨0, _⟩ => rfl)
  rw [hbias]
  refine congrArg (· + x3 (ix1 o)) (Finset.sum_congr rfl fun κ _ => ?_)
  have el : lidx_main_v26 (ix2 b o) κ = ix2 b κ :=
    funext fun a => Fin.ext (by match a with | ⟨0, _⟩ => rfl | ⟨1, _⟩ => rfl)
  have er : idx_main_v25 (ridx_main_v26 (ix2 b o) κ) = ix2 o κ :=
    funext fun a => Fin.ext (by match a with | ⟨0, _⟩ => rfl | ⟨1, _⟩ => rfl)
  rw [el, zflat_eq, val_main_v25_apply, er]

/-- RESULT 0: the reference's first result is the specification's. -/
theorem out0_eq (x0 : (⟨S64x64x768, .f32⟩ : BufTy).Contents (Elt Ideal)) (x1 : (⟨S12x192x768, .f32⟩ : BufTy).Contents (Elt Ideal))
    (x2 : (⟨S4096x49152, .f32⟩ : BufTy).Contents (Elt Ideal)) (x3 : (⟨S4096, .f32⟩ : BufTy).Contents (Elt Ideal)) :
    val_main_v30 (F := Ideal) x0 x1 x2 x3 = Cert.Spec.out0 x0 x1 x2 x3 := by
  funext t
  obtain ⟨b, u, r, c, rfl⟩ : ∃ (b : Fin 64) (u : Fin 1) (r c : Fin 64), t = ix4 b u r c := ⟨t 0, t 1, t 2, t 3, eq_ix4 t⟩
  rw [val_main_v30_apply, Cert.Spec.out0_ix4]
  have hb : b.val < 64 := b.isLt
  have hu : u.val < 1 := u.isLt
  have hr : r.val < 64 := r.isLt
  have hc : c.val < 64 := c.isLt
  have e : idx_main_v30 (ix4 b u r c) = ix2 b (⟨r.val * 64 + c.val, by omega⟩ : Fin 4096) :=
    funext fun a => Fin.ext (by
      match a with
      | ⟨0, _⟩ => show (((b.val * 1 + u.val) * 64 + r.val) * 64 + c.val) / 4096 = b.val; omega
      | ⟨1, _⟩ => show (((b.val * 1 + u.val) * 64 + r.val) * 64 + c.val) % 4096 = r.val * 64 + c.val; omega)
  rw [e, y_eq]

end Cert.ReferenceIdeal.RefValue

end
-- ==== Proof.RefValue.lean ====
/-
  The reference program's results, read index by index at the exact (extended-real) instance.

  Both results of the reference's run are the specification's functions of the four argument arrays: result 1 the
  masked scores (RefScores), result 0 the linear layer over the flattened context (RefCtx for the softmax and the
  context, RefOut for the flattening, the contraction with the bias, and the final re-laying). Stated here once more
  over the terms the run itself names, for the launch contents of the four arguments.
-/
import proofs.«148574_j76940044140789_2_alg».proof.Proof.Gen.ReferenceIdeal.Run
import proofs.«148574_j76940044140789_2_alg».proof.Proof.Gen.ReferenceIdeal.Read
import proofs.«148574_j76940044140789_2_alg».proof.Proof.RefScores
import proofs.«148574_j76940044140789_2_alg».proof.Proof.RefCtx
import proofs.«148574_j76940044140789_2_alg».proof.Proof.RefOut

noncomputable section

namespace Cert.ReferenceIdeal.RefValue

open Cert.ReferenceIdeal Cert.ReferenceIdeal.Gen Cert.ReferenceIdeal.Read Idealize.ShloMosaic Idealize.ShloMosaic.TcCoe Idealize.SL.Sem

/-- RESULT 0 as the run names it: the specification's out0 of the arguments' launch contents. -/
theorem result0_eq (m : (ℓ : Loc nD τ sig) → Buf (Elt Ideal) ℓ) (c : Dev nD) :
    Cert.ReferenceIdeal.Value.res_main_v30 (F := Ideal) m c
      = Cert.Spec.out0 (m ((c.tc : Thread nD τ).loc main_arg0)) (m ((c.tc : Thread nD τ).loc main_arg1))
          (m ((c.tc : Thread nD τ).loc main_arg2)) (m ((c.tc : Thread nD τ).loc main_arg3)) :=
  (val_main_v30_eq (F := Ideal) m c).trans (out0_eq _ _ _ _)

end Cert.ReferenceIdeal.RefValue

end
-- ==== Proof.lean ====
/-
  The certificate of the attention-plus-linear kernel against its reference.

  FRAMES. The kernel's program is a stretch of host re-layings, the attention region, a stretch, the linear region, a
  stretch. Each region's body is run once symbolically (the attention body's loop over the eight batch rows of a block
  by its invariant; the linear body in its three control cases — first, middle and last step of a 24-step contraction —
  with the accumulator it carries between grid points named point by point), at ANY float instance, so the same run
  serves the word-level program and the idealized one; the region records and the host stretches are then chained
  from the launch to the return, and every final state holds every unscoped buffer at a fold of the launch memory
  that never writes an argument array. The reference has no kernel: its frame is its run with the results dropped.

  VALUES, at the exact instance (floats are extended reals, every operation exact, a change of float format the
  identity). Both programs compute, per batch row b and head n, qkv = x_b · W_nᵀ, the scaled causal scores
  (q·kᵀ)/8 with -∞ above the diagonal, their row softmax (one shared function of a score row, never opened),
  the contexts softmax · v, and then y = ctx_flat · W_linᵀ + b_lin. They differ in three ways, none of which needs
  finiteness: the kernel multiplies by the word 0.125 where the reference divides by the square root of 64 (on the
  extended reals a quotient by 8 is the product with 1/8); the kernel projects all heads in one product and cuts the
  heads out of its columns; and it adds the 49152-term contraction up in 24 consecutive blocks onto a zero
  accumulator, which regroups a finite sum in a commutative monoid.
-/
import proofs.«148574_j76940044140789_2_alg».proof.Defs
import proofs.«148574_j76940044140789_2_alg».proof.Proof.Gen.Kernel
import proofs.«148574_j76940044140789_2_alg».proof.Proof.Gen.KernelIdeal
import proofs.«148574_j76940044140789_2_alg».proof.Proof.Gen.ReferenceIdeal
import proofs.«148574_j76940044140789_2_alg».proof.Proof.Gen.Pre_finite_inputs
import proofs.«148574_j76940044140789_2_alg».proof.Proof.Gen.ReferenceIdeal.Run
import proofs.«148574_j76940044140789_2_alg».proof.Proof.K.Run
import proofs.«148574_j76940044140789_2_alg».proof.Proof.KI.Run
import proofs.«148574_j76940044140789_2_alg».proof.Proof.KernelValue
import proofs.«148574_j76940044140789_2_alg».proof.Proof.AttnValue
import proofs.«148574_j76940044140789_2_alg».proof.Proof.LinValue
import proofs.«148574_j76940044140789_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Run.frame m ρ
/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Run.frame m ρ
/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)
/-- The idealization rewrote nothing. -/
theorem preserves : Cert.preserves_Kernel_KernelIdeal := trivial

open Cert.KernelIdeal Cert.KernelIdeal.Run Cert.KernelIdeal.KValue in
/-- At the exact instance both programs end with the specification's two arrays of their (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  have hC : Cert.KernelIdeal.AttnFinal.TripCtx := Cert.KernelIdeal.AttnValue.trip_ctx_pieces
  have hS : Cert.KernelIdeal.AttnFinal.TripScore := Cert.KernelIdeal.AttnValue.trip_score_pieces
  have hL : Cert.KernelIdeal.KValue.LinFinal := Cert.KernelIdeal.LinValue.final1_3
  refine ⟨fun c => Cert.Spec.out0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.masked (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun r h c =>
      ⟨(h c _ (mem_uc main_v5 (by decide))).trans (result0 m hC hL c),
       (h c _ (mem_uc main_v1_1 (by decide))).trans (result1 m hS c),
       (h c _ (mem_uc main_arg0 (by decide))).trans (W5_main_arg0 m c),
       (h c _ (mem_uc main_arg1 (by decide))).trans (W5_main_arg1 m c),
       (h c _ (mem_uc main_arg2 (by decide))).trans (W5_main_arg2 m c),
       (h c _ (mem_uc main_arg3 (by decide))).trans (W5_main_arg3 m c)⟩) (run_all m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.RefValue.result0_eq, (hagree c).1, (hagree c).2.1, (hagree c).2.2.1, (hagree c).2.2.2]
    · refine (Cert.ReferenceIdeal.Read.val_main_v11_eq _ _).trans ?_
      rw [Cert.ReferenceIdeal.RefValue.scores_eq, (hagree c).1, (hagree c).2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
